-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4x256 : Shape := ⟨3, ![2048, 4, 256]⟩
abbrev S_ : Shape := ⟨0, ![]⟩

class Facts : Prop where
  bcast_S_S2048x4x256 : S_.BroadcastsInDim S2048x4x256 (![] : Fin 0 → Fin S2048x4x256.rank)
  reducesTo_S2048x4x256_S_d0_1_2 : S2048x4x256.ReducesTo [0, 1, 2] S_
  h_S_ : 0 < S_.numel

variable [Facts]

def fn {F : FTy → Type} [FloatOps F] (main_arg0 : FVec F S2048x4x256 .f32) : IVec S_ 1 :=
  let main_v0 : FVec F S2048x4x256 .f32 := Host.absf main_arg0
  let main_cst : FVec F S_ .f32 := constant S_ .f32 0x7F800000#32
  let main_v1 : FVec F S2048x4x256 .f32 := broadcastInDim S2048x4x256 ![] bcast_S_S2048x4x256 main_cst
  let main_v2 : IVec S2048x4x256 1 := cmpf .olt main_v0 main_v1
  let main_c : IVec S_ 1 := constantI S_ 1 1#1
  let main_v3 : IVec S_ 1 := (fun x v => Host.reduce IntOp.andi x v reducesTo_S2048x4x256_S_d0_1_2 h_S_) main_v2 main_c
  main_v3
-- ==== Kernel.lean ====
abbrev S2048x4x256 : Shape := ⟨3, ![2048, 4, 256]⟩
abbrev S2048 : Shape := ⟨1, ![2048]⟩
abbrev S256x4x256 : Shape := ⟨3, ![256, 4, 256]⟩
abbrev S256 : Shape := ⟨1, ![256]⟩
abbrev S256x16 : Shape := ⟨2, ![256, 16]⟩
abbrev S256x1 : Shape := ⟨2, ![256, 1]⟩
abbrev S256x256 : Shape := ⟨2, ![256, 256]⟩
abbrev S256x1x256 : Shape := ⟨3, ![256, 1, 256]⟩
abbrev S_ : Shape := ⟨0, ![]⟩

abbrev nBuf : Space → Nat
  | .hbm => 6
  | .vmem => 8
  | .smem => 0
  | _ => 0

abbrev bufTy : (tb : Table) → Fin (tcTables nBuf tb) → BufTy
  | .hbm, ⟨0, _⟩ => ⟨S2048x4x256, .f32⟩
  | .hbm, ⟨1, _⟩ => ⟨S2048, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .local _ .vmem, ⟨0, _⟩ => ⟨S256x4x256, .f32⟩
  | .local _ .vmem, ⟨1, _⟩ => ⟨S256x4x256, .f32⟩
  | .local _ .vmem, ⟨2, _⟩ => ⟨S256x4x256, .f32⟩
  | .local _ .vmem, ⟨3, _⟩ => ⟨S256x4x256, .f32⟩
  | .local _ .vmem, ⟨4, _⟩ => ⟨S256, .f32⟩
  | .local _ .vmem, ⟨5, _⟩ => ⟨S256, .f32⟩
  | .local _ .vmem, ⟨6, _⟩ => ⟨S256x16, .f32⟩
  | .local _ .vmem, ⟨7, _⟩ => ⟨S256x1, .f32⟩
  | _, _ => ⟨S2048x4x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v363 : BitVec 1 := Scalar.cmpi .eq arg1 c7_i32
  let v364 : BitVec 32 := Scalar.extui v363
  let c0_i32_140 : BitVec 32 := 0#32
  let v365 : BitVec 1 := Scalar.cmpi .ne v364 c0_i32_140
  v365

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage0_0 : Fin 2 → Memref sig .tc .vmem S256x4x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S256x16_S256x16_0_0 : ∀ a, (![0, 0] : Fin 2 → Nat) a + S256x16.size a ≤ S256x16.size a
  h_S256x16 : 0 < S256x16.numel
  shapeCasts_S256x16_S256x16 : S256x16.ShapeCasts S256x16
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x4x256_S256x4x256_0_0_0 : ∀ a, (![0, 0, 0] : Fin 3 → Nat) a + S256x4x256.size a ≤ S256x4x256.size a
  h_S256x4x256 : 0 < S256x4x256.numel
  iota_S256x256_d0_w32 : S256x256.Iotas .tc 32 [0]
  iota_S256x256_d1_w32 : S256x256.Iotas .tc 32 [1]
  natLt_1_32 : 1 < 32
  slices_S256x4x256_o0_0_0_S256x1x256 : S256x4x256.Slices ![0, 0, 0] S256x1x256
  shapeCasts_S256x1x256_S256x256 : S256x1x256.ShapeCasts S256x256
  slices_S256x4x256_o0_1_0_S256x1x256 : S256x4x256.Slices ![0, 1, 0] S256x1x256
  slices_S256x4x256_o0_2_0_S256x1x256 : S256x4x256.Slices ![0, 2, 0] S256x1x256
  slices_S256x4x256_o0_3_0_S256x1x256 : S256x4x256.Slices ![0, 3, 0] S256x1x256
  reduces_S256x256_S256 : S256x256.Reduces [1] S256
  inb_S256x16_S256x1_0_0 : ∀ a, (![0, 0] : Fin 2 → Nat) a + S256x1.size a ≤ S256x16.size a
  shapeCasts_S256x1_S256 : S256x1.ShapeCasts S256
  shapeCasts_S256_S256x1 : S256.ShapeCasts S256x1
  inb_S256x16_S256x1_0_1 : ∀ a, (![0, 1] : Fin 2 → Nat) a + S256x1.size a ≤ S256x16.size a
  inb_S256x16_S256x1_0_2 : ∀ a, (![0, 2] : Fin 2 → Nat) a + S256x1.size a ≤ S256x16.size a
  inb_S256x16_S256x1_0_3 : ∀ a, (![0, 3] : Fin 2 → Nat) a + S256x1.size a ≤ S256x16.size a
  inb_S256x16_S256x1_0_4 : ∀ a, (![0, 4] : Fin 2 → Nat) a + S256x1.size a ≤ S256x16.size a
  inb_S256x16_S256x1_0_5 : ∀ a, (![0, 5] : Fin 2 → Nat) a + S256x1.size a ≤ S256x16.size a
  inb_S256x16_S256x1_0_6 : ∀ a, (![0, 6] : Fin 2 → Nat) a + S256x1.size a ≤ S256x16.size a
  inb_S256x16_S256x1_0_7 : ∀ a, (![0, 7] : Fin 2 → Nat) a + S256x1.size a ≤ S256x16.size a
  inb_S256x16_S256x1_0_8 : ∀ a, (![0, 8] : Fin 2 → Nat) a + S256x1.size a ≤ S256x16.size a
  inb_S256x16_S256x1_0_9 : ∀ a, (![0, 9] : Fin 2 → Nat) a + S256x1.size a ≤ S256x16.size a
  inb_S256x16_S256x1_0_10 : ∀ a, (![0, 10] : Fin 2 → Nat) a + S256x1.size a ≤ S256x16.size a
  inb_S256x16_S256x1_0_11 : ∀ a, (![0, 11] : Fin 2 → Nat) a + S256x1.size a ≤ S256x16.size a
  inb_S256x16_S256x1_0_12 : ∀ a, (![0, 12] : Fin 2 → Nat) a + S256x1.size a ≤ S256x16.size a
  inb_S256x16_S256x1_0_13 : ∀ a, (![0, 13] : Fin 2 → Nat) a + S256x1.size a ≤ S256x16.size a
  inb_S256x16_S256x1_0_14 : ∀ a, (![0, 14] : Fin 2 → Nat) a + S256x1.size a ≤ S256x16.size a
  inb_S256x16_S256x1_0_15 : ∀ a, (![0, 15] : Fin 2 → Nat) a + S256x1.size a ≤ S256x16.size a
  slices_S256x16_o0_0_S256x1 : S256x16.Slices ![0, 0] S256x1
  slices_S256x16_o0_1_S256x1 : S256x16.Slices ![0, 1] S256x1
  slices_S256x16_o0_2_S256x1 : S256x16.Slices ![0, 2] S256x1
  slices_S256x16_o0_3_S256x1 : S256x16.Slices ![0, 3] S256x1
  slices_S256x16_o0_4_S256x1 : S256x16.Slices ![0, 4] S256x1
  slices_S256x16_o0_5_S256x1 : S256x16.Slices ![0, 5] S256x1
  slices_S256x16_o0_6_S256x1 : S256x16.Slices ![0, 6] S256x1
  slices_S256x16_o0_7_S256x1 : S256x16.Slices ![0, 7] S256x1
  slices_S256x16_o0_8_S256x1 : S256x16.Slices ![0, 8] S256x1
  slices_S256x16_o0_9_S256x1 : S256x16.Slices ![0, 9] S256x1
  slices_S256x16_o0_10_S256x1 : S256x16.Slices ![0, 10] S256x1
  slices_S256x16_o0_11_S256x1 : S256x16.Slices ![0, 11] S256x1
  slices_S256x16_o0_12_S256x1 : S256x16.Slices ![0, 12] S256x1
  slices_S256x16_o0_13_S256x1 : S256x16.Slices ![0, 13] S256x1
  slices_S256x16_o0_14_S256x1 : S256x16.Slices ![0, 14] S256x1
  slices_S256x16_o0_15_S256x1 : S256x16.Slices ![0, 15] S256x1
  inb_S256_S256_0 : ∀ a, (![0] : Fin 1 → Nat) a + S256.size a ≤ S256.size a
  h_S256 : 0 < S256.numel
  reducesTo_S2048_S_d0 : S2048.ReducesTo [0] S_
  h_S_ : 0 < S_.numel
  dot_S256x256_S256x256_S256x256_1_1_0_0_n_n_wf : DotDims.WF S256x256 S256x256 S256x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4x256.size a ≤ S2048x4x256.size a
  hwx0_0 : ∀ i : grid0.Coords, EltTy.bits .f32 = 32 ∨ (Rect.block (s := S2048x4x256) S256x4x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4x256.size a ≤ S2048x4x256.size a
  hwx0_1 : ∀ i : grid0.Coords, EltTy.bits .f32 = 32 ∨ (Rect.block (s := S2048x4x256) S256x4x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S2048.size a
  hwx0_2 : ∀ i : grid0.Coords, EltTy.bits .f32 = 32 ∨ (Rect.block (s := S2048) S256.size (cc0_transform_2 i) (hinb0_2 i)).WholeWords (EltTy.packing .f32)

variable [Facts₀]

def dot_S256x256_S256x256_S256x256_1_1_0_0_n_n : DotDims S256x256 S256x256 S256x256 where
  lhsContracting := [1]
  rhsContracting := [1]
  lhsNonContracting := [0]
  rhsNonContracting := [0]
  lhsBatch := []
  rhsBatch := []
  wf := dot_S256x256_S256x256_S256x256_1_1_0_0_n_n_wf

abbrev win0_0 : Pipeline.Window sig grid0 :=
  Pipeline.Window.ofSpec (Memref.whole main_arg0) S256x4x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S256x4x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S2048x4x256 : Shape := ⟨3, ![2048, 4, 256]⟩
abbrev S2048x4x2048x4 : Shape := ⟨4, ![2048, 4, 2048, 4]⟩
abbrev S2048x2048x4x4 : Shape := ⟨4, ![2048, 2048, 4, 4]⟩
abbrev S_ : Shape := ⟨0, ![]⟩
abbrev S2048x2048x4 : Shape := ⟨3, ![2048, 2048, 4]⟩
abbrev S2048x2048x4x1 : Shape := ⟨4, ![2048, 2048, 4, 1]⟩
abbrev S2048x2048 : Shape := ⟨2, ![2048, 2048]⟩
abbrev S2048x4x4 : Shape := ⟨3, ![2048, 4, 4]⟩
abbrev S4x4 : Shape := ⟨2, ![4, 4]⟩
abbrev S1x4x4 : Shape := ⟨3, ![1, 4, 4]⟩
abbrev S2048 : Shape := ⟨1, ![2048]⟩

abbrev nBuf : Space → Nat
  | .hbm => 61
  | .vmem => 0
  | .smem => 0
  | _ => 0

abbrev bufTy : (tb : Table) → Fin (tcTables nBuf tb) → BufTy
  | .hbm, ⟨0, _⟩ => ⟨S2048x4x256, .f32⟩
  | .hbm, ⟨1, _⟩ => ⟨S2048x4x2048x4, .f32⟩
  | .hbm, ⟨2, _⟩ => ⟨S2048x2048x4x4, .f32⟩
  | .hbm, ⟨3, _⟩ => ⟨S_, .f32⟩
  | .hbm, ⟨4, _⟩ => ⟨S2048x2048x4x4, .f32⟩
  | .hbm, ⟨5, _⟩ => ⟨S2048x2048x4x4, .f32⟩
  | .hbm, ⟨6, _⟩ => ⟨S_, .f32⟩
  | .hbm, ⟨7, _⟩ => ⟨S2048x2048x4, .f32⟩
  | .hbm, ⟨8, _⟩ => ⟨S2048x2048x4x1, .f32⟩
  | .hbm, ⟨9, _⟩ => ⟨S2048x2048x4x4, .f32⟩
  | .hbm, ⟨10, _⟩ => ⟨S2048x2048x4x4, .f32⟩
  | .hbm, ⟨11, _⟩ => ⟨S2048x2048x4x4, .f32⟩
  | .hbm, ⟨12, _⟩ => ⟨S2048x2048, .i32⟩
  | .hbm, ⟨13, _⟩ => ⟨S2048x2048, .i32⟩
  | .hbm, ⟨14, _⟩ => ⟨S2048x2048, .i1⟩
  | .hbm, ⟨15, _⟩ => ⟨S2048x2048x4x4, .i1⟩
  | .hbm, ⟨16, _⟩ => ⟨S_, .f32⟩
  | .hbm, ⟨17, _⟩ => ⟨S2048x2048x4x4, .f32⟩
  | .hbm, ⟨18, _⟩ => ⟨S2048x2048x4x4, .f32⟩
  | .hbm, ⟨19, _⟩ => ⟨S_, .f32⟩
  | .hbm, ⟨20, _⟩ => ⟨S2048x4x4, .f32⟩
  | .hbm, ⟨21, _⟩ => ⟨S4x4, .i32⟩
  | .hbm, ⟨22, _⟩ => ⟨S4x4, .i32⟩
  | .hbm, ⟨23, _⟩ => ⟨S_, .i32⟩
  | .hbm, ⟨24, _⟩ => ⟨S4x4, .i32⟩
  | .hbm, ⟨25, _⟩ => ⟨S4x4, .i32⟩
  | .hbm, ⟨26, _⟩ => ⟨S4x4, .i1⟩
  | .hbm, ⟨27, _⟩ => ⟨S4x4, .i1⟩
  | .hbm, ⟨28, _⟩ => ⟨S4x4, .f32⟩
  | .hbm, ⟨29, _⟩ => ⟨S1x4x4, .f32⟩
  | .hbm, ⟨30, _⟩ => ⟨S2048x4x4, .f32⟩
  | .hbm, ⟨31, _⟩ => ⟨S2048x4x4, .f32⟩
  | .hbm, ⟨32, _⟩ => ⟨S_, .f32⟩
  | .hbm, ⟨33, _⟩ => ⟨S2048, .f32⟩
  | .hbm, ⟨34, _⟩ => ⟨S_, .f32⟩
  | .hbm, ⟨35, _⟩ => ⟨S2048, .f32⟩
  | .hbm, ⟨36, _⟩ => ⟨S2048, .f32⟩
  | .hbm, ⟨37, _⟩ => ⟨S2048x2048x4x4, .f32⟩
  | .hbm, ⟨38, _⟩ => ⟨S_, .f32⟩
  | .hbm, ⟨39, _⟩ => ⟨S2048x2048x4x4, .f32⟩
  | .hbm, ⟨40, _⟩ => ⟨S2048x2048x4x4, .f32⟩
  | .hbm, ⟨41, _⟩ => ⟨S2048x4x4, .f32⟩
  | .hbm, ⟨42, _⟩ => ⟨S_, .f32⟩
  | .hbm, ⟨43, _⟩ => ⟨S2048x4x4, .f32⟩
  | .hbm, ⟨44, _⟩ => ⟨S2048x4x4, .f32⟩
  | .hbm, ⟨45, _⟩ => ⟨S_, .f32⟩
  | .hbm, ⟨46, _⟩ => ⟨S2048, .f32⟩
  | .hbm, ⟨47, _⟩ => ⟨S_, .f32⟩
  | .hbm, ⟨48, _⟩ => ⟨S2048, .f32⟩
  | .hbm, ⟨49, _⟩ => ⟨S2048, .f32⟩
  | .hbm, ⟨50, _⟩ => ⟨S_, .f32⟩
  | .hbm, ⟨51, _⟩ => ⟨S2048, .f32⟩
  | .hbm, ⟨52, _⟩ => ⟨S2048, .f32⟩
  | .hbm, ⟨53, _⟩ => ⟨S_, .f32⟩
  | .hbm, ⟨54, _⟩ => ⟨S2048, .f32⟩
  | .hbm, ⟨55, _⟩ => ⟨S2048, .f32⟩
  | .hbm, ⟨56, _⟩ => ⟨S2048, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | _, _ => ⟨S2048x4x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_1 : Ref sig .tc := ⟨.hbm, 16, rfl⟩
abbrev main_v13 : Ref sig .tc := ⟨.hbm, 17, rfl⟩
abbrev main_v14 : Ref sig .tc := ⟨.hbm, 18, rfl⟩
abbrev main_cst_2 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_c : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_3 : Ref sig .tc := ⟨.hbm, 32, rfl⟩
abbrev main_v26 : Ref sig .tc := ⟨.hbm, 33, rfl⟩
abbrev main_cst_4 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_5 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_6 : Ref sig .tc := ⟨.hbm, 42, rfl⟩
abbrev main_v33 : Ref sig .tc := ⟨.hbm, 43, rfl⟩
abbrev main_v34 : Ref sig .tc := ⟨.hbm, 44, rfl⟩
abbrev main_cst_7 : Ref sig .tc := ⟨.hbm, 45, rfl⟩
abbrev main_v35 : Ref sig .tc := ⟨.hbm, 46, rfl⟩
abbrev main_cst_8 : Ref sig .tc := ⟨.hbm, 47, rfl⟩
abbrev main_v36 : Ref sig .tc := ⟨.hbm, 48, rfl⟩
abbrev main_v37 : Ref sig .tc := ⟨.hbm, 49, rfl⟩
abbrev main_cst_9 : Ref sig .tc := ⟨.hbm, 50, rfl⟩
abbrev main_v38 : Ref sig .tc := ⟨.hbm, 51, rfl⟩
abbrev main_v39 : Ref sig .tc := ⟨.hbm, 52, rfl⟩
abbrev main_cst_10 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_11 : Ref sig .tc := ⟨.hbm, 57, rfl⟩
abbrev main_v43 : Ref sig .tc := ⟨.hbm, 58, rfl⟩
abbrev main_cst_12 : Ref sig .tc := ⟨.hbm, 59, rfl⟩
abbrev main_v44 : Ref sig .tc := ⟨.hbm, 60, rfl⟩

abbrev nD : Nat := 1
abbrev τ : Topo := Topo.v7x

variable {F : FTy → Type} [FloatOps F]

class Facts₀ : Prop where
  transposes_S2048x4x2048x4_S2048x2048x4x4_2_0_3_1 : S2048x4x2048x4.Transposes [2, 0, 3, 1] S2048x2048x4x4
  bcast_S_S2048x2048x4x4 : S_.BroadcastsInDim S2048x2048x4x4 (![] : Fin 0 → Fin S2048x2048x4x4.rank)
  reducesTo_S2048x2048x4x4_S2048x2048x4_d3 : S2048x2048x4x4.ReducesTo [3] S2048x2048x4
  h_S_ : 0 < S_.numel
  bcast_S2048x2048x4_S2048x2048x4x1_0_1_2 : S2048x2048x4.BroadcastsInDim S2048x2048x4x1 (![0, 1, 2] : Fin 3 → Fin S2048x2048x4x1.rank)
  bcast_S2048x2048x4x1_S2048x2048x4x4_0_1_2_3 : S2048x2048x4x1.BroadcastsInDim S2048x2048x4x4 (![0, 1, 2, 3] : Fin 4 → Fin S2048x2048x4x4.rank)
  bcast_S2048x2048_S2048x2048x4x4_0_1 : S2048x2048.BroadcastsInDim S2048x2048x4x4 (![0, 1] : Fin 2 → Fin S2048x2048x4x4.rank)
  reducesTo_S2048x2048x4x4_S2048x4x4_d0 : S2048x2048x4x4.ReducesTo [0] S2048x4x4
  bcast_S_S4x4 : S_.BroadcastsInDim S4x4 (![] : Fin 0 → Fin S4x4.rank)
  bcast_S4x4_S1x4x4_1_2 : S4x4.BroadcastsInDim S1x4x4 (![1, 2] : Fin 2 → Fin S1x4x4.rank)
  bcast_S1x4x4_S2048x4x4_0_1_2 : S1x4x4.BroadcastsInDim S2048x4x4 (![0, 1, 2] : Fin 3 → Fin S2048x4x4.rank)
  reducesTo_S2048x4x4_S2048_d1_2 : S2048x4x4.ReducesTo [1, 2] S2048
  bcast_S_S2048 : S_.BroadcastsInDim S2048 (![] : Fin 0 → Fin S2048.rank)
  bcast_S_S2048x4x4 : S_.BroadcastsInDim S2048x4x4 (![] : Fin 0 → Fin S2048x4x4.rank)
  reducesTo_S2048x2048x4x4_S2048_d1_2_3 : S2048x2048x4x4.ReducesTo [1, 2, 3] S2048
  reducesTo_S2048_S_d0 : S2048.ReducesTo [0] S_
  dot_S2048x4x256_S2048x4x256_S2048x4x2048x4_2_2_01_01_n_n_wf : DotDims.WF S2048x4x256 S2048x4x256 S2048x4x2048x4 [2] [2] [0, 1] [0, 1] [] []

variable [Facts₀]

def dot_S2048x4x256_S2048x4x256_S2048x4x2048x4_2_2_01_01_n_n : DotDims S2048x4x256 S2048x4x256 S2048x4x2048x4 where
  lhsContracting := [2]
  rhsContracting := [2]
  lhsNonContracting := [0, 1]
  rhsNonContracting := [0, 1]
  lhsBatch := []
  rhsBatch := []
  wf := dot_S2048x4x256_S2048x4x256_S2048x4x2048x4_2_2_01_01_n_n_wf

class Facts : Prop extends Facts₀ where

variable [Facts]
-- ==== Proof.WBase.lean ====
/-
  What the three runs of the kernel body and the frame built on them share, at any float instance: the arrays as the
  region finds them, a window's block at a grid point, the two conditions of the body (the reduction axis at its first
  step, where the two accumulators are reset; at its last, where the row losses are formed and stored) in closed form
  over the 8 × 8 grid, where the output window is idle, and the names of the staging and scratch memrefs.
-/
import proofs.«150541_j83794811945494_1_alg».proof.Proof.Gen.Kernel.Launch
import proofs.«150541_j83794811945494_1_alg».proof.Proof.Gen.Kernel.Skeleton
import proofs.«150541_j83794811945494_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays around the region -/

/-- Core `c`'s buffer contents when the region is entered: no host operation precedes it. -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

theorem V_main_arg0 (c : Dev nD) : V m c main_arg0 = m ((c : Thread nD τ).loc main_arg0) := rfl

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's two conditions -/

/-- The reduction axis is at its first step: the accumulators are reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The reduction axis is at its last step: the row losses are formed and stored. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Off the last step of the reduction axis the output window is idle and is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At the last step it is stored. -/
theorem liveAt0_2 : ∀ t : Fin cfg0.N, cond0_1 (grid0.coords t) → cfg0.idle 2 (grid0.coords t) = false := by decide +kernel

/-! ## The memrefs the body is called with -/

abbrev VO0_2 : View sig .tc .vmem S256 .f32 := (Memref.whole cc0_stg2_0 : Memref sig .tc .vmem S256 .f32).view
abbrev ms0_0 (t : Fin cfg0.N) : Memref sig .tc .vmem S256x4x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x4x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256 .f32 := win0_2.stage (cfg0.slots t 2)
abbrev hs0_2 (t : Fin cfg0.N) : (ms0_2 t).IsWhole := hstage0_2 ((cfg0.slots t 2).cast nbuf0_2)
/-- The two accumulators: the sixteen columns of pair sums, and the running sum of clamped squares. -/
abbrev scM0_0 : Memref sig .tc .vmem S256x16 .f32 := Memref.whole cc0_scratch0
abbrev scM0_1 : Memref sig .tc .vmem S256x1 .f32 := Memref.whole cc0_scratch1
abbrev VS0_0 : View sig .tc .vmem S256x16 .f32 := scM0_0.view
abbrev VS0_1 : View sig .tc .vmem S256x1 .f32 := scM0_1.view

/-- The region's invariant with the two accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Hand

end
-- ==== Proof.WRunB.lean ====
/-
  The kernel body at a middle step of the reduction axis (neither the first nor the last): both accumulators are read
  and added to, nothing is reset, the output window is left alone. Each accumulator ends as the pieces the
  body's stores write to it.
-/
import proofs.«150541_j83794811945494_1_alg».proof.Proof.WBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S256x4x256 .f32) (harg2 : arg2.IsWhole) (arg3 : Memref sig .tc .vmem S256x4x256 .f32) (harg3 : arg3.IsWhole) (arg4 : Memref sig .tc .vmem S256 .f32) (harg4 : arg4.IsWhole) (arg5 : Memref sig .tc .vmem S256x16 .f32) (harg5 : arg5.IsWhole) (arg6 : Memref sig .tc .vmem S256x1 .f32) (harg6 : arg6.IsWhole) (hc0 : ¬cond0_0 i) (hc1 : ¬cond0_1 i)
    (x0 x1 : Vec F S256x4x256 .f32) (xs0 : Vec F S256x16 .f32) (xs1 : Vec F S256x1 .f32) :
    Σ' (L2 : List (View.Piece (Elt F) S256 .f32)) (LS0 : List (View.Piece (Elt F) S256x16 .f32)), { LS1 : List (View.Piece (Elt F) S256x1 .f32) //
      ∀ (xi2 : Vec F S256 .f32) (E : Set ℕ) (K : PUnit → sProp 𝕄),
        iprop(owns (c : Thread nD τ) arg2 fullShare x0 ∗ owns (c : Thread nD τ) arg3 fullShare x1 ∗ owns (c : Thread nD τ) arg4 fullShare xi2
            ∗ owns (c : Thread nD τ) arg5 fullShare xs0 ∗ owns (c : Thread nD τ) arg6 fullShare xs1
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0__evdlora_kernel i arg2 harg2 arg3 harg3 arg4 harg4 arg5 harg5 arg6 harg6) K } := by
  refine ⟨[], ?_, ?_, fun xi2 E K => ?run⟩
  case run =>
    simp only [cc0__evdlora_kernel_eq_skeleton]; unfold cc0__evdlora_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.Kernel.Hand

end
-- ==== Proof.WRunA.lean ====
/-
  The kernel body at the first step of the reduction axis: both accumulators are reset to zero before they are added
  to, so nothing is assumed of what they held; the output window is left alone.
-/
import proofs.«150541_j83794811945494_1_alg».proof.Proof.WRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S256x4x256 .f32) (harg2 : arg2.IsWhole) (arg3 : Memref sig .tc .vmem S256x4x256 .f32) (harg3 : arg3.IsWhole) (arg4 : Memref sig .tc .vmem S256 .f32) (harg4 : arg4.IsWhole) (arg5 : Memref sig .tc .vmem S256x16 .f32) (harg5 : arg5.IsWhole) (arg6 : Memref sig .tc .vmem S256x1 .f32) (harg6 : arg6.IsWhole) (hc0 : cond0_0 i) (hc1 : ¬cond0_1 i)
    (x0 x1 : Vec F S256x4x256 .f32) :
    Σ' (L2 : List (View.Piece (Elt F) S256 .f32)) (LS0 : List (View.Piece (Elt F) S256x16 .f32)), { LS1 : List (View.Piece (Elt F) S256x1 .f32) //
      ∀ (xi2 : Vec F S256 .f32) (E : Set ℕ) (K : PUnit → sProp 𝕄),
        iprop(owns (c : Thread nD τ) arg2 fullShare x0 ∗ owns (c : Thread nD τ) arg3 fullShare x1 ∗ owns (c : Thread nD τ) arg4 fullShare xi2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0__evdlora_kernel i arg2 harg2 arg3 harg3 arg4 harg4 arg5 harg5 arg6 harg6) K } := by
  refine ⟨[], ?_, ?_, fun xi2 E K => ?run⟩
  case run =>
    simp only [cc0__evdlora_kernel_eq_skeleton]; unfold cc0__evdlora_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.Kernel.Hand

end
-- ==== Proof.WRunC.lean ====
/-
  The kernel body at the last step of the reduction axis: both accumulators are added to once more, then read whole;
  the row losses are formed from them and stored over the whole output block.
-/
import proofs.«150541_j83794811945494_1_alg».proof.Proof.WRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_C (c : Dev nD) (i : grid0.Coords) (arg2 : Memref sig .tc .vmem S256x4x256 .f32) (harg2 : arg2.IsWhole) (arg3 : Memref sig .tc .vmem S256x4x256 .f32) (harg3 : arg3.IsWhole) (arg4 : Memref sig .tc .vmem S256 .f32) (harg4 : arg4.IsWhole) (arg5 : Memref sig .tc .vmem S256x16 .f32) (harg5 : arg5.IsWhole) (arg6 : Memref sig .tc .vmem S256x1 .f32) (harg6 : arg6.IsWhole) (hc0 : ¬cond0_0 i) (hc1 : cond0_1 i)
    (x0 x1 : Vec F S256x4x256 .f32) (xs0 : Vec F S256x16 .f32) (xs1 : Vec F S256x1 .f32) :
    Σ' (L2 : List (View.Piece (Elt F) S256 .f32)) (LS0 : List (View.Piece (Elt F) S256x16 .f32)), { LS1 : List (View.Piece (Elt F) S256x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs0 ∗ owns (c : Thread nD τ) arg6 fullShare xs1
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0__evdlora_kernel i arg2 harg2 arg3 harg3 arg4 harg4 arg5 harg5 arg6 harg6) K } := by
  refine ⟨?_, ?_, ?_, fun E K => ?run⟩
  case run =>
    simp only [cc0__evdlora_kernel_eq_skeleton]; unfold cc0__evdlora_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg2.eq_unread hf0; obtain rfl := harg3.eq_unread hf1
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    iexists _; iexact HS1

end Cert.Kernel.Hand

end
-- ==== Proof.WFrame.lean ====
/-
  The frame of the kernel at any float instance, from the three runs of its body. After each grid point the sixteen-column
  accumulator and the running sum of clamped squares hold what that point's case of the body leaves, computed from the
  two input blocks of the point and — off the first step of the reduction axis — from what the point before left; the
  output block is written at the last step of the axis only, and is idle elsewhere. The two input windows read ONE array,
  each holding it at one half of the full share.
-/
import proofs.«150541_j83794811945494_1_alg».proof.Proof.WRunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Case A -/

/-- What case A leaves in the output block's buffer (nothing is stored: a value no later step reads). -/
def out0_A_2 (c : Dev nD) (i : grid0.Coords) (arg2 : Memref sig .tc .vmem S256x4x256 .f32) (harg2 : arg2.IsWhole) (arg3 : Memref sig .tc .vmem S256x4x256 .f32) (harg3 : arg3.IsWhole) (arg4 : Memref sig .tc .vmem S256 .f32) (harg4 : arg4.IsWhole) (arg5 : Memref sig .tc .vmem S256x16 .f32) (harg5 : arg5.IsWhole) (arg6 : Memref sig .tc .vmem S256x1 .f32) (harg6 : arg6.IsWhole) (hc0 : cond0_0 i) (hc1 : ¬cond0_1 i)
    (x0 x1 : Vec F S256x4x256 .f32) : Vec F S256 .f32 :=
  VO0_2.read (Elt F) (VO0_2.writes (Elt F) VO0_2.junk (kernelRun0_A c i arg2 harg2 arg3 harg3 arg4 harg4 arg5 harg5 arg6 harg6 hc0 hc1 x0 x1).1)

theorem scover0_A_0 (c : Dev nD) (i : grid0.Coords) (arg2 : Memref sig .tc .vmem S256x4x256 .f32) (harg2 : arg2.IsWhole) (arg3 : Memref sig .tc .vmem S256x4x256 .f32) (harg3 : arg3.IsWhole) (arg4 : Memref sig .tc .vmem S256 .f32) (harg4 : arg4.IsWhole) (arg5 : Memref sig .tc .vmem S256x16 .f32) (harg5 : arg5.IsWhole) (arg6 : Memref sig .tc .vmem S256x1 .f32) (harg6 : arg6.IsWhole) (hc0 : cond0_0 i) (hc1 : ¬cond0_1 i)
    (x0 x1 : Vec F S256x4x256 .f32) (y : S256x16.Idx) :
    ∃ pc ∈ (kernelRun0_A c i arg2 harg2 arg3 harg3 arg4 harg4 arg5 harg5 arg6 harg6 hc0 hc1 x0 x1).2.1, y ∈ pc.1.set :=
  View.cover_of_tiledL (kernelRun0_A c i arg2 harg2 arg3 harg3 arg4 harg4 arg5 harg5 arg6 harg6 hc0 hc1 x0 x1).2.1 S256x16.size (by sl_kernel_rfl) y

/-- What case A leaves in the sixteen-column accumulator. -/
def sout0_A_0 (c : Dev nD) (i : grid0.Coords) (arg2 : Memref sig .tc .vmem S256x4x256 .f32) (harg2 : arg2.IsWhole) (arg3 : Memref sig .tc .vmem S256x4x256 .f32) (harg3 : arg3.IsWhole) (arg4 : Memref sig .tc .vmem S256 .f32) (harg4 : arg4.IsWhole) (arg5 : Memref sig .tc .vmem S256x16 .f32) (harg5 : arg5.IsWhole) (arg6 : Memref sig .tc .vmem S256x1 .f32) (harg6 : arg6.IsWhole) (hc0 : cond0_0 i) (hc1 : ¬cond0_1 i)
    (x0 x1 : Vec F S256x4x256 .f32) : Vec F S256x16 .f32 :=
  VS0_0.read (Elt F) (VS0_0.writes (Elt F) VS0_0.junk (kernelRun0_A c i arg2 harg2 arg3 harg3 arg4 harg4 arg5 harg5 arg6 harg6 hc0 hc1 x0 x1).2.1)

theorem scover0_A_1 (c : Dev nD) (i : grid0.Coords) (arg2 : Memref sig .tc .vmem S256x4x256 .f32) (harg2 : arg2.IsWhole) (arg3 : Memref sig .tc .vmem S256x4x256 .f32) (harg3 : arg3.IsWhole) (arg4 : Memref sig .tc .vmem S256 .f32) (harg4 : arg4.IsWhole) (arg5 : Memref sig .tc .vmem S256x16 .f32) (harg5 : arg5.IsWhole) (arg6 : Memref sig .tc .vmem S256x1 .f32) (harg6 : arg6.IsWhole) (hc0 : cond0_0 i) (hc1 : ¬cond0_1 i)
    (x0 x1 : Vec F S256x4x256 .f32) (y : S256x1.Idx) :
    ∃ pc ∈ (kernelRun0_A c i arg2 harg2 arg3 harg3 arg4 harg4 arg5 harg5 arg6 harg6 hc0 hc1 x0 x1).2.2.1, y ∈ pc.1.set :=
  View.cover_of_tiledL (kernelRun0_A c i arg2 harg2 arg3 harg3 arg4 harg4 arg5 harg5 arg6 harg6 hc0 hc1 x0 x1).2.2.1 S256x1.size (by sl_kernel_rfl) y

/-- What case A leaves in the running sum of clamped squares. -/
def sout0_A_1 (c : Dev nD) (i : grid0.Coords) (arg2 : Memref sig .tc .vmem S256x4x256 .f32) (harg2 : arg2.IsWhole) (arg3 : Memref sig .tc .vmem S256x4x256 .f32) (harg3 : arg3.IsWhole) (arg4 : Memref sig .tc .vmem S256 .f32) (harg4 : arg4.IsWhole) (arg5 : Memref sig .tc .vmem S256x16 .f32) (harg5 : arg5.IsWhole) (arg6 : Memref sig .tc .vmem S256x1 .f32) (harg6 : arg6.IsWhole) (hc0 : cond0_0 i) (hc1 : ¬cond0_1 i)
    (x0 x1 : Vec F S256x4x256 .f32) : Vec F S256x1 .f32 :=
  VS0_1.read (Elt F) (VS0_1.writes (Elt F) VS0_1.junk (kernelRun0_A c i arg2 harg2 arg3 harg3 arg4 harg4 arg5 harg5 arg6 harg6 hc0 hc1 x0 x1).2.2.1)

/-! ## Case B -/

/-- What case B leaves in the output block's buffer (nothing is stored: a value no later step reads). -/
def out0_B_2 (c : Dev nD) (i : grid0.Coords) (arg2 : Memref sig .tc .vmem S256x4x256 .f32) (harg2 : arg2.IsWhole) (arg3 : Memref sig .tc .vmem S256x4x256 .f32) (harg3 : arg3.IsWhole) (arg4 : Memref sig .tc .vmem S256 .f32) (harg4 : arg4.IsWhole) (arg5 : Memref sig .tc .vmem S256x16 .f32) (harg5 : arg5.IsWhole) (arg6 : Memref sig .tc .vmem S256x1 .f32) (harg6 : arg6.IsWhole) (hc0 : ¬cond0_0 i) (hc1 : ¬cond0_1 i)
    (x0 x1 : Vec F S256x4x256 .f32) (xs0 : Vec F S256x16 .f32) (xs1 : Vec F S256x1 .f32) : Vec F S256 .f32 :=
  VO0_2.read (Elt F) (VO0_2.writes (Elt F) VO0_2.junk (kernelRun0_B c i arg2 harg2 arg3 harg3 arg4 harg4 arg5 harg5 arg6 harg6 hc0 hc1 x0 x1 xs0 xs1).1)

theorem scover0_B_0 (c : Dev nD) (i : grid0.Coords) (arg2 : Memref sig .tc .vmem S256x4x256 .f32) (harg2 : arg2.IsWhole) (arg3 : Memref sig .tc .vmem S256x4x256 .f32) (harg3 : arg3.IsWhole) (arg4 : Memref sig .tc .vmem S256 .f32) (harg4 : arg4.IsWhole) (arg5 : Memref sig .tc .vmem S256x16 .f32) (harg5 : arg5.IsWhole) (arg6 : Memref sig .tc .vmem S256x1 .f32) (harg6 : arg6.IsWhole) (hc0 : ¬cond0_0 i) (hc1 : ¬cond0_1 i)
    (x0 x1 : Vec F S256x4x256 .f32) (xs0 : Vec F S256x16 .f32) (xs1 : Vec F S256x1 .f32) (y : S256x16.Idx) :
    ∃ pc ∈ (kernelRun0_B c i arg2 harg2 arg3 harg3 arg4 harg4 arg5 harg5 arg6 harg6 hc0 hc1 x0 x1 xs0 xs1).2.1, y ∈ pc.1.set :=
  View.cover_of_tiledL (kernelRun0_B c i arg2 harg2 arg3 harg3 arg4 harg4 arg5 harg5 arg6 harg6 hc0 hc1 x0 x1 xs0 xs1).2.1 S256x1.size (by sl_kernel_rfl) y

/-- What case B leaves in the sixteen-column accumulator. -/
def sout0_B_0 (c : Dev nD) (i : grid0.Coords) (arg2 : Memref sig .tc .vmem S256x4x256 .f32) (harg2 : arg2.IsWhole) (arg3 : Memref sig .tc .vmem S256x4x256 .f32) (harg3 : arg3.IsWhole) (arg4 : Memref sig .tc .vmem S256 .f32) (harg4 : arg4.IsWhole) (arg5 : Memref sig .tc .vmem S256x16 .f32) (harg5 : arg5.IsWhole) (arg6 : Memref sig .tc .vmem S256x1 .f32) (harg6 : arg6.IsWhole) (hc0 : ¬cond0_0 i) (hc1 : ¬cond0_1 i)
    (x0 x1 : Vec F S256x4x256 .f32) (xs0 : Vec F S256x16 .f32) (xs1 : Vec F S256x1 .f32) : Vec F S256x16 .f32 :=
  VS0_0.read (Elt F) (VS0_0.writes (Elt F) VS0_0.junk (kernelRun0_B c i arg2 harg2 arg3 harg3 arg4 harg4 arg5 harg5 arg6 harg6 hc0 hc1 x0 x1 xs0 xs1).2.1)

theorem scover0_B_1 (c : Dev nD) (i : grid0.Coords) (arg2 : Memref sig .tc .vmem S256x4x256 .f32) (harg2 : arg2.IsWhole) (arg3 : Memref sig .tc .vmem S256x4x256 .f32) (harg3 : arg3.IsWhole) (arg4 : Memref sig .tc .vmem S256 .f32) (harg4 : arg4.IsWhole) (arg5 : Memref sig .tc .vmem S256x16 .f32) (harg5 : arg5.IsWhole) (arg6 : Memref sig .tc .vmem S256x1 .f32) (harg6 : arg6.IsWhole) (hc0 : ¬cond0_0 i) (hc1 : ¬cond0_1 i)
    (x0 x1 : Vec F S256x4x256 .f32) (xs0 : Vec F S256x16 .f32) (xs1 : Vec F S256x1 .f32) (y : S256x1.Idx) :
    ∃ pc ∈ (kernelRun0_B c i arg2 harg2 arg3 harg3 arg4 harg4 arg5 harg5 arg6 harg6 hc0 hc1 x0 x1 xs0 xs1).2.2.1, y ∈ pc.1.set :=
  View.cover_of_tiledL (kernelRun0_B c i arg2 harg2 arg3 harg3 arg4 harg4 arg5 harg5 arg6 harg6 hc0 hc1 x0 x1 xs0 xs1).2.2.1 S256x1.size (by sl_kernel_rfl) y

/-- What case B leaves in the running sum of clamped squares. -/
def sout0_B_1 (c : Dev nD) (i : grid0.Coords) (arg2 : Memref sig .tc .vmem S256x4x256 .f32) (harg2 : arg2.IsWhole) (arg3 : Memref sig .tc .vmem S256x4x256 .f32) (harg3 : arg3.IsWhole) (arg4 : Memref sig .tc .vmem S256 .f32) (harg4 : arg4.IsWhole) (arg5 : Memref sig .tc .vmem S256x16 .f32) (harg5 : arg5.IsWhole) (arg6 : Memref sig .tc .vmem S256x1 .f32) (harg6 : arg6.IsWhole) (hc0 : ¬cond0_0 i) (hc1 : ¬cond0_1 i)
    (x0 x1 : Vec F S256x4x256 .f32) (xs0 : Vec F S256x16 .f32) (xs1 : Vec F S256x1 .f32) : Vec F S256x1 .f32 :=
  VS0_1.read (Elt F) (VS0_1.writes (Elt F) VS0_1.junk (kernelRun0_B c i arg2 harg2 arg3 harg3 arg4 harg4 arg5 harg5 arg6 harg6 hc0 hc1 x0 x1 xs0 xs1).2.2.1)

/-! ## Case C -/

/-- What case C leaves in the output block's buffer. -/
def out0_C_2 (c : Dev nD) (i : grid0.Coords) (arg2 : Memref sig .tc .vmem S256x4x256 .f32) (harg2 : arg2.IsWhole) (arg3 : Memref sig .tc .vmem S256x4x256 .f32) (harg3 : arg3.IsWhole) (arg4 : Memref sig .tc .vmem S256 .f32) (harg4 : arg4.IsWhole) (arg5 : Memref sig .tc .vmem S256x16 .f32) (harg5 : arg5.IsWhole) (arg6 : Memref sig .tc .vmem S256x1 .f32) (harg6 : arg6.IsWhole) (hc0 : ¬cond0_0 i) (hc1 : cond0_1 i)
    (x0 x1 : Vec F S256x4x256 .f32) (xs0 : Vec F S256x16 .f32) (xs1 : Vec F S256x1 .f32) : Vec F S256 .f32 :=
  VO0_2.read (Elt F) (VO0_2.writes (Elt F) VO0_2.junk (kernelRun0_C c i arg2 harg2 arg3 harg3 arg4 harg4 arg5 harg5 arg6 harg6 hc0 hc1 x0 x1 xs0 xs1).1)

theorem scover0_C_0 (c : Dev nD) (i : grid0.Coords) (arg2 : Memref sig .tc .vmem S256x4x256 .f32) (harg2 : arg2.IsWhole) (arg3 : Memref sig .tc .vmem S256x4x256 .f32) (harg3 : arg3.IsWhole) (arg4 : Memref sig .tc .vmem S256 .f32) (harg4 : arg4.IsWhole) (arg5 : Memref sig .tc .vmem S256x16 .f32) (harg5 : arg5.IsWhole) (arg6 : Memref sig .tc .vmem S256x1 .f32) (harg6 : arg6.IsWhole) (hc0 : ¬cond0_0 i) (hc1 : cond0_1 i)
    (x0 x1 : Vec F S256x4x256 .f32) (xs0 : Vec F S256x16 .f32) (xs1 : Vec F S256x1 .f32) (y : S256x16.Idx) :
    ∃ pc ∈ (kernelRun0_C c i arg2 harg2 arg3 harg3 arg4 harg4 arg5 harg5 arg6 harg6 hc0 hc1 x0 x1 xs0 xs1).2.1, y ∈ pc.1.set :=
  View.cover_of_tiledL (kernelRun0_C c i arg2 harg2 arg3 harg3 arg4 harg4 arg5 harg5 arg6 harg6 hc0 hc1 x0 x1 xs0 xs1).2.1 S256x1.size (by sl_kernel_rfl) y

/-- What case C leaves in the sixteen-column accumulator. -/
def sout0_C_0 (c : Dev nD) (i : grid0.Coords) (arg2 : Memref sig .tc .vmem S256x4x256 .f32) (harg2 : arg2.IsWhole) (arg3 : Memref sig .tc .vmem S256x4x256 .f32) (harg3 : arg3.IsWhole) (arg4 : Memref sig .tc .vmem S256 .f32) (harg4 : arg4.IsWhole) (arg5 : Memref sig .tc .vmem S256x16 .f32) (harg5 : arg5.IsWhole) (arg6 : Memref sig .tc .vmem S256x1 .f32) (harg6 : arg6.IsWhole) (hc0 : ¬cond0_0 i) (hc1 : cond0_1 i)
    (x0 x1 : Vec F S256x4x256 .f32) (xs0 : Vec F S256x16 .f32) (xs1 : Vec F S256x1 .f32) : Vec F S256x16 .f32 :=
  VS0_0.read (Elt F) (VS0_0.writes (Elt F) VS0_0.junk (kernelRun0_C c i arg2 harg2 arg3 harg3 arg4 harg4 arg5 harg5 arg6 harg6 hc0 hc1 x0 x1 xs0 xs1).2.1)

theorem scover0_C_1 (c : Dev nD) (i : grid0.Coords) (arg2 : Memref sig .tc .vmem S256x4x256 .f32) (harg2 : arg2.IsWhole) (arg3 : Memref sig .tc .vmem S256x4x256 .f32) (harg3 : arg3.IsWhole) (arg4 : Memref sig .tc .vmem S256 .f32) (harg4 : arg4.IsWhole) (arg5 : Memref sig .tc .vmem S256x16 .f32) (harg5 : arg5.IsWhole) (arg6 : Memref sig .tc .vmem S256x1 .f32) (harg6 : arg6.IsWhole) (hc0 : ¬cond0_0 i) (hc1 : cond0_1 i)
    (x0 x1 : Vec F S256x4x256 .f32) (xs0 : Vec F S256x16 .f32) (xs1 : Vec F S256x1 .f32) (y : S256x1.Idx) :
    ∃ pc ∈ (kernelRun0_C c i arg2 harg2 arg3 harg3 arg4 harg4 arg5 harg5 arg6 harg6 hc0 hc1 x0 x1 xs0 xs1).2.2.1, y ∈ pc.1.set :=
  View.cover_of_tiledL (kernelRun0_C c i arg2 harg2 arg3 harg3 arg4 harg4 arg5 harg5 arg6 harg6 hc0 hc1 x0 x1 xs0 xs1).2.2.1 S256x1.size (by sl_kernel_rfl) y

/-- What case C leaves in the running sum of clamped squares. -/
def sout0_C_1 (c : Dev nD) (i : grid0.Coords) (arg2 : Memref sig .tc .vmem S256x4x256 .f32) (harg2 : arg2.IsWhole) (arg3 : Memref sig .tc .vmem S256x4x256 .f32) (harg3 : arg3.IsWhole) (arg4 : Memref sig .tc .vmem S256 .f32) (harg4 : arg4.IsWhole) (arg5 : Memref sig .tc .vmem S256x16 .f32) (harg5 : arg5.IsWhole) (arg6 : Memref sig .tc .vmem S256x1 .f32) (harg6 : arg6.IsWhole) (hc0 : ¬cond0_0 i) (hc1 : cond0_1 i)
    (x0 x1 : Vec F S256x4x256 .f32) (xs0 : Vec F S256x16 .f32) (xs1 : Vec F S256x1 .f32) : Vec F S256x1 .f32 :=
  VS0_1.read (Elt F) (VS0_1.writes (Elt F) VS0_1.junk (kernelRun0_C c i arg2 harg2 arg3 harg3 arg4 harg4 arg5 harg5 arg6 harg6 hc0 hc1 x0 x1 xs0 xs1).2.2.1)

theorem cover0_C_2 (c : Dev nD) (i : grid0.Coords) (arg2 : Memref sig .tc .vmem S256x4x256 .f32) (harg2 : arg2.IsWhole) (arg3 : Memref sig .tc .vmem S256x4x256 .f32) (harg3 : arg3.IsWhole) (arg4 : Memref sig .tc .vmem S256 .f32) (harg4 : arg4.IsWhole) (arg5 : Memref sig .tc .vmem S256x16 .f32) (harg5 : arg5.IsWhole) (arg6 : Memref sig .tc .vmem S256x1 .f32) (harg6 : arg6.IsWhole) (hc0 : ¬cond0_0 i) (hc1 : cond0_1 i)
    (x0 x1 : Vec F S256x4x256 .f32) (xs0 : Vec F S256x16 .f32) (xs1 : Vec F S256x1 .f32) (y : S256.Idx) :
    ∃ pc ∈ (kernelRun0_C c i arg2 harg2 arg3 harg3 arg4 harg4 arg5 harg5 arg6 harg6 hc0 hc1 x0 x1 xs0 xs1).1, y ∈ pc.1.set :=
  View.cover_of_tiledL (kernelRun0_C c i arg2 harg2 arg3 harg3 arg4 harg4 arg5 harg5 arg6 harg6 hc0 hc1 x0 x1 xs0 xs1).1 S256.size (by sl_kernel_rfl) y

/-! ## What the buffers hold after each point -/

/-- After the body at position `n`: the output block's buffer, the sixteen-column accumulator, the running sum. The first
    step of the reduction axis (`n` a multiple of 8) starts afresh; every other step continues from the point before. -/
def outsAt0 (c : Dev nD) : (n : ℕ) → n < cfg0.N → Vec F S256 .f32 × Vec F S256x16 .f32 × Vec F S256x1 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩))
  | n + 1, hn =>
    if h0 : (n + 1) % 8 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) ((hcond0_0 ⟨n + 1, hn⟩).mpr h0) (fun h => (fun h => by (try dsimp only at h); omega) ((hcond0_1 ⟨n + 1, hn⟩).mp h)) (iblk m c 0 ⟨n + 1, hn⟩) (iblk m c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) ((hcond0_0 ⟨n + 1, hn⟩).mpr h0) (fun h => (fun h => by (try dsimp only at h); omega) ((hcond0_1 ⟨n + 1, hn⟩).mp h)) (iblk m c 0 ⟨n + 1, hn⟩) (iblk m c 1 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) ((hcond0_0 ⟨n + 1, hn⟩).mpr h0) (fun h => (fun h => by (try dsimp only at h); omega) ((hcond0_1 ⟨n + 1, hn⟩).mp h)) (iblk m c 0 ⟨n + 1, hn⟩) (iblk m c 1 ⟨n + 1, hn⟩))
    else
      if h1 : (n + 1) % 8 = 7 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.1 (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.1 (outsAt0 c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.1 (outsAt0 c n (Nat.lt_of_succ_lt hn)).2.2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2.1 (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2.1 (outsAt0 c n (Nat.lt_of_succ_lt hn)).2.2)

theorem outsAt0_A (c : Dev nD) (t : Fin cfg0.N) (h0 : t.val % 8 = 0) (h1 : ¬t.val % 8 = 7) :
    outsAt0 m c t.val t.isLt = (out0_A_2 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk m c 0 t) (iblk m c 1 t), sout0_A_0 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk m c 0 t) (iblk m c 1 t), sout0_A_1 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk m c 0 t) (iblk m c 1 t)) := by
  obtain ⟨n, hn⟩ := t
  cases n with
  | zero => exact rfl
  | succ n => exact (dif_pos h0).trans rfl

theorem outsAt0_B (c : Dev nD) (t : Fin cfg0.N) (h0 : ¬t.val % 8 = 0) (h1 : ¬t.val % 8 = 7) :
    outsAt0 m c t.val t.isLt = (out0_B_2 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2, sout0_B_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 m c t.val t.isLt = (out0_C_2 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2, sout0_C_0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2, sout0_C_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point both accumulators at anything; afterwards each at
    what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2)) ∗ (∃ r, prngReg c r)) := by
  cases n with
  | zero => exact absurd rfl hz
  | succ n => rfl

/-! ## The proof data -/

/-- The arrays as the region finds them; after the body each input's buffer at its block and the output's at `outsAt0`;
    the two input windows of the one argument array at the two halves of the full share; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem q0_eq (c : Dev nD) : (dats m 0 c).q 0 = fullShare.left := by dsimp only [dats]
theorem q1_eq (c : Dev nD) : (dats m 0 c).q 1 = fullShare.right := by dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

/-- An input's current buffer holds its block at every point, fetched there or not. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)

end Cert.Kernel.Hand

end
-- ==== Proof.WBody.lean ====
/-
  The body obligation at every grid point: which case the point is in is decided by its position along the reduction
  axis; the invariant hands the body both accumulators at what the point before left (at anything before the first
  point) and takes them back at this point's contents.
-/
import proofs.«150541_j83794811945494_1_alg».proof.Proof.WFrame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val % 8 = 0
  · have h1 : ¬t.val % 8 = 7 := by omega
    have hc0 : cond0_0 (grid0.coords t) := (hcond0_0 t).mpr h0
    have hc1 : ¬cond0_1 (grid0.coords t) := fun h => h1 ((hcond0_1 t).mp h)
    rw [show (dats m 0 c).leavesExact 0 t = owns (c : Thread nD τ) (ms0_0 t) fullShare ((dats m 0 c).after 0 t) from by unfold Dat.leavesExact; rw [liveAt0_0 t], after0_0]
    rw [show (dats m 0 c).leavesExact 1 t = owns (c : Thread nD τ) (ms0_1 t) fullShare ((dats m 0 c).after 1 t) from by unfold Dat.leavesExact; rw [liveAt0_1 t], after0_1]
    rw [Dat.leavesExact_idle (dats m 0 c) 2 t (idleAt0_2 t hc1) (noFlush0_2 t hc1)]
    rw [outsAt0_A m c t h0 h1]
    unfold sout0_A_0 sout0_A_1; (try dsimp only)
    by_cases hz : t.val = 0
    · rw [PhiS_castSucc m c t, PhiS_zero m c _ _ hz, PhiA0_eq]
      iintro ⟨⟨⟨HS0, HS1⟩, Hg⟩, Ho, ⟨%d0, H0⟩, ⟨%d1, H1⟩, ⟨%d2, H2⟩⟩
      iapply ((kernelRun0_A c (grid0.coords t) _ _ _ _ _ _ _ _ _ _ hc0 hc1 (iblk m c 0 t) (iblk m c 1 t)).2.2.2 _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _)
          · unfold owns; iexists _; isplitr
            swap; · iexact HS1
            ipureintro; exact View.read_writes_of_cover _ _ _ _ _ (scover0_A_1 c _ _ _ _ _ _ _ _ _ _ _ _ _ _ _)
        · iexact Hg
      isplitl [Ho]; · iexact Ho
      isplitl [H0]; · iexact H0
      isplitl [H1]; · iexact H1
      iexists _; iexact H2
    · rw [PhiS_castSucc m c t, PhiS_pos m c _ _ hz]
      iintro ⟨⟨⟨HS0, HS1⟩, Hg⟩, Ho, ⟨%d0, H0⟩, ⟨%d1, H1⟩, ⟨%d2, H2⟩⟩
      iapply ((kernelRun0_A c (grid0.coords t) _ _ _ _ _ _ _ _ _ _ hc0 hc1 (iblk m c 0 t) (iblk m c 1 t)).2.2.2 _ Set.univ _)
      isplitl [H0]; · iexact H0
      isplitl [H1]; · iexact H1
      isplitl [H2]; · iexact H2
      isplitl [HS0]; · iexists _; iexact HS0
      isplitl [HS1]; · iexists _; iexact HS1
      iintro ⟨H0, H1, H2, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _)
          · unfold owns; iexists _; isplitr
            swap; · iexact HS1
            ipureintro; exact View.read_writes_of_cover _ _ _ _ _ (scover0_A_1 c _ _ _ _ _ _ _ _ _ _ _ _ _ _ _)
        · iexact Hg
      isplitl [Ho]; · iexact Ho
      isplitl [H0]; · iexact H0
      isplitl [H1]; · iexact H1
      iexists _; iexact H2
  · have hz : t.val ≠ 0 := fun h => h0 (by rw [h])
    have hc0 : ¬cond0_0 (grid0.coords t) := fun h => h0 ((hcond0_0 t).mp h)
    by_cases h1 : t.val % 8 = 7
    · have hc1 : cond0_1 (grid0.coords t) := (hcond0_1 t).mpr h1
      rw [show (dats m 0 c).leavesExact 0 t = owns (c : Thread nD τ) (ms0_0 t) fullShare ((dats m 0 c).after 0 t) from by unfold Dat.leavesExact; rw [liveAt0_0 t], after0_0]
      rw [show (dats m 0 c).leavesExact 1 t = owns (c : Thread nD τ) (ms0_1 t) fullShare ((dats m 0 c).after 1 t) from by unfold Dat.leavesExact; rw [liveAt0_1 t], after0_1]
      rw [show (dats m 0 c).leavesExact 2 t = owns (c : Thread nD τ) (ms0_2 t) fullShare ((dats m 0 c).after 2 t) from by unfold Dat.leavesExact; rw [liveAt0_2 t hc1], after0_2]
      rw [outsAt0_C m c t h0 h1]
      unfold out0_C_2 sout0_C_0 sout0_C_1; (try dsimp only)
      rw [PhiS_castSucc m c t, PhiS_pos m c _ _ hz]
      iintro ⟨⟨⟨HS0, HS1⟩, Hg⟩, Ho, ⟨%d0, H0⟩, ⟨%d1, H1⟩, ⟨%d2, H2⟩⟩
      iapply ((kernelRun0_C c (grid0.coords t) _ _ _ _ _ _ _ _ _ _ hc0 hc1 (iblk m c 0 t) (iblk m c 1 t) _ _).2.2.2 Set.univ _)
      isplitl [H0]; · iexact H0
      isplitl [H1]; · iexact H1
      isplitl [H2]; · iexists _; iexact H2
      isplitl [HS0]; · iexact HS0
      isplitl [HS1]; · iexact HS1
      iintro ⟨H0, H1, ⟨%e2, H2⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_C_0 c _ _ _ _ _ _ _ _ _ _ _ _ _ _ _ _ _)
          · unfold owns; iexists _; isplitr
            swap; · iexact HS1
            ipureintro; exact View.read_writes_of_cover _ _ _ _ _ (scover0_C_1 c _ _ _ _ _ _ _ _ _ _ _ _ _ _ _ _ _)
        · iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _ _ _ _)
    · have hc1 : ¬cond0_1 (grid0.coords t) := fun h => h1 ((hcond0_1 t).mp h)
      rw [show (dats m 0 c).leavesExact 0 t = owns (c : Thread nD τ) (ms0_0 t) fullShare ((dats m 0 c).after 0 t) from by unfold Dat.leavesExact; rw [liveAt0_0 t], after0_0]
      rw [show (dats m 0 c).leavesExact 1 t = owns (c : Thread nD τ) (ms0_1 t) fullShare ((dats m 0 c).after 1 t) from by unfold Dat.leavesExact; rw [liveAt0_1 t], after0_1]
      rw [Dat.leavesExact_idle (dats m 0 c) 2 t (idleAt0_2 t hc1) (noFlush0_2 t hc1)]
      rw [outsAt0_B m c t h0 h1]
      unfold sout0_B_0 sout0_B_1; (try dsimp only)
      rw [PhiS_castSucc m c t, PhiS_pos m c _ _ hz]
      iintro ⟨⟨⟨HS0, HS1⟩, Hg⟩, Ho, ⟨%d0, H0⟩, ⟨%d1, H1⟩, ⟨%d2, H2⟩⟩
      iapply ((kernelRun0_B c (grid0.coords t) _ _ _ _ _ _ _ _ _ _ hc0 hc1 (iblk m c 0 t) (iblk m c 1 t) _ _).2.2.2 _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_B_0 c _ _ _ _ _ _ _ _ _ _ _ _ _ _ _ _ _)
          · unfold owns; iexists _; isplitr
            swap; · iexact HS1
            ipureintro; exact View.read_writes_of_cover _ _ _ _ _ (scover0_B_1 c _ _ _ _ _ _ _ _ _ _ _ _ _ _ _ _ _)
        · iexact Hg
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the accumulators back, their contents forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), PhiA0_eq]
  iintro ⟨⟨HS0, HS1⟩, Hg⟩
  isplitl [HS0 HS1]
  · isplitl [HS0]
    · iexists _; iexact HS0
    · iexists _; iexact HS1
  iexact Hg

end Cert.Kernel.Hand

end
-- ==== Proof.WLaunch.lean ====
/-
  The launch of the kernel's one region when two input windows read one array: the array's points-to is split between
  the two windows along the share, the region runs, and the four host lines after it run within the output array and
  the buffers that bypass the region.
-/
import proofs.«150541_j83794811945494_1_alg».proof.Proof.WBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host lines allocate nothing. -/
theorem hostOps1_fresh : (hostOps1 : List (HloOp τ sig (Elt F))).Forall fun op => op.fresh = ∅ := by
  simp only [List.Forall]; repeat' constructor

/-- @main reduces to the region continued by the four host lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

/-! ## The contents the host lines run from -/

/-- Core `c`'s buffer contents at the region's exit: the output array at what the write-backs left, every other
    buffer as the region found it (the input array is never written). -/
def Wx (c : Dev nD) (o : Buf (Elt F) ((c : Thread nD τ).loc main_v0)) : Valuation τ sig (Elt F) :=
  Function.update (V0 m c) (Proc.devRef .tc main_v0) o

theorem Wx_v0 (c : Dev nD) (o : Buf (Elt F) ((c : Thread nD τ).loc main_v0)) : Wx m c o (Proc.devRef .tc main_v0) = o :=
  Function.update_self ..

theorem Wx_of_ne (c : Dev nD) (o : Buf (Elt F) ((c : Thread nD τ).loc main_v0)) (b : Ref sig .tc) (h : b ≠ main_v0) :
    Wx m c o (Proc.devRef .tc b) = V m c b :=
  Function.update_of_ne (StableHlo.devRef_ne_of_ne h) ..

/-- What the buffers that bypass the region hold after the host lines. -/
abbrev Wend (c : Dev nD) (o : Buf (Elt F) ((c : Thread nD τ).loc main_v0)) (b : Ref sig .tc) : Buf (Elt F) ((c : Thread nD τ).loc b) :=
  StableHlo.after hostOps1 (Wx m c o) (Proc.devRef .tc b)

/-- The two distinct buffers behind the three windows' arrays. -/
theorem arrBufs0_eq (c : Dev nD) (Vc : (b : Ref sig .tc) → Buf (Elt F) ((c.tc : Thread nD τ).loc b)) :
    (Pipeline.arrBufs spec0 c Vc : sProp 𝕄)
      = iprop((((c.tc : Thread nD τ).loc main_arg0) ↦{fullShare} Vc main_arg0) ∗ (((c.tc : Thread nD τ).loc main_v0) ↦{fullShare} Vc main_v0)) := by
  unfold Pipeline.arrBufs
  rw [show Finset.univ.image (Pipeline.arrRef spec0) = {main_arg0, main_v0} from by decide, bigSep_insert (by decide), bigSep_singleton]; rfl

/-- The proof data's arrays at contents `G`: the input array's two halves and the output array whole. -/
theorem arrays0_eq {c : Dev nD} (dat : Dat τ (Elt F) Unit ℕ (UR sig nD τ) ℕ cfg0 c)
    (hq0 : dat.q 0 = fullShare.left) (hq1 : dat.q 1 = fullShare.right)
    (G : (w : Fin cfg0.W) → Buf (Elt F) ((cfg0.win w).arr.view.loc (c.tc : Thread nD τ))) :
    (dat.arrays G : sProp 𝕄)
      = iprop((((c.tc : Thread nD τ).loc main_arg0) ↦{fullShare.left} G 0) ∗ (((c.tc : Thread nD τ).loc main_arg0) ↦{fullShare.right} G 1)
          ∗ (((c.tc : Thread nD τ).loc main_v0) ↦{fullShare} G 2)) := by
  have hs0 : dat.share 0 = fullShare.left := by unfold Dat.share; exact (if_neg (by decide)).trans hq0
  have hs1 : dat.share 1 = fullShare.right := by unfold Dat.share; exact (if_neg (by decide)).trans hq1
  have hs2 : dat.share 2 = fullShare := by unfold Dat.share; exact if_pos (by decide)
  unfold Dat.arrays
  rw [bigSep_W0, hs0, hs1, hs2, (arr_whole0 0).set_eq_univ, (arr_whole0 2).set_eq_univ]

/-- AT THE REGION'S ENTRY the two buffers behind the arrays, whole at the full share, make the proof data's arrays: the
    input array's points-to splits along the share into the left half for window 0 and the right half for window 1. -/
theorem hsplit_of {c : Dev nD} (dat : Dat τ (Elt F) Unit ℕ (UR sig nD τ) ℕ cfg0 c)
    (hq0 : dat.q 0 = fullShare.left) (hq1 : dat.q 1 = fullShare.right)
    (hA : ∀ w, dat.A w = V m c (Pipeline.arrRef spec0 w)) :
    (Pipeline.arrBufs spec0 c (V m c) : sProp 𝕄) ⊢ dat.arrays (dat.arrAt · 0) := by
  have e0 : dat.arrAt 0 0 = V m c main_arg0 := hA 0
  have e1 : dat.arrAt 1 0 = V m c main_arg0 := hA 1
  have e2 : dat.arrAt 2 0 = V m c main_v0 := hA 2
  rw [arrBufs0_eq, arrays0_eq dat hq0 hq1, e0, e1, e2]
  iintro ⟨HA, HO⟩
  ihave HA := (pointsTo_share (PosShare.mem_left_op_right fullShare)).1 $$ HA
  icases HA with ⟨HA₁, HA₂⟩
  isplitl [HA₁]; · iexact HA₁
  isplitl [HA₂]; · iexact HA₂
  iexact HO

/-! ## The host lines after the region -/

/-- The references the host lines touch: the output array and the four buffers that bypass the region. -/
abbrev tailR : Finset (Ref sig .tc) := {main_v0, main_cst, main_v1, main_cst_0, main_v2}
/-- The same as device buffers. -/
def tailS : Finset (DevRef τ sig) := tailR.map ⟨Proc.devRef (sig := sig) .tc, Proc.devRef_injective _⟩

theorem held_tailS (c : Dev nD) (W : Valuation τ sig (Elt F)) :
    (StableHlo.held (c.tc : Thread nD τ) tailS W : sProp 𝕄)
      = iprop((((c.tc : Thread nD τ).loc main_v0) ↦{fullShare} W (Proc.devRef .tc main_v0))
          ∗ (((c.tc : Thread nD τ).loc main_cst) ↦{fullShare} W (Proc.devRef .tc main_cst))
          ∗ (((c.tc : Thread nD τ).loc main_v1) ↦{fullShare} W (Proc.devRef .tc main_v1))
          ∗ (((c.tc : Thread nD τ).loc main_cst_0) ↦{fullShare} W (Proc.devRef .tc main_cst_0))
          ∗ (((c.tc : Thread nD τ).loc main_v2) ↦{fullShare} W (Proc.devRef .tc main_v2))) := by
  unfold StableHlo.held tailS
  rw [bigSep_map, bigSep_insert (by decide), bigSep_insert (by decide), bigSep_insert (by decide), bigSep_insert (by decide), bigSep_singleton]
  rfl

theorem mem_tailS (b : Ref sig .tc) (h : b ∈ tailR) : Proc.devRef (τ := τ) .tc b ∈ tailS :=
  Finset.mem_map.mpr ⟨b, h, rfl⟩

theorem hostOps1_tailS : ∀ ops ∈ ([hostOps1] : List (List (HloOp τ sig (Elt F)))), ∀ op ∈ ops, op.bufs ⊆ tailS := by
  intro ops hops op hop
  simp only [List.mem_cons, List.mem_nil_iff, or_false] at hops
  rcases hops with rfl
  simp only [hostOps1, List.mem_cons, List.mem_nil_iff, or_false] at hop
  rcases hop with rfl | rfl | rfl | rfl
  all_goals
    intro b hb
    simp only [StableHlo.nullary_bufs, StableHlo.binary_bufs, Finset.mem_insert, Finset.mem_singleton] at hb
    rcases hb with rfl | rfl | rfl <;> exact mem_tailS _ (by decide)

theorem hostOps1_fresh' : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- The output array is written by no host line. -/
theorem Wend_v0 (c : Dev nD) (o : Buf (Elt F) ((c : Thread nD τ).loc main_v0)) : Wend m c o main_v0 = o := by
  unfold Wend
  after_results
  exact Wx_v0 m c o

/-- THE LINES AFTER THE REGION: from the region's exit — the boundary, the input array's two halves and the output
    array at what the write-backs left, the four bypassing buffers as the region found them — the four host lines run
    within the output array and the bypassing buffers, and hand back the arrays untouched and the bypassing buffers at
    what the lines computed. -/
theorem htail_of {c : Dev nD} (dat : Dat τ (Elt F) Unit ℕ (UR sig nD τ) ℕ cfg0 c)
    (hq0 : dat.q 0 = fullShare.left) (hq1 : dat.q 1 = fullShare.right) (Q' : PUnit → sProp 𝕄) :
    iprop((iprop(dat.arrays (dat.arrAt · cfg0.N)
              ∗ Pipeline.unscopedRestP (Ix := Unit) (Name := ℕ) (U := UR sig nD τ) (Lvl := ℕ) Pipeline.Prefetch.none spec0 c (Wend m c (dat.arrAt 2 cfg0.N))) -∗ Q' ⟨⟩)
        ∗ boundary (c.tc : Thread nD τ) ∗ dat.arrays (dat.arrAt · cfg0.N)
        ∗ Pipeline.unscopedRestP (Ix := Unit) (Name := ℕ) (U := UR sig nD τ) (Lvl := ℕ) Pipeline.Prefetch.none spec0 c (V m c))
      ⊢ wp frame (wpE (Pipeline.defs (fun p => (cfgs p).toPCfg (Val := Elt F)) defs₀) (Variants.lift Variants.none) (c.tc : Thread nD τ) none) Set.univ
          (Pipeline.chain [StableHlo.seq hostOps1]) Q' := by
  have hW : (StableHlo.held (c.tc : Thread nD τ) tailS (Wx m c (dat.arrAt 2 cfg0.N)) : sProp 𝕄)
      = iprop((((c.tc : Thread nD τ).loc main_v0) ↦{fullShare} dat.arrAt 2 cfg0.N)
          ∗ (((c.tc : Thread nD τ).loc main_cst) ↦{fullShare} V m c main_cst)
          ∗ (((c.tc : Thread nD τ).loc main_v1) ↦{fullShare} V m c main_v1)
          ∗ (((c.tc : Thread nD τ).loc main_cst_0) ↦{fullShare} V m c main_cst_0)
          ∗ (((c.tc : Thread nD τ).loc main_v2) ↦{fullShare} V m c main_v2)) := by
    rw [held_tailS, Wx_v0, Wx_of_ne m c _ main_cst (by decide), Wx_of_ne m c _ main_v1 (by decide),
      Wx_of_ne m c _ main_cst_0 (by decide), Wx_of_ne m c _ main_v2 (by decide)]
  have hW' : (StableHlo.held (c.tc : Thread nD τ) tailS (StableHlo.after ([hostOps1] : List (List (HloOp τ sig (Elt F)))).flatten (Wx m c (dat.arrAt 2 cfg0.N))) : sProp 𝕄)
      = iprop((((c.tc : Thread nD τ).loc main_v0) ↦{fullShare} dat.arrAt 2 cfg0.N)
          ∗ (((c.tc : Thread nD τ).loc main_cst) ↦{fullShare} Wend m c (dat.arrAt 2 cfg0.N) main_cst)
          ∗ (((c.tc : Thread nD τ).loc main_v1) ↦{fullShare} Wend m c (dat.arrAt 2 cfg0.N) main_v1)
          ∗ (((c.tc : Thread nD τ).loc main_cst_0) ↦{fullShare} Wend m c (dat.arrAt 2 cfg0.N) main_cst_0)
          ∗ (((c.tc : Thread nD τ).loc main_v2) ↦{fullShare} Wend m c (dat.arrAt 2 cfg0.N) main_v2)) := by
    rw [held_tailS, show ([hostOps1] : List (List (HloOp τ sig (Elt F)))).flatten = hostOps1 from by simp only [List.flatten_cons, List.flatten_nil, List.append_nil]]
    rw [show StableHlo.after hostOps1 (Wx m c (dat.arrAt 2 cfg0.N)) (Proc.devRef .tc main_v0) = dat.arrAt 2 cfg0.N from Wend_v0 m c _]
  rw [Pipeline.unscopedRestP_none, unscopedRest0_eq, Pipeline.unscopedRestP_none, unscopedRest0_eq, arrays0_eq dat hq0 hq1]
  iintro ⟨Hk, Hb, ⟨HA₁, HA₂, HO⟩, H1, H2, H3, H4⟩
  iapply (Pipeline.wp_seqs_then (fun p => (cfgs p).toPCfg (Val := Elt F)) defs₀ Variants.none c tailS [] [hostOps1] hostOps1_tailS hostOps1_fresh' (Wx m c (dat.arrAt 2 cfg0.N))) $$ [Hb HO H1 H2 H3 H4]
  · rw [hW]
    isplitl [Hb]; · iexact Hb
    isplitl [HO]; · iexact HO
    isplitl [H1]; · iexact H1
    isplitl [H2]; · iexact H2
    isplitl [H3]; · iexact H3
    iexact H4
  iintro Hb
  rw [Pipeline.chain_nil, wp_pure, hW']
  imodintro
  icases Hb with ⟨-, HO, H1, H2, H3, H4⟩
  iapply Hk
  isplitl [HA₁ HA₂ HO]
  · isplitl [HA₁]; · iexact HA₁
    isplitl [HA₂]; · iexact HA₂
    iexact HO
  isplitl [H1]; · iexact H1
  isplitl [H2]; · iexact H2
  isplitl [H3]; · iexact H3
  iexact H4

/-- What the last host line leaves in the result buffer: the output array summed from zero and divided by 2048. -/
theorem Wend_v2 (c : Dev nD) (o : Buf (Elt F) ((c : Thread nD τ).loc main_v0)) :
    Wend m c o main_v2
      = Host.divf (Host.reduceAdd o (constant S_ .f32 0x00000000#32) reducesTo_S2048_S_d0 h_S_) (constant S_ .f32 0x45000000#32) := by
  unfold Wend
  after_results
  rw [Wx_v0]

/-- The result buffer bypasses the region. -/
theorem main_v2_rest : main_v2 ∈ Pipeline.restRefsP sig Pipeline.Prefetch.none spec0 := by decide

/-! ## The run -/

/-- THE RUN of @main from proof data that hold the input array's left half for window 0 and its right half for
    window 1: the input array ends as it began, and the result buffer holds the output array — as the write-backs
    left it — summed from zero and divided by 2048. -/
theorem run_of (dats : (p : Fin 1) → (c : Dev nD) → Dat τ (Elt F) Unit ℕ (UR sig nD τ) ℕ (cfgs p) c)
    (hq0 : ∀ c, (dats 0 c).q 0 = fullShare.left) (hq1 : ∀ c, (dats 0 c).q 1 = fullShare.right)
    (hbody : ∀ c, Pipeline.BodyObligationLoose (dats 0 c) (defs₀ (F := F)) Variants.none () Set.univ)
    (howed : ∀ c t, (dats 0 c).owed t = 0)
    (hA : ∀ c w, (dats 0 c).A w = V m c (Pipeline.arrRef spec0 w))
    (hin : ∀ c, Pipeline.ΦA spec0 c ⊢ (dats 0 c).Φ 0)
    (hout : ∀ c, (dats 0 c).Φ (Fin.last cfg0.N) ⊢ Pipeline.ΦA spec0 c) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_v2) = Host.divf (Host.reduceAdd ((dats 0 c).arrAt 2 cfg0.N) (constant S_ .f32 0x00000000#32) reducesTo_S2048_S_d0 h_S_) (constant S_ .f32 0x45000000#32)) := by
  classical
  exact Pipeline.θ_run_region_pf_tail (fun p => (cfgs p).toPCfg (Val := Elt F)) (fun p => (cfgs p).toPCfg_adm) dats () cellOf_inj (0 : Fin 1) winFacts₀0
    (Pipeline.OwnSemFacts.none spec0) (Pipeline.PreFacts.none _) emb₁ defs₀ Variants.none m ρ main
    (fun _ => Pipeline.chain [StableHlo.seq hostOps1]) hbody
    block_pos0 arr_whole0 stage_whole0 howed
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => hsplit_of m (dats 0 c) (hq0 c) (hq1 c) (hA c))
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (Wend m c ((dats 0 c).arrAt 2 cfg0.N)))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := fun c Q' => htail_of m (dats 0 c) (hq0 c) (hq1 c) Q')
    (QY := fun c s => ∀ b ∈ Pipeline.restRefsP sig Pipeline.Prefetch.none spec0, s.mem ((c.tc : Thread nD τ).loc b) = Wend m c ((dats 0 c).arrAt 2 cfg0.N) b)
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (Wend m c ((dats 0 c).arrAt 2 cfg0.N)) s')
      isplitl [HU] <;> iassumption)
    (hQ := fun s h c => ⟨((h c).1 0).trans (((dats 0 c).arrAt_in 0 rfl _).trans ((hA c 0).trans (V_main_arg0 m c))),
      ((h c).2.2 main_v2 main_v2_rest).trans (Wend_v2 m c _)⟩)

end Cert.Kernel.Hand

end
-- ==== Proof.KBase.lean ====
/-
  What the three runs of the kernel body and the frame built on them share, at any float instance: the arrays as the
  region finds them, a window's block at a grid point, the two conditions of the body (the reduction axis at its first
  step, where the two accumulators are reset; at its last, where the row losses are formed and stored) in closed form
  over the 8 × 8 grid, where the output window is idle, and the names of the staging and scratch memrefs.
-/
import proofs.«150541_j83794811945494_1_alg».proof.Proof.Gen.KernelIdeal.Launch
import proofs.«150541_j83794811945494_1_alg».proof.Proof.Gen.KernelIdeal.Skeleton
import proofs.«150541_j83794811945494_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays around the region -/

/-- Core `c`'s buffer contents when the region is entered: no host operation precedes it. -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

theorem V_main_arg0 (c : Dev nD) : V m c main_arg0 = m ((c : Thread nD τ).loc main_arg0) := rfl

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's two conditions -/

/-- The reduction axis is at its first step: the accumulators are reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The reduction axis is at its last step: the row losses are formed and stored. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Off the last step of the reduction axis the output window is idle and is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At the last step it is stored. -/
theorem liveAt0_2 : ∀ t : Fin cfg0.N, cond0_1 (grid0.coords t) → cfg0.idle 2 (grid0.coords t) = false := by decide +kernel

/-! ## The memrefs the body is called with -/

abbrev VO0_2 : View sig .tc .vmem S256 .f32 := (Memref.whole cc0_stg2_0 : Memref sig .tc .vmem S256 .f32).view
abbrev ms0_0 (t : Fin cfg0.N) : Memref sig .tc .vmem S256x4x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x4x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256 .f32 := win0_2.stage (cfg0.slots t 2)
abbrev hs0_2 (t : Fin cfg0.N) : (ms0_2 t).IsWhole := hstage0_2 ((cfg0.slots t 2).cast nbuf0_2)
/-- The two accumulators: the sixteen columns of pair sums, and the running sum of clamped squares. -/
abbrev scM0_0 : Memref sig .tc .vmem S256x16 .f32 := Memref.whole cc0_scratch0
abbrev scM0_1 : Memref sig .tc .vmem S256x1 .f32 := Memref.whole cc0_scratch1
abbrev VS0_0 : View sig .tc .vmem S256x16 .f32 := scM0_0.view
abbrev VS0_1 : View sig .tc .vmem S256x1 .f32 := scM0_1.view

/-- The region's invariant with the two accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Hand

end
-- ==== Proof.KRunB.lean ====
/-
  The kernel body at a middle step of the reduction axis (neither the first nor the last): both accumulators are read
  and added to, nothing is reset, the output window is left alone. Each accumulator ends as the pieces the
  body's stores write to it.
-/
import proofs.«150541_j83794811945494_1_alg».proof.Proof.KBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S256x4x256 .f32) (harg2 : arg2.IsWhole) (arg3 : Memref sig .tc .vmem S256x4x256 .f32) (harg3 : arg3.IsWhole) (arg4 : Memref sig .tc .vmem S256 .f32) (harg4 : arg4.IsWhole) (arg5 : Memref sig .tc .vmem S256x16 .f32) (harg5 : arg5.IsWhole) (arg6 : Memref sig .tc .vmem S256x1 .f32) (harg6 : arg6.IsWhole) (hc0 : ¬cond0_0 i) (hc1 : ¬cond0_1 i)
    (x0 x1 : Vec F S256x4x256 .f32) (xs0 : Vec F S256x16 .f32) (xs1 : Vec F S256x1 .f32) :
    Σ' (L2 : List (View.Piece (Elt F) S256 .f32)) (LS0 : List (View.Piece (Elt F) S256x16 .f32)), { LS1 : List (View.Piece (Elt F) S256x1 .f32) //
      ∀ (xi2 : Vec F S256 .f32) (E : Set ℕ) (K : PUnit → sProp 𝕄),
        iprop(owns (c : Thread nD τ) arg2 fullShare x0 ∗ owns (c : Thread nD τ) arg3 fullShare x1 ∗ owns (c : Thread nD τ) arg4 fullShare xi2
            ∗ owns (c : Thread nD τ) arg5 fullShare xs0 ∗ owns (c : Thread nD τ) arg6 fullShare xs1
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0__evdlora_kernel i arg2 harg2 arg3 harg3 arg4 harg4 arg5 harg5 arg6 harg6) K } := by
  refine ⟨[], ?_, ?_, fun xi2 E K => ?run⟩
  case run =>
    simp only [cc0__evdlora_kernel_eq_skeleton]; unfold cc0__evdlora_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.KernelIdeal.Hand

end
-- ==== Proof.KRunA.lean ====
/-
  The kernel body at the first step of the reduction axis: both accumulators are reset to zero before they are added
  to, so nothing is assumed of what they held; the output window is left alone.
-/
import proofs.«150541_j83794811945494_1_alg».proof.Proof.KRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S256x4x256 .f32) (harg2 : arg2.IsWhole) (arg3 : Memref sig .tc .vmem S256x4x256 .f32) (harg3 : arg3.IsWhole) (arg4 : Memref sig .tc .vmem S256 .f32) (harg4 : arg4.IsWhole) (arg5 : Memref sig .tc .vmem S256x16 .f32) (harg5 : arg5.IsWhole) (arg6 : Memref sig .tc .vmem S256x1 .f32) (harg6 : arg6.IsWhole) (hc0 : cond0_0 i) (hc1 : ¬cond0_1 i)
    (x0 x1 : Vec F S256x4x256 .f32) :
    Σ' (L2 : List (View.Piece (Elt F) S256 .f32)) (LS0 : List (View.Piece (Elt F) S256x16 .f32)), { LS1 : List (View.Piece (Elt F) S256x1 .f32) //
      ∀ (xi2 : Vec F S256 .f32) (E : Set ℕ) (K : PUnit → sProp 𝕄),
        iprop(owns (c : Thread nD τ) arg2 fullShare x0 ∗ owns (c : Thread nD τ) arg3 fullShare x1 ∗ owns (c : Thread nD τ) arg4 fullShare xi2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0__evdlora_kernel i arg2 harg2 arg3 harg3 arg4 harg4 arg5 harg5 arg6 harg6) K } := by
  refine ⟨[], ?_, ?_, fun xi2 E K => ?run⟩
  case run =>
    simp only [cc0__evdlora_kernel_eq_skeleton]; unfold cc0__evdlora_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.KernelIdeal.Hand

end
-- ==== Proof.KRunC.lean ====
/-
  The kernel body at the last step of the reduction axis: both accumulators are added to once more, then read whole;
  the row losses are formed from them and stored over the whole output block.
-/
import proofs.«150541_j83794811945494_1_alg».proof.Proof.KRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_C (c : Dev nD) (i : grid0.Coords) (arg2 : Memref sig .tc .vmem S256x4x256 .f32) (harg2 : arg2.IsWhole) (arg3 : Memref sig .tc .vmem S256x4x256 .f32) (harg3 : arg3.IsWhole) (arg4 : Memref sig .tc .vmem S256 .f32) (harg4 : arg4.IsWhole) (arg5 : Memref sig .tc .vmem S256x16 .f32) (harg5 : arg5.IsWhole) (arg6 : Memref sig .tc .vmem S256x1 .f32) (harg6 : arg6.IsWhole) (hc0 : ¬cond0_0 i) (hc1 : cond0_1 i)
    (x0 x1 : Vec F S256x4x256 .f32) (xs0 : Vec F S256x16 .f32) (xs1 : Vec F S256x1 .f32) :
    Σ' (L2 : List (View.Piece (Elt F) S256 .f32)) (LS0 : List (View.Piece (Elt F) S256x16 .f32)), { LS1 : List (View.Piece (Elt F) S256x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs0 ∗ owns (c : Thread nD τ) arg6 fullShare xs1
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0__evdlora_kernel i arg2 harg2 arg3 harg3 arg4 harg4 arg5 harg5 arg6 harg6) K } := by
  refine ⟨?_, ?_, ?_, fun E K => ?run⟩
  case run =>
    simp only [cc0__evdlora_kernel_eq_skeleton]; unfold cc0__evdlora_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg2.eq_unread hf0; obtain rfl := harg3.eq_unread hf1
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    iexists _; iexact HS1

end Cert.KernelIdeal.Hand

end
-- ==== Proof.KFrame.lean ====
/-
  The frame of the kernel at any float instance, from the three runs of its body. After each grid point the sixteen-column
  accumulator and the running sum of clamped squares hold what that point's case of the body leaves, computed from the
  two input blocks of the point and — off the first step of the reduction axis — from what the point before left; the
  output block is written at the last step of the axis only, and is idle elsewhere. The two input windows read ONE array,
  each holding it at one half of the full share.
-/
import proofs.«150541_j83794811945494_1_alg».proof.Proof.KRunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Case A -/

/-- What case A leaves in the output block's buffer (nothing is stored: a value no later step reads). -/
def out0_A_2 (c : Dev nD) (i : grid0.Coords) (arg2 : Memref sig .tc .vmem S256x4x256 .f32) (harg2 : arg2.IsWhole) (arg3 : Memref sig .tc .vmem S256x4x256 .f32) (harg3 : arg3.IsWhole) (arg4 : Memref sig .tc .vmem S256 .f32) (harg4 : arg4.IsWhole) (arg5 : Memref sig .tc .vmem S256x16 .f32) (harg5 : arg5.IsWhole) (arg6 : Memref sig .tc .vmem S256x1 .f32) (harg6 : arg6.IsWhole) (hc0 : cond0_0 i) (hc1 : ¬cond0_1 i)
    (x0 x1 : Vec F S256x4x256 .f32) : Vec F S256 .f32 :=
  VO0_2.read (Elt F) (VO0_2.writes (Elt F) VO0_2.junk (kernelRun0_A c i arg2 harg2 arg3 harg3 arg4 harg4 arg5 harg5 arg6 harg6 hc0 hc1 x0 x1).1)

theorem scover0_A_0 (c : Dev nD) (i : grid0.Coords) (arg2 : Memref sig .tc .vmem S256x4x256 .f32) (harg2 : arg2.IsWhole) (arg3 : Memref sig .tc .vmem S256x4x256 .f32) (harg3 : arg3.IsWhole) (arg4 : Memref sig .tc .vmem S256 .f32) (harg4 : arg4.IsWhole) (arg5 : Memref sig .tc .vmem S256x16 .f32) (harg5 : arg5.IsWhole) (arg6 : Memref sig .tc .vmem S256x1 .f32) (harg6 : arg6.IsWhole) (hc0 : cond0_0 i) (hc1 : ¬cond0_1 i)
    (x0 x1 : Vec F S256x4x256 .f32) (y : S256x16.Idx) :
    ∃ pc ∈ (kernelRun0_A c i arg2 harg2 arg3 harg3 arg4 harg4 arg5 harg5 arg6 harg6 hc0 hc1 x0 x1).2.1, y ∈ pc.1.set :=
  View.cover_of_tiledL (kernelRun0_A c i arg2 harg2 arg3 harg3 arg4 harg4 arg5 harg5 arg6 harg6 hc0 hc1 x0 x1).2.1 S256x16.size (by sl_kernel_rfl) y

/-- What case A leaves in the sixteen-column accumulator. -/
def sout0_A_0 (c : Dev nD) (i : grid0.Coords) (arg2 : Memref sig .tc .vmem S256x4x256 .f32) (harg2 : arg2.IsWhole) (arg3 : Memref sig .tc .vmem S256x4x256 .f32) (harg3 : arg3.IsWhole) (arg4 : Memref sig .tc .vmem S256 .f32) (harg4 : arg4.IsWhole) (arg5 : Memref sig .tc .vmem S256x16 .f32) (harg5 : arg5.IsWhole) (arg6 : Memref sig .tc .vmem S256x1 .f32) (harg6 : arg6.IsWhole) (hc0 : cond0_0 i) (hc1 : ¬cond0_1 i)
    (x0 x1 : Vec F S256x4x256 .f32) : Vec F S256x16 .f32 :=
  VS0_0.read (Elt F) (VS0_0.writes (Elt F) VS0_0.junk (kernelRun0_A c i arg2 harg2 arg3 harg3 arg4 harg4 arg5 harg5 arg6 harg6 hc0 hc1 x0 x1).2.1)

theorem scover0_A_1 (c : Dev nD) (i : grid0.Coords) (arg2 : Memref sig .tc .vmem S256x4x256 .f32) (harg2 : arg2.IsWhole) (arg3 : Memref sig .tc .vmem S256x4x256 .f32) (harg3 : arg3.IsWhole) (arg4 : Memref sig .tc .vmem S256 .f32) (harg4 : arg4.IsWhole) (arg5 : Memref sig .tc .vmem S256x16 .f32) (harg5 : arg5.IsWhole) (arg6 : Memref sig .tc .vmem S256x1 .f32) (harg6 : arg6.IsWhole) (hc0 : cond0_0 i) (hc1 : ¬cond0_1 i)
    (x0 x1 : Vec F S256x4x256 .f32) (y : S256x1.Idx) :
    ∃ pc ∈ (kernelRun0_A c i arg2 harg2 arg3 harg3 arg4 harg4 arg5 harg5 arg6 harg6 hc0 hc1 x0 x1).2.2.1, y ∈ pc.1.set :=
  View.cover_of_tiledL (kernelRun0_A c i arg2 harg2 arg3 harg3 arg4 harg4 arg5 harg5 arg6 harg6 hc0 hc1 x0 x1).2.2.1 S256x1.size (by sl_kernel_rfl) y

/-- What case A leaves in the running sum of clamped squares. -/
def sout0_A_1 (c : Dev nD) (i : grid0.Coords) (arg2 : Memref sig .tc .vmem S256x4x256 .f32) (harg2 : arg2.IsWhole) (arg3 : Memref sig .tc .vmem S256x4x256 .f32) (harg3 : arg3.IsWhole) (arg4 : Memref sig .tc .vmem S256 .f32) (harg4 : arg4.IsWhole) (arg5 : Memref sig .tc .vmem S256x16 .f32) (harg5 : arg5.IsWhole) (arg6 : Memref sig .tc .vmem S256x1 .f32) (harg6 : arg6.IsWhole) (hc0 : cond0_0 i) (hc1 : ¬cond0_1 i)
    (x0 x1 : Vec F S256x4x256 .f32) : Vec F S256x1 .f32 :=
  VS0_1.read (Elt F) (VS0_1.writes (Elt F) VS0_1.junk (kernelRun0_A c i arg2 harg2 arg3 harg3 arg4 harg4 arg5 harg5 arg6 harg6 hc0 hc1 x0 x1).2.2.1)

/-! ## Case B -/

/-- What case B leaves in the output block's buffer (nothing is stored: a value no later step reads). -/
def out0_B_2 (c : Dev nD) (i : grid0.Coords) (arg2 : Memref sig .tc .vmem S256x4x256 .f32) (harg2 : arg2.IsWhole) (arg3 : Memref sig .tc .vmem S256x4x256 .f32) (harg3 : arg3.IsWhole) (arg4 : Memref sig .tc .vmem S256 .f32) (harg4 : arg4.IsWhole) (arg5 : Memref sig .tc .vmem S256x16 .f32) (harg5 : arg5.IsWhole) (arg6 : Memref sig .tc .vmem S256x1 .f32) (harg6 : arg6.IsWhole) (hc0 : ¬cond0_0 i) (hc1 : ¬cond0_1 i)
    (x0 x1 : Vec F S256x4x256 .f32) (xs0 : Vec F S256x16 .f32) (xs1 : Vec F S256x1 .f32) : Vec F S256 .f32 :=
  VO0_2.read (Elt F) (VO0_2.writes (Elt F) VO0_2.junk (kernelRun0_B c i arg2 harg2 arg3 harg3 arg4 harg4 arg5 harg5 arg6 harg6 hc0 hc1 x0 x1 xs0 xs1).1)

theorem scover0_B_0 (c : Dev nD) (i : grid0.Coords) (arg2 : Memref sig .tc .vmem S256x4x256 .f32) (harg2 : arg2.IsWhole) (arg3 : Memref sig .tc .vmem S256x4x256 .f32) (harg3 : arg3.IsWhole) (arg4 : Memref sig .tc .vmem S256 .f32) (harg4 : arg4.IsWhole) (arg5 : Memref sig .tc .vmem S256x16 .f32) (harg5 : arg5.IsWhole) (arg6 : Memref sig .tc .vmem S256x1 .f32) (harg6 : arg6.IsWhole) (hc0 : ¬cond0_0 i) (hc1 : ¬cond0_1 i)
    (x0 x1 : Vec F S256x4x256 .f32) (xs0 : Vec F S256x16 .f32) (xs1 : Vec F S256x1 .f32) (y : S256x16.Idx) :
    ∃ pc ∈ (kernelRun0_B c i arg2 harg2 arg3 harg3 arg4 harg4 arg5 harg5 arg6 harg6 hc0 hc1 x0 x1 xs0 xs1).2.1, y ∈ pc.1.set :=
  View.cover_of_tiledL (kernelRun0_B c i arg2 harg2 arg3 harg3 arg4 harg4 arg5 harg5 arg6 harg6 hc0 hc1 x0 x1 xs0 xs1).2.1 S256x1.size (by sl_kernel_rfl) y

/-- What case B leaves in the sixteen-column accumulator. -/
def sout0_B_0 (c : Dev nD) (i : grid0.Coords) (arg2 : Memref sig .tc .vmem S256x4x256 .f32) (harg2 : arg2.IsWhole) (arg3 : Memref sig .tc .vmem S256x4x256 .f32) (harg3 : arg3.IsWhole) (arg4 : Memref sig .tc .vmem S256 .f32) (harg4 : arg4.IsWhole) (arg5 : Memref sig .tc .vmem S256x16 .f32) (harg5 : arg5.IsWhole) (arg6 : Memref sig .tc .vmem S256x1 .f32) (harg6 : arg6.IsWhole) (hc0 : ¬cond0_0 i) (hc1 : ¬cond0_1 i)
    (x0 x1 : Vec F S256x4x256 .f32) (xs0 : Vec F S256x16 .f32) (xs1 : Vec F S256x1 .f32) : Vec F S256x16 .f32 :=
  VS0_0.read (Elt F) (VS0_0.writes (Elt F) VS0_0.junk (kernelRun0_B c i arg2 harg2 arg3 harg3 arg4 harg4 arg5 harg5 arg6 harg6 hc0 hc1 x0 x1 xs0 xs1).2.1)

theorem scover0_B_1 (c : Dev nD) (i : grid0.Coords) (arg2 : Memref sig .tc .vmem S256x4x256 .f32) (harg2 : arg2.IsWhole) (arg3 : Memref sig .tc .vmem S256x4x256 .f32) (harg3 : arg3.IsWhole) (arg4 : Memref sig .tc .vmem S256 .f32) (harg4 : arg4.IsWhole) (arg5 : Memref sig .tc .vmem S256x16 .f32) (harg5 : arg5.IsWhole) (arg6 : Memref sig .tc .vmem S256x1 .f32) (harg6 : arg6.IsWhole) (hc0 : ¬cond0_0 i) (hc1 : ¬cond0_1 i)
    (x0 x1 : Vec F S256x4x256 .f32) (xs0 : Vec F S256x16 .f32) (xs1 : Vec F S256x1 .f32) (y : S256x1.Idx) :
    ∃ pc ∈ (kernelRun0_B c i arg2 harg2 arg3 harg3 arg4 harg4 arg5 harg5 arg6 harg6 hc0 hc1 x0 x1 xs0 xs1).2.2.1, y ∈ pc.1.set :=
  View.cover_of_tiledL (kernelRun0_B c i arg2 harg2 arg3 harg3 arg4 harg4 arg5 harg5 arg6 harg6 hc0 hc1 x0 x1 xs0 xs1).2.2.1 S256x1.size (by sl_kernel_rfl) y

/-- What case B leaves in the running sum of clamped squares. -/
def sout0_B_1 (c : Dev nD) (i : grid0.Coords) (arg2 : Memref sig .tc .vmem S256x4x256 .f32) (harg2 : arg2.IsWhole) (arg3 : Memref sig .tc .vmem S256x4x256 .f32) (harg3 : arg3.IsWhole) (arg4 : Memref sig .tc .vmem S256 .f32) (harg4 : arg4.IsWhole) (arg5 : Memref sig .tc .vmem S256x16 .f32) (harg5 : arg5.IsWhole) (arg6 : Memref sig .tc .vmem S256x1 .f32) (harg6 : arg6.IsWhole) (hc0 : ¬cond0_0 i) (hc1 : ¬cond0_1 i)
    (x0 x1 : Vec F S256x4x256 .f32) (xs0 : Vec F S256x16 .f32) (xs1 : Vec F S256x1 .f32) : Vec F S256x1 .f32 :=
  VS0_1.read (Elt F) (VS0_1.writes (Elt F) VS0_1.junk (kernelRun0_B c i arg2 harg2 arg3 harg3 arg4 harg4 arg5 harg5 arg6 harg6 hc0 hc1 x0 x1 xs0 xs1).2.2.1)

/-! ## Case C -/

/-- What case C leaves in the output block's buffer. -/
def out0_C_2 (c : Dev nD) (i : grid0.Coords) (arg2 : Memref sig .tc .vmem S256x4x256 .f32) (harg2 : arg2.IsWhole) (arg3 : Memref sig .tc .vmem S256x4x256 .f32) (harg3 : arg3.IsWhole) (arg4 : Memref sig .tc .vmem S256 .f32) (harg4 : arg4.IsWhole) (arg5 : Memref sig .tc .vmem S256x16 .f32) (harg5 : arg5.IsWhole) (arg6 : Memref sig .tc .vmem S256x1 .f32) (harg6 : arg6.IsWhole) (hc0 : ¬cond0_0 i) (hc1 : cond0_1 i)
    (x0 x1 : Vec F S256x4x256 .f32) (xs0 : Vec F S256x16 .f32) (xs1 : Vec F S256x1 .f32) : Vec F S256 .f32 :=
  VO0_2.read (Elt F) (VO0_2.writes (Elt F) VO0_2.junk (kernelRun0_C c i arg2 harg2 arg3 harg3 arg4 harg4 arg5 harg5 arg6 harg6 hc0 hc1 x0 x1 xs0 xs1).1)

theorem scover0_C_0 (c : Dev nD) (i : grid0.Coords) (arg2 : Memref sig .tc .vmem S256x4x256 .f32) (harg2 : arg2.IsWhole) (arg3 : Memref sig .tc .vmem S256x4x256 .f32) (harg3 : arg3.IsWhole) (arg4 : Memref sig .tc .vmem S256 .f32) (harg4 : arg4.IsWhole) (arg5 : Memref sig .tc .vmem S256x16 .f32) (harg5 : arg5.IsWhole) (arg6 : Memref sig .tc .vmem S256x1 .f32) (harg6 : arg6.IsWhole) (hc0 : ¬cond0_0 i) (hc1 : cond0_1 i)
    (x0 x1 : Vec F S256x4x256 .f32) (xs0 : Vec F S256x16 .f32) (xs1 : Vec F S256x1 .f32) (y : S256x16.Idx) :
    ∃ pc ∈ (kernelRun0_C c i arg2 harg2 arg3 harg3 arg4 harg4 arg5 harg5 arg6 harg6 hc0 hc1 x0 x1 xs0 xs1).2.1, y ∈ pc.1.set :=
  View.cover_of_tiledL (kernelRun0_C c i arg2 harg2 arg3 harg3 arg4 harg4 arg5 harg5 arg6 harg6 hc0 hc1 x0 x1 xs0 xs1).2.1 S256x1.size (by sl_kernel_rfl) y

/-- What case C leaves in the sixteen-column accumulator. -/
def sout0_C_0 (c : Dev nD) (i : grid0.Coords) (arg2 : Memref sig .tc .vmem S256x4x256 .f32) (harg2 : arg2.IsWhole) (arg3 : Memref sig .tc .vmem S256x4x256 .f32) (harg3 : arg3.IsWhole) (arg4 : Memref sig .tc .vmem S256 .f32) (harg4 : arg4.IsWhole) (arg5 : Memref sig .tc .vmem S256x16 .f32) (harg5 : arg5.IsWhole) (arg6 : Memref sig .tc .vmem S256x1 .f32) (harg6 : arg6.IsWhole) (hc0 : ¬cond0_0 i) (hc1 : cond0_1 i)
    (x0 x1 : Vec F S256x4x256 .f32) (xs0 : Vec F S256x16 .f32) (xs1 : Vec F S256x1 .f32) : Vec F S256x16 .f32 :=
  VS0_0.read (Elt F) (VS0_0.writes (Elt F) VS0_0.junk (kernelRun0_C c i arg2 harg2 arg3 harg3 arg4 harg4 arg5 harg5 arg6 harg6 hc0 hc1 x0 x1 xs0 xs1).2.1)

theorem scover0_C_1 (c : Dev nD) (i : grid0.Coords) (arg2 : Memref sig .tc .vmem S256x4x256 .f32) (harg2 : arg2.IsWhole) (arg3 : Memref sig .tc .vmem S256x4x256 .f32) (harg3 : arg3.IsWhole) (arg4 : Memref sig .tc .vmem S256 .f32) (harg4 : arg4.IsWhole) (arg5 : Memref sig .tc .vmem S256x16 .f32) (harg5 : arg5.IsWhole) (arg6 : Memref sig .tc .vmem S256x1 .f32) (harg6 : arg6.IsWhole) (hc0 : ¬cond0_0 i) (hc1 : cond0_1 i)
    (x0 x1 : Vec F S256x4x256 .f32) (xs0 : Vec F S256x16 .f32) (xs1 : Vec F S256x1 .f32) (y : S256x1.Idx) :
    ∃ pc ∈ (kernelRun0_C c i arg2 harg2 arg3 harg3 arg4 harg4 arg5 harg5 arg6 harg6 hc0 hc1 x0 x1 xs0 xs1).2.2.1, y ∈ pc.1.set :=
  View.cover_of_tiledL (kernelRun0_C c i arg2 harg2 arg3 harg3 arg4 harg4 arg5 harg5 arg6 harg6 hc0 hc1 x0 x1 xs0 xs1).2.2.1 S256x1.size (by sl_kernel_rfl) y

/-- What case C leaves in the running sum of clamped squares. -/
def sout0_C_1 (c : Dev nD) (i : grid0.Coords) (arg2 : Memref sig .tc .vmem S256x4x256 .f32) (harg2 : arg2.IsWhole) (arg3 : Memref sig .tc .vmem S256x4x256 .f32) (harg3 : arg3.IsWhole) (arg4 : Memref sig .tc .vmem S256 .f32) (harg4 : arg4.IsWhole) (arg5 : Memref sig .tc .vmem S256x16 .f32) (harg5 : arg5.IsWhole) (arg6 : Memref sig .tc .vmem S256x1 .f32) (harg6 : arg6.IsWhole) (hc0 : ¬cond0_0 i) (hc1 : cond0_1 i)
    (x0 x1 : Vec F S256x4x256 .f32) (xs0 : Vec F S256x16 .f32) (xs1 : Vec F S256x1 .f32) : Vec F S256x1 .f32 :=
  VS0_1.read (Elt F) (VS0_1.writes (Elt F) VS0_1.junk (kernelRun0_C c i arg2 harg2 arg3 harg3 arg4 harg4 arg5 harg5 arg6 harg6 hc0 hc1 x0 x1 xs0 xs1).2.2.1)

theorem cover0_C_2 (c : Dev nD) (i : grid0.Coords) (arg2 : Memref sig .tc .vmem S256x4x256 .f32) (harg2 : arg2.IsWhole) (arg3 : Memref sig .tc .vmem S256x4x256 .f32) (harg3 : arg3.IsWhole) (arg4 : Memref sig .tc .vmem S256 .f32) (harg4 : arg4.IsWhole) (arg5 : Memref sig .tc .vmem S256x16 .f32) (harg5 : arg5.IsWhole) (arg6 : Memref sig .tc .vmem S256x1 .f32) (harg6 : arg6.IsWhole) (hc0 : ¬cond0_0 i) (hc1 : cond0_1 i)
    (x0 x1 : Vec F S256x4x256 .f32) (xs0 : Vec F S256x16 .f32) (xs1 : Vec F S256x1 .f32) (y : S256.Idx) :
    ∃ pc ∈ (kernelRun0_C c i arg2 harg2 arg3 harg3 arg4 harg4 arg5 harg5 arg6 harg6 hc0 hc1 x0 x1 xs0 xs1).1, y ∈ pc.1.set :=
  View.cover_of_tiledL (kernelRun0_C c i arg2 harg2 arg3 harg3 arg4 harg4 arg5 harg5 arg6 harg6 hc0 hc1 x0 x1 xs0 xs1).1 S256.size (by sl_kernel_rfl) y

/-! ## What the buffers hold after each point -/

/-- After the body at position `n`: the output block's buffer, the sixteen-column accumulator, the running sum. The first
    step of the reduction axis (`n` a multiple of 8) starts afresh; every other step continues from the point before. -/
def outsAt0 (c : Dev nD) : (n : ℕ) → n < cfg0.N → Vec F S256 .f32 × Vec F S256x16 .f32 × Vec F S256x1 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩))
  | n + 1, hn =>
    if h0 : (n + 1) % 8 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) ((hcond0_0 ⟨n + 1, hn⟩).mpr h0) (fun h => (fun h => by (try dsimp only at h); omega) ((hcond0_1 ⟨n + 1, hn⟩).mp h)) (iblk m c 0 ⟨n + 1, hn⟩) (iblk m c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) ((hcond0_0 ⟨n + 1, hn⟩).mpr h0) (fun h => (fun h => by (try dsimp only at h); omega) ((hcond0_1 ⟨n + 1, hn⟩).mp h)) (iblk m c 0 ⟨n + 1, hn⟩) (iblk m c 1 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) ((hcond0_0 ⟨n + 1, hn⟩).mpr h0) (fun h => (fun h => by (try dsimp only at h); omega) ((hcond0_1 ⟨n + 1, hn⟩).mp h)) (iblk m c 0 ⟨n + 1, hn⟩) (iblk m c 1 ⟨n + 1, hn⟩))
    else
      if h1 : (n + 1) % 8 = 7 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.1 (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.1 (outsAt0 c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.1 (outsAt0 c n (Nat.lt_of_succ_lt hn)).2.2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2.1 (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2.1 (outsAt0 c n (Nat.lt_of_succ_lt hn)).2.2)

theorem outsAt0_A (c : Dev nD) (t : Fin cfg0.N) (h0 : t.val % 8 = 0) (h1 : ¬t.val % 8 = 7) :
    outsAt0 m c t.val t.isLt = (out0_A_2 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk m c 0 t) (iblk m c 1 t), sout0_A_0 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk m c 0 t) (iblk m c 1 t), sout0_A_1 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk m c 0 t) (iblk m c 1 t)) := by
  obtain ⟨n, hn⟩ := t
  cases n with
  | zero => exact rfl
  | succ n => exact (dif_pos h0).trans rfl

theorem outsAt0_B (c : Dev nD) (t : Fin cfg0.N) (h0 : ¬t.val % 8 = 0) (h1 : ¬t.val % 8 = 7) :
    outsAt0 m c t.val t.isLt = (out0_B_2 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2, sout0_B_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 m c t.val t.isLt = (out0_C_2 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2, sout0_C_0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2, sout0_C_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point both accumulators at anything; afterwards each at
    what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2)) ∗ (∃ r, prngReg c r)) := by
  cases n with
  | zero => exact absurd rfl hz
  | succ n => rfl

/-! ## The proof data -/

/-- The arrays as the region finds them; after the body each input's buffer at its block and the output's at `outsAt0`;
    the two input windows of the one argument array at the two halves of the full share; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem q0_eq (c : Dev nD) : (dats m 0 c).q 0 = fullShare.left := by dsimp only [dats]
theorem q1_eq (c : Dev nD) : (dats m 0 c).q 1 = fullShare.right := by dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

/-- An input's current buffer holds its block at every point, fetched there or not. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)

end Cert.KernelIdeal.Hand

end
-- ==== Proof.KBody.lean ====
/-
  The body obligation at every grid point: which case the point is in is decided by its position along the reduction
  axis; the invariant hands the body both accumulators at what the point before left (at anything before the first
  point) and takes them back at this point's contents.
-/
import proofs.«150541_j83794811945494_1_alg».proof.Proof.KFrame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val % 8 = 0
  · have h1 : ¬t.val % 8 = 7 := by omega
    have hc0 : cond0_0 (grid0.coords t) := (hcond0_0 t).mpr h0
    have hc1 : ¬cond0_1 (grid0.coords t) := fun h => h1 ((hcond0_1 t).mp h)
    rw [show (dats m 0 c).leavesExact 0 t = owns (c : Thread nD τ) (ms0_0 t) fullShare ((dats m 0 c).after 0 t) from by unfold Dat.leavesExact; rw [liveAt0_0 t], after0_0]
    rw [show (dats m 0 c).leavesExact 1 t = owns (c : Thread nD τ) (ms0_1 t) fullShare ((dats m 0 c).after 1 t) from by unfold Dat.leavesExact; rw [liveAt0_1 t], after0_1]
    rw [Dat.leavesExact_idle (dats m 0 c) 2 t (idleAt0_2 t hc1) (noFlush0_2 t hc1)]
    rw [outsAt0_A m c t h0 h1]
    unfold sout0_A_0 sout0_A_1; (try dsimp only)
    by_cases hz : t.val = 0
    · rw [PhiS_castSucc m c t, PhiS_zero m c _ _ hz, PhiA0_eq]
      iintro ⟨⟨⟨HS0, HS1⟩, Hg⟩, Ho, ⟨%d0, H0⟩, ⟨%d1, H1⟩, ⟨%d2, H2⟩⟩
      iapply ((kernelRun0_A c (grid0.coords t) _ _ _ _ _ _ _ _ _ _ hc0 hc1 (iblk m c 0 t) (iblk m c 1 t)).2.2.2 _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _)
          · unfold owns; iexists _; isplitr
            swap; · iexact HS1
            ipureintro; exact View.read_writes_of_cover _ _ _ _ _ (scover0_A_1 c _ _ _ _ _ _ _ _ _ _ _ _ _ _ _)
        · iexact Hg
      isplitl [Ho]; · iexact Ho
      isplitl [H0]; · iexact H0
      isplitl [H1]; · iexact H1
      iexists _; iexact H2
    · rw [PhiS_castSucc m c t, PhiS_pos m c _ _ hz]
      iintro ⟨⟨⟨HS0, HS1⟩, Hg⟩, Ho, ⟨%d0, H0⟩, ⟨%d1, H1⟩, ⟨%d2, H2⟩⟩
      iapply ((kernelRun0_A c (grid0.coords t) _ _ _ _ _ _ _ _ _ _ hc0 hc1 (iblk m c 0 t) (iblk m c 1 t)).2.2.2 _ Set.univ _)
      isplitl [H0]; · iexact H0
      isplitl [H1]; · iexact H1
      isplitl [H2]; · iexact H2
      isplitl [HS0]; · iexists _; iexact HS0
      isplitl [HS1]; · iexists _; iexact HS1
      iintro ⟨H0, H1, H2, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _)
          · unfold owns; iexists _; isplitr
            swap; · iexact HS1
            ipureintro; exact View.read_writes_of_cover _ _ _ _ _ (scover0_A_1 c _ _ _ _ _ _ _ _ _ _ _ _ _ _ _)
        · iexact Hg
      isplitl [Ho]; · iexact Ho
      isplitl [H0]; · iexact H0
      isplitl [H1]; · iexact H1
      iexists _; iexact H2
  · have hz : t.val ≠ 0 := fun h => h0 (by rw [h])
    have hc0 : ¬cond0_0 (grid0.coords t) := fun h => h0 ((hcond0_0 t).mp h)
    by_cases h1 : t.val % 8 = 7
    · have hc1 : cond0_1 (grid0.coords t) := (hcond0_1 t).mpr h1
      rw [show (dats m 0 c).leavesExact 0 t = owns (c : Thread nD τ) (ms0_0 t) fullShare ((dats m 0 c).after 0 t) from by unfold Dat.leavesExact; rw [liveAt0_0 t], after0_0]
      rw [show (dats m 0 c).leavesExact 1 t = owns (c : Thread nD τ) (ms0_1 t) fullShare ((dats m 0 c).after 1 t) from by unfold Dat.leavesExact; rw [liveAt0_1 t], after0_1]
      rw [show (dats m 0 c).leavesExact 2 t = owns (c : Thread nD τ) (ms0_2 t) fullShare ((dats m 0 c).after 2 t) from by unfold Dat.leavesExact; rw [liveAt0_2 t hc1], after0_2]
      rw [outsAt0_C m c t h0 h1]
      unfold out0_C_2 sout0_C_0 sout0_C_1; (try dsimp only)
      rw [PhiS_castSucc m c t, PhiS_pos m c _ _ hz]
      iintro ⟨⟨⟨HS0, HS1⟩, Hg⟩, Ho, ⟨%d0, H0⟩, ⟨%d1, H1⟩, ⟨%d2, H2⟩⟩
      iapply ((kernelRun0_C c (grid0.coords t) _ _ _ _ _ _ _ _ _ _ hc0 hc1 (iblk m c 0 t) (iblk m c 1 t) _ _).2.2.2 Set.univ _)
      isplitl [H0]; · iexact H0
      isplitl [H1]; · iexact H1
      isplitl [H2]; · iexists _; iexact H2
      isplitl [HS0]; · iexact HS0
      isplitl [HS1]; · iexact HS1
      iintro ⟨H0, H1, ⟨%e2, H2⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_C_0 c _ _ _ _ _ _ _ _ _ _ _ _ _ _ _ _ _)
          · unfold owns; iexists _; isplitr
            swap; · iexact HS1
            ipureintro; exact View.read_writes_of_cover _ _ _ _ _ (scover0_C_1 c _ _ _ _ _ _ _ _ _ _ _ _ _ _ _ _ _)
        · iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _ _ _ _)
    · have hc1 : ¬cond0_1 (grid0.coords t) := fun h => h1 ((hcond0_1 t).mp h)
      rw [show (dats m 0 c).leavesExact 0 t = owns (c : Thread nD τ) (ms0_0 t) fullShare ((dats m 0 c).after 0 t) from by unfold Dat.leavesExact; rw [liveAt0_0 t], after0_0]
      rw [show (dats m 0 c).leavesExact 1 t = owns (c : Thread nD τ) (ms0_1 t) fullShare ((dats m 0 c).after 1 t) from by unfold Dat.leavesExact; rw [liveAt0_1 t], after0_1]
      rw [Dat.leavesExact_idle (dats m 0 c) 2 t (idleAt0_2 t hc1) (noFlush0_2 t hc1)]
      rw [outsAt0_B m c t h0 h1]
      unfold sout0_B_0 sout0_B_1; (try dsimp only)
      rw [PhiS_castSucc m c t, PhiS_pos m c _ _ hz]
      iintro ⟨⟨⟨HS0, HS1⟩, Hg⟩, Ho, ⟨%d0, H0⟩, ⟨%d1, H1⟩, ⟨%d2, H2⟩⟩
      iapply ((kernelRun0_B c (grid0.coords t) _ _ _ _ _ _ _ _ _ _ hc0 hc1 (iblk m c 0 t) (iblk m c 1 t) _ _).2.2.2 _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_B_0 c _ _ _ _ _ _ _ _ _ _ _ _ _ _ _ _ _)
          · unfold owns; iexists _; isplitr
            swap; · iexact HS1
            ipureintro; exact View.read_writes_of_cover _ _ _ _ _ (scover0_B_1 c _ _ _ _ _ _ _ _ _ _ _ _ _ _ _ _ _)
        · iexact Hg
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the accumulators back, their contents forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), PhiA0_eq]
  iintro ⟨⟨HS0, HS1⟩, Hg⟩
  isplitl [HS0 HS1]
  · isplitl [HS0]
    · iexists _; iexact HS0
    · iexists _; iexact HS1
  iexact Hg

end Cert.KernelIdeal.Hand

end
-- ==== Proof.KLaunch.lean ====
/-
  The launch of the kernel's one region when two input windows read one array: the array's points-to is split between
  the two windows along the share, the region runs, and the four host lines after it run within the output array and
  the buffers that bypass the region.
-/
import proofs.«150541_j83794811945494_1_alg».proof.Proof.KBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host lines allocate nothing. -/
theorem hostOps1_fresh : (hostOps1 : List (HloOp τ sig (Elt F))).Forall fun op => op.fresh = ∅ := by
  simp only [List.Forall]; repeat' constructor

/-- @main reduces to the region continued by the four host lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

/-! ## The contents the host lines run from -/

/-- Core `c`'s buffer contents at the region's exit: the output array at what the write-backs left, every other
    buffer as the region found it (the input array is never written). -/
def Wx (c : Dev nD) (o : Buf (Elt F) ((c : Thread nD τ).loc main_v0)) : Valuation τ sig (Elt F) :=
  Function.update (V0 m c) (Proc.devRef .tc main_v0) o

theorem Wx_v0 (c : Dev nD) (o : Buf (Elt F) ((c : Thread nD τ).loc main_v0)) : Wx m c o (Proc.devRef .tc main_v0) = o :=
  Function.update_self ..

theorem Wx_of_ne (c : Dev nD) (o : Buf (Elt F) ((c : Thread nD τ).loc main_v0)) (b : Ref sig .tc) (h : b ≠ main_v0) :
    Wx m c o (Proc.devRef .tc b) = V m c b :=
  Function.update_of_ne (StableHlo.devRef_ne_of_ne h) ..

/-- What the buffers that bypass the region hold after the host lines. -/
abbrev Wend (c : Dev nD) (o : Buf (Elt F) ((c : Thread nD τ).loc main_v0)) (b : Ref sig .tc) : Buf (Elt F) ((c : Thread nD τ).loc b) :=
  StableHlo.after hostOps1 (Wx m c o) (Proc.devRef .tc b)

/-- The two distinct buffers behind the three windows' arrays. -/
theorem arrBufs0_eq (c : Dev nD) (Vc : (b : Ref sig .tc) → Buf (Elt F) ((c.tc : Thread nD τ).loc b)) :
    (Pipeline.arrBufs spec0 c Vc : sProp 𝕄)
      = iprop((((c.tc : Thread nD τ).loc main_arg0) ↦{fullShare} Vc main_arg0) ∗ (((c.tc : Thread nD τ).loc main_v0) ↦{fullShare} Vc main_v0)) := by
  unfold Pipeline.arrBufs
  rw [show Finset.univ.image (Pipeline.arrRef spec0) = {main_arg0, main_v0} from by decide, bigSep_insert (by decide), bigSep_singleton]; rfl

/-- The proof data's arrays at contents `G`: the input array's two halves and the output array whole. -/
theorem arrays0_eq {c : Dev nD} (dat : Dat τ (Elt F) Unit ℕ (UR sig nD τ) ℕ cfg0 c)
    (hq0 : dat.q 0 = fullShare.left) (hq1 : dat.q 1 = fullShare.right)
    (G : (w : Fin cfg0.W) → Buf (Elt F) ((cfg0.win w).arr.view.loc (c.tc : Thread nD τ))) :
    (dat.arrays G : sProp 𝕄)
      = iprop((((c.tc : Thread nD τ).loc main_arg0) ↦{fullShare.left} G 0) ∗ (((c.tc : Thread nD τ).loc main_arg0) ↦{fullShare.right} G 1)
          ∗ (((c.tc : Thread nD τ).loc main_v0) ↦{fullShare} G 2)) := by
  have hs0 : dat.share 0 = fullShare.left := by unfold Dat.share; exact (if_neg (by decide)).trans hq0
  have hs1 : dat.share 1 = fullShare.right := by unfold Dat.share; exact (if_neg (by decide)).trans hq1
  have hs2 : dat.share 2 = fullShare := by unfold Dat.share; exact if_pos (by decide)
  unfold Dat.arrays
  rw [bigSep_W0, hs0, hs1, hs2, (arr_whole0 0).set_eq_univ, (arr_whole0 2).set_eq_univ]

/-- AT THE REGION'S ENTRY the two buffers behind the arrays, whole at the full share, make the proof data's arrays: the
    input array's points-to splits along the share into the left half for window 0 and the right half for window 1. -/
theorem hsplit_of {c : Dev nD} (dat : Dat τ (Elt F) Unit ℕ (UR sig nD τ) ℕ cfg0 c)
    (hq0 : dat.q 0 = fullShare.left) (hq1 : dat.q 1 = fullShare.right)
    (hA : ∀ w, dat.A w = V m c (Pipeline.arrRef spec0 w)) :
    (Pipeline.arrBufs spec0 c (V m c) : sProp 𝕄) ⊢ dat.arrays (dat.arrAt · 0) := by
  have e0 : dat.arrAt 0 0 = V m c main_arg0 := hA 0
  have e1 : dat.arrAt 1 0 = V m c main_arg0 := hA 1
  have e2 : dat.arrAt 2 0 = V m c main_v0 := hA 2
  rw [arrBufs0_eq, arrays0_eq dat hq0 hq1, e0, e1, e2]
  iintro ⟨HA, HO⟩
  ihave HA := (pointsTo_share (PosShare.mem_left_op_right fullShare)).1 $$ HA
  icases HA with ⟨HA₁, HA₂⟩
  isplitl [HA₁]; · iexact HA₁
  isplitl [HA₂]; · iexact HA₂
  iexact HO

/-! ## The host lines after the region -/

/-- The references the host lines touch: the output array and the four buffers that bypass the region. -/
abbrev tailR : Finset (Ref sig .tc) := {main_v0, main_cst, main_v1, main_cst_0, main_v2}
/-- The same as device buffers. -/
def tailS : Finset (DevRef τ sig) := tailR.map ⟨Proc.devRef (sig := sig) .tc, Proc.devRef_injective _⟩

theorem held_tailS (c : Dev nD) (W : Valuation τ sig (Elt F)) :
    (StableHlo.held (c.tc : Thread nD τ) tailS W : sProp 𝕄)
      = iprop((((c.tc : Thread nD τ).loc main_v0) ↦{fullShare} W (Proc.devRef .tc main_v0))
          ∗ (((c.tc : Thread nD τ).loc main_cst) ↦{fullShare} W (Proc.devRef .tc main_cst))
          ∗ (((c.tc : Thread nD τ).loc main_v1) ↦{fullShare} W (Proc.devRef .tc main_v1))
          ∗ (((c.tc : Thread nD τ).loc main_cst_0) ↦{fullShare} W (Proc.devRef .tc main_cst_0))
          ∗ (((c.tc : Thread nD τ).loc main_v2) ↦{fullShare} W (Proc.devRef .tc main_v2))) := by
  unfold StableHlo.held tailS
  rw [bigSep_map, bigSep_insert (by decide), bigSep_insert (by decide), bigSep_insert (by decide), bigSep_insert (by decide), bigSep_singleton]
  rfl

theorem mem_tailS (b : Ref sig .tc) (h : b ∈ tailR) : Proc.devRef (τ := τ) .tc b ∈ tailS :=
  Finset.mem_map.mpr ⟨b, h, rfl⟩

theorem hostOps1_tailS : ∀ ops ∈ ([hostOps1] : List (List (HloOp τ sig (Elt F)))), ∀ op ∈ ops, op.bufs ⊆ tailS := by
  intro ops hops op hop
  simp only [List.mem_cons, List.mem_nil_iff, or_false] at hops
  rcases hops with rfl
  simp only [hostOps1, List.mem_cons, List.mem_nil_iff, or_false] at hop
  rcases hop with rfl | rfl | rfl | rfl
  all_goals
    intro b hb
    simp only [StableHlo.nullary_bufs, StableHlo.binary_bufs, Finset.mem_insert, Finset.mem_singleton] at hb
    rcases hb with rfl | rfl | rfl <;> exact mem_tailS _ (by decide)

theorem hostOps1_fresh' : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- The output array is written by no host line. -/
theorem Wend_v0 (c : Dev nD) (o : Buf (Elt F) ((c : Thread nD τ).loc main_v0)) : Wend m c o main_v0 = o := by
  unfold Wend
  after_results
  exact Wx_v0 m c o

/-- THE LINES AFTER THE REGION: from the region's exit — the boundary, the input array's two halves and the output
    array at what the write-backs left, the four bypassing buffers as the region found them — the four host lines run
    within the output array and the bypassing buffers, and hand back the arrays untouched and the bypassing buffers at
    what the lines computed. -/
theorem htail_of {c : Dev nD} (dat : Dat τ (Elt F) Unit ℕ (UR sig nD τ) ℕ cfg0 c)
    (hq0 : dat.q 0 = fullShare.left) (hq1 : dat.q 1 = fullShare.right) (Q' : PUnit → sProp 𝕄) :
    iprop((iprop(dat.arrays (dat.arrAt · cfg0.N)
              ∗ Pipeline.unscopedRestP (Ix := Unit) (Name := ℕ) (U := UR sig nD τ) (Lvl := ℕ) Pipeline.Prefetch.none spec0 c (Wend m c (dat.arrAt 2 cfg0.N))) -∗ Q' ⟨⟩)
        ∗ boundary (c.tc : Thread nD τ) ∗ dat.arrays (dat.arrAt · cfg0.N)
        ∗ Pipeline.unscopedRestP (Ix := Unit) (Name := ℕ) (U := UR sig nD τ) (Lvl := ℕ) Pipeline.Prefetch.none spec0 c (V m c))
      ⊢ wp frame (wpE (Pipeline.defs (fun p => (cfgs p).toPCfg (Val := Elt F)) defs₀) (Variants.lift Variants.none) (c.tc : Thread nD τ) none) Set.univ
          (Pipeline.chain [StableHlo.seq hostOps1]) Q' := by
  have hW : (StableHlo.held (c.tc : Thread nD τ) tailS (Wx m c (dat.arrAt 2 cfg0.N)) : sProp 𝕄)
      = iprop((((c.tc : Thread nD τ).loc main_v0) ↦{fullShare} dat.arrAt 2 cfg0.N)
          ∗ (((c.tc : Thread nD τ).loc main_cst) ↦{fullShare} V m c main_cst)
          ∗ (((c.tc : Thread nD τ).loc main_v1) ↦{fullShare} V m c main_v1)
          ∗ (((c.tc : Thread nD τ).loc main_cst_0) ↦{fullShare} V m c main_cst_0)
          ∗ (((c.tc : Thread nD τ).loc main_v2) ↦{fullShare} V m c main_v2)) := by
    rw [held_tailS, Wx_v0, Wx_of_ne m c _ main_cst (by decide), Wx_of_ne m c _ main_v1 (by decide),
      Wx_of_ne m c _ main_cst_0 (by decide), Wx_of_ne m c _ main_v2 (by decide)]
  have hW' : (StableHlo.held (c.tc : Thread nD τ) tailS (StableHlo.after ([hostOps1] : List (List (HloOp τ sig (Elt F)))).flatten (Wx m c (dat.arrAt 2 cfg0.N))) : sProp 𝕄)
      = iprop((((c.tc : Thread nD τ).loc main_v0) ↦{fullShare} dat.arrAt 2 cfg0.N)
          ∗ (((c.tc : Thread nD τ).loc main_cst) ↦{fullShare} Wend m c (dat.arrAt 2 cfg0.N) main_cst)
          ∗ (((c.tc : Thread nD τ).loc main_v1) ↦{fullShare} Wend m c (dat.arrAt 2 cfg0.N) main_v1)
          ∗ (((c.tc : Thread nD τ).loc main_cst_0) ↦{fullShare} Wend m c (dat.arrAt 2 cfg0.N) main_cst_0)
          ∗ (((c.tc : Thread nD τ).loc main_v2) ↦{fullShare} Wend m c (dat.arrAt 2 cfg0.N) main_v2)) := by
    rw [held_tailS, show ([hostOps1] : List (List (HloOp τ sig (Elt F)))).flatten = hostOps1 from by simp only [List.flatten_cons, List.flatten_nil, List.append_nil]]
    rw [show StableHlo.after hostOps1 (Wx m c (dat.arrAt 2 cfg0.N)) (Proc.devRef .tc main_v0) = dat.arrAt 2 cfg0.N from Wend_v0 m c _]
  rw [Pipeline.unscopedRestP_none, unscopedRest0_eq, Pipeline.unscopedRestP_none, unscopedRest0_eq, arrays0_eq dat hq0 hq1]
  iintro ⟨Hk, Hb, ⟨HA₁, HA₂, HO⟩, H1, H2, H3, H4⟩
  iapply (Pipeline.wp_seqs_then (fun p => (cfgs p).toPCfg (Val := Elt F)) defs₀ Variants.none c tailS [] [hostOps1] hostOps1_tailS hostOps1_fresh' (Wx m c (dat.arrAt 2 cfg0.N))) $$ [Hb HO H1 H2 H3 H4]
  · rw [hW]
    isplitl [Hb]; · iexact Hb
    isplitl [HO]; · iexact HO
    isplitl [H1]; · iexact H1
    isplitl [H2]; · iexact H2
    isplitl [H3]; · iexact H3
    iexact H4
  iintro Hb
  rw [Pipeline.chain_nil, wp_pure, hW']
  imodintro
  icases Hb with ⟨-, HO, H1, H2, H3, H4⟩
  iapply Hk
  isplitl [HA₁ HA₂ HO]
  · isplitl [HA₁]; · iexact HA₁
    isplitl [HA₂]; · iexact HA₂
    iexact HO
  isplitl [H1]; · iexact H1
  isplitl [H2]; · iexact H2
  isplitl [H3]; · iexact H3
  iexact H4

/-- What the last host line leaves in the result buffer: the output array summed from zero and divided by 2048. -/
theorem Wend_v2 (c : Dev nD) (o : Buf (Elt F) ((c : Thread nD τ).loc main_v0)) :
    Wend m c o main_v2
      = Host.divf (Host.reduceAdd o (constant S_ .f32 0x00000000#32) reducesTo_S2048_S_d0 h_S_) (constant S_ .f32 0x45000000#32) := by
  unfold Wend
  after_results
  rw [Wx_v0]

/-- The result buffer bypasses the region. -/
theorem main_v2_rest : main_v2 ∈ Pipeline.restRefsP sig Pipeline.Prefetch.none spec0 := by decide

/-! ## The run -/

/-- THE RUN of @main from proof data that hold the input array's left half for window 0 and its right half for
    window 1: the input array ends as it began, and the result buffer holds the output array — as the write-backs
    left it — summed from zero and divided by 2048. -/
theorem run_of (dats : (p : Fin 1) → (c : Dev nD) → Dat τ (Elt F) Unit ℕ (UR sig nD τ) ℕ (cfgs p) c)
    (hq0 : ∀ c, (dats 0 c).q 0 = fullShare.left) (hq1 : ∀ c, (dats 0 c).q 1 = fullShare.right)
    (hbody : ∀ c, Pipeline.BodyObligationLoose (dats 0 c) (defs₀ (F := F)) Variants.none () Set.univ)
    (howed : ∀ c t, (dats 0 c).owed t = 0)
    (hA : ∀ c w, (dats 0 c).A w = V m c (Pipeline.arrRef spec0 w))
    (hin : ∀ c, Pipeline.ΦA spec0 c ⊢ (dats 0 c).Φ 0)
    (hout : ∀ c, (dats 0 c).Φ (Fin.last cfg0.N) ⊢ Pipeline.ΦA spec0 c) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_v2) = Host.divf (Host.reduceAdd ((dats 0 c).arrAt 2 cfg0.N) (constant S_ .f32 0x00000000#32) reducesTo_S2048_S_d0 h_S_) (constant S_ .f32 0x45000000#32)) := by
  classical
  exact Pipeline.θ_run_region_pf_tail (fun p => (cfgs p).toPCfg (Val := Elt F)) (fun p => (cfgs p).toPCfg_adm) dats () cellOf_inj (0 : Fin 1) winFacts₀0
    (Pipeline.OwnSemFacts.none spec0) (Pipeline.PreFacts.none _) emb₁ defs₀ Variants.none m ρ main
    (fun _ => Pipeline.chain [StableHlo.seq hostOps1]) hbody
    block_pos0 arr_whole0 stage_whole0 howed
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => hsplit_of m (dats 0 c) (hq0 c) (hq1 c) (hA c))
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (Wend m c ((dats 0 c).arrAt 2 cfg0.N)))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := fun c Q' => htail_of m (dats 0 c) (hq0 c) (hq1 c) Q')
    (QY := fun c s => ∀ b ∈ Pipeline.restRefsP sig Pipeline.Prefetch.none spec0, s.mem ((c.tc : Thread nD τ).loc b) = Wend m c ((dats 0 c).arrAt 2 cfg0.N) b)
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (Wend m c ((dats 0 c).arrAt 2 cfg0.N)) s')
      isplitl [HU] <;> iassumption)
    (hQ := fun s h c => ⟨((h c).1 0).trans (((dats 0 c).arrAt_in 0 rfl _).trans ((hA c 0).trans (V_main_arg0 m c))),
      ((h c).2.2 main_v2 main_v2_rest).trans (Wend_v2 m c _)⟩)

end Cert.KernelIdeal.Hand

end
-- ==== Proof.Spec.lean ====
/-
  The function both programs compute, index by index on the extended reals, written once so that the kernel's side and
  the reference's side are proved against one term.

  For an array `a` of shape [2048, 4, 256] (rows `i`, contexts `j`, features `d`):
    gram i j k l  = Σ_d a[i,j,d] · a[k,l,d]                       the pairwise Gram tensor
    sim           = gram / 1                                       (the temperature, kept as the literal both programs divide by)
    top i j k     = the largest of sim i j k l over the four l
    dp            = exp (sim − top)
    clampSq x     = max (x·x) c,  c the literal 1e-8 as an f32 word
    diag i j l    = dp i j i l                                     the pairs of a row with itself
    posSum i      = Σ_{j ≠ l} diag i j l
    diagSq i      = Σ_{j,l} clampSq (diag i j l)
    totalSq i     = Σ_k Σ_{j,l} clampSq (dp i j k l)
    loss i        = −2 · (posSum i / 12) + (totalSq i − diagSq i) / 32752
  and the result is the mean of `loss` over the 2048 rows, taken by the same two host operations in both programs.
  Float literals stay as their f32 words: the same word stands on both sides and is never evaluated.
-/
import Idealize.ShloMosaic.PureOps.Ideal
import Idealize.ShloMosaic.Lib.ValueIdx

noncomputable section

open scoped BigOperators

namespace Cert.LossSpec

open Idealize.ShloMosaic Idealize.ShloMosaic.ValueIdx

/-- The argument's shape, [2048, 4, 256]. -/
abbrev A3 : Shape := ⟨3, ![2048, 4, 256]⟩
/-- The per-row result's shape, [2048]. -/
abbrev R1 : Shape := ⟨1, ![2048]⟩

/-- The literal 1.0 both programs divide the Gram entries by. -/
def one : EReal := (Ideal.ofBits .f32 0x3F800000#32 : Ideal .f32)
/-- The clamp's floor, the f32 word nearest 1e-8. -/
def floorC : EReal := (Ideal.ofBits .f32 0x322BCC77#32 : Ideal .f32)
/-- 12 = r·(r−1), the number of off-diagonal context pairs. -/
def twelve : EReal := (Ideal.ofBits .f32 0x41400000#32 : Ideal .f32)
/-- 32752 = (n−1)·r·r, the number of negative pairs of a row. -/
def pairs : EReal := (Ideal.ofBits .f32 0x46FFE000#32 : Ideal .f32)
/-- −2. -/
def negTwo : EReal := (Ideal.ofBits .f32 0xC0000000#32 : Ideal .f32)

variable (a : A3.Idx → EReal)

/-- The Gram entry of (row i, context j) against (row k, context l). -/
def gram (i : Fin 2048) (j : Fin 4) (k : Fin 2048) (l : Fin 4) : EReal :=
  ∑ d : Fin 256, a (ix3 i j d) * a (ix3 k l d)

/-- The similarity: the Gram entry over the temperature 1. -/
def sim (i : Fin 2048) (j : Fin 4) (k : Fin 2048) (l : Fin 4) : EReal := Ideal.div (gram a i j k l) one

/-- The largest similarity over the four contexts l of row k. -/
def top (i : Fin 2048) (j : Fin 4) (k : Fin 2048) : EReal :=
  max (max (max (sim a i j k 0) (sim a i j k 1)) (sim a i j k 2)) (sim a i j k 3)

/-- The stabilised exponential. -/
def dp (i : Fin 2048) (j : Fin 4) (k : Fin 2048) (l : Fin 4) : EReal := Ideal.exp (sim a i j k l - top a i j k)

/-- A square clamped from below. -/
def clampSq (x : EReal) : EReal := max (x * x) floorC

/-- The entries of a row against itself. -/
def diag (i : Fin 2048) (j l : Fin 4) : EReal := dp a i j i l

/-- The sum over the twelve pairs j ≠ l of a row against itself. -/
def posSum (i : Fin 2048) : EReal := ∑ j : Fin 4, ∑ l : Fin 4, if j = l then 0 else diag a i j l

/-- The clamped squares of a row against itself. -/
def diagSq (i : Fin 2048) : EReal := ∑ j : Fin 4, ∑ l : Fin 4, clampSq (diag a i j l)

/-- The clamped squares of a row against every row. -/
def totalSq (i : Fin 2048) : EReal := ∑ k : Fin 2048, ∑ j : Fin 4, ∑ l : Fin 4, clampSq (dp a i j k l)

/-- The loss of row i. -/
def loss (i : Fin 2048) : EReal :=
  negTwo * Ideal.div (posSum a i) twelve + Ideal.div (totalSq a i - diagSq a i) pairs

/-- The per-row losses as an array of shape [2048]. -/
def lossArr : R1.Idx → EReal := fun i => loss a (i 0)

end Cert.LossSpec

end
-- ==== Proof.RefAux.lean ====
/-
  Small facts the reference's side is read with, at the literal shapes of the program: the word of minus infinity as an
  extended real; a select on the equality of two row numbers as an `if`; the float of the bit "two context numbers
  differ"; the fold of max over four values; and a float sum over the last two axes of [2048,4,4], or the last three of
  [2048,2048,4,4], from an initial value, as the initial value plus the iterated sum over the coordinates (the source
  indices that reduce to row n are exactly the indices whose first coordinate is n).
-/
import proofs.«150541_j83794811945494_1_alg».proof.Defs
import proofs.«150541_j83794811945494_1_alg».proof.Proof.Gen.ReferenceIdeal.Read
import proofs.«150541_j83794811945494_1_alg».proof.Proof.Spec
import Idealize.ShloMosaic.Lib.IdealHost

noncomputable section

open scoped BigOperators

namespace Cert.RefLoss

open Cert.ReferenceIdeal Cert.ReferenceIdeal.Gen Cert.ReferenceIdeal.Read Idealize.ShloMosaic Idealize.ShloMosaic.TcCoe Idealize.SL.Sem Idealize.ShloMosaic.ValueIdx Cert.LossSpec

/-! ## Words -/

/-- The word of minus infinity denotes the least extended real. -/
theorem ofBits_ninf : Ideal.ofBits .f32 0xFF800000#32 = (⊥ : EReal) := by
  simp [Ideal.ofBits, Ideal.ieee]

/-- Two numbers below 2048 are equal exactly when their 32-bit words are. -/
theorem ofNat_eq_iff (p n : Fin 2048) : BitVec.ofNat 32 p.val = BitVec.ofNat 32 n.val ↔ p = n := by
  constructor
  · intro h
    have e := congrArg BitVec.toNat h
    simp only [BitVec.toNat_ofNat] at e
    have hp := p.isLt; have hn := n.isLt
    exact Fin.ext (by omega)
  · rintro rfl; rfl

/-- A select on the equality of two row numbers is the `if` on the rows. -/
theorem select_rows (p n : Fin 2048) (A B : EReal) :
    Scalar.select (IntOp.cmpi .eq (BitVec.ofNat 32 p.val) (BitVec.ofNat 32 n.val)) A B = if p = n then A else B := by
  unfold Scalar.select IntOp.cmpi
  by_cases h : p = n
  · subst h; simp
  · have hne : ¬ BitVec.ofNat 32 p.val = BitVec.ofNat 32 n.val := fun e => h ((ofNat_eq_iff p n).1 e)
    have hb : (BitVec.ofNat 32 p.val == BitVec.ofNat 32 n.val) = false := beq_eq_false_iff_ne.2 hne
    rw [hb]; simp [h]

/-- The float of the bit "j differs from l", for two context numbers: 0 on the diagonal, 1 off it. -/
theorem offDiag_mask (j l : Fin 4) :
    FloatOps.uitofp (F := Ideal) .f32 (~~~(IntOp.cmpi .eq (IntOp.addi (BitVec.ofNat 32 j.val) 0#32) (BitVec.ofNat 32 l.val)))
      = if j = l then (0 : EReal) else 1 := by
  show (((~~~(IntOp.cmpi .eq (IntOp.addi (BitVec.ofNat 32 j.val) 0#32) (BitVec.ofNat 32 l.val))).toNat : ℝ) : EReal) = _
  fin_cases j <;> fin_cases l <;> simp [IntOp.cmpi, IntOp.addi]

/-- The fold of max from the least element over four values is their nested maximum. -/
theorem fold_max_fin4 (f : Fin 4 → EReal) :
    (Finset.univ : Finset (Fin 4)).fold max ⊥ f = max (max (max (f 0) (f 1)) (f 2)) (f 3) := by
  simp [Fin.univ_succ, max_assoc]

/-! ## Sums over several axes -/

theorem drop_d12_val (h : S2048x4x4.ReducesTo [1, 2] S2048) (i : S2048x4x4.Idx) : (h.drop i 0).val = (i 0).val :=
  h.drop_apply_val_of_eq i 0 0

/-- A sum of a [2048,4,4] array over its last two axes, from an initial value, at row n. -/
theorem hostReduceAdd_d12 (h : S2048x4x4.ReducesTo [1, 2] S2048) (x : S2048x4x4.Idx → EReal) (init : EReal) (n : Fin 2048) :
    Ideal.hostReduceAdd h x init (ix1 n) = init + ∑ j : Fin 4, ∑ l : Fin 4, x (ix3 n j l) := by
  unfold Ideal.hostReduceAdd
  congr 1
  rw [← Finset.sum_product']
  have hrow : ∀ i ∈ Finset.univ.filter (fun i => h.drop i = ix1 n), i 0 = n := by
    intro i hi
    have hj := (Finset.mem_filter.1 hi).2
    exact Fin.ext ((drop_d12_val h i).symm.trans (congrArg Fin.val (congrFun hj 0)))
  have hback : ∀ i ∈ Finset.univ.filter (fun i => h.drop i = ix1 n), ix3 n (i 1) (i 2) = i := by
    intro i hi
    rw [← hrow i hi]; exact (eq_ix3 i).symm
  refine Finset.sum_nbij' (fun i => (i 1, i 2)) (fun p => ix3 n p.1 p.2) ?_ ?_ hback ?_ ?_
  · intro i _; exact Finset.mem_product.2 ⟨Finset.mem_univ _, Finset.mem_univ _⟩
  · intro p _
    refine Finset.mem_filter.2 ⟨Finset.mem_univ _, ?_⟩
    funext b
    match b with
    | ⟨0, _⟩ => exact Fin.ext (drop_d12_val h _)
  · intro p _; rfl
  · intro i hi; exact congrArg x (hback i hi).symm

theorem drop_d123_val (h : S2048x2048x4x4.ReducesTo [1, 2, 3] S2048) (i : S2048x2048x4x4.Idx) : (h.drop i 0).val = (i 0).val :=
  h.drop_apply_val_of_eq i 0 0

set_option maxRecDepth 8192 in
/-- A sum of a [2048,2048,4,4] array over its last three axes, from an initial value, at row n. -/
theorem hostReduceAdd_d123 (h : S2048x2048x4x4.ReducesTo [1, 2, 3] S2048) (x : S2048x2048x4x4.Idx → EReal) (init : EReal)
    (n : Fin 2048) :
    Ideal.hostReduceAdd h x init (ix1 n) = init + ∑ k : Fin 2048, ∑ j : Fin 4, ∑ l : Fin 4, x (ix4 n k j l) := by
  unfold Ideal.hostReduceAdd
  congr 1
  have hprod : ∑ k : Fin 2048, ∑ j : Fin 4, ∑ l : Fin 4, x (ix4 n k j l)
      = ∑ p : Fin 2048 × Fin 4 × Fin 4, x (ix4 n p.1 p.2.1 p.2.2) := by
    simp only [Fintype.sum_prod_type]
  rw [hprod]
  have hrow : ∀ i ∈ Finset.univ.filter (fun i => h.drop i = ix1 n), i 0 = n := by
    intro i hi
    have hj := (Finset.mem_filter.1 hi).2
    exact Fin.ext ((drop_d123_val h i).symm.trans (congrArg Fin.val (congrFun hj 0)))
  have hback : ∀ i ∈ Finset.univ.filter (fun i => h.drop i = ix1 n), ix4 n (i 1) (i 2) (i 3) = i := by
    intro i hi
    rw [← hrow i hi]; exact (eq_ix4 i).symm
  refine Finset.sum_nbij' (fun i => ((i 1, i 2, i 3) : Fin 2048 × Fin 4 × Fin 4)) (fun p => ix4 n p.1 p.2.1 p.2.2) ?_ ?_ hback ?_ ?_
  · intro i _; simp only [Finset.mem_univ]
  · intro p _
    refine Finset.mem_filter.2 ⟨Finset.mem_univ _, ?_⟩
    funext b
    match b with
    | ⟨0, _⟩ => exact Fin.ext (drop_d123_val h _)
  · intro p _; rfl
  · intro i hi; exact congrArg x (hback i hi).symm

end Cert.RefLoss

end
-- ==== Proof.RefGram.lean ====
/-
  The reference's operations %0 – %8 read at an index: the Gram tensor (a product over d, transposed so that the two rows
  come first and the two contexts last), its quotient by the temperature word, the maximum over the last context and
  the exponential of the difference — `LossSpec.sim`, `LossSpec.top` and `LossSpec.dp`, with the stage's index
  (i, k, j, l) standing for (row i, context j) against (row k, context l).
-/
import proofs.«150541_j83794811945494_1_alg».proof.Proof.RefAux

noncomputable section

open scoped BigOperators

namespace Cert.RefLoss

open Cert.ReferenceIdeal Cert.ReferenceIdeal.Gen Cert.ReferenceIdeal.Read Idealize.ShloMosaic Idealize.ShloMosaic.TcCoe Idealize.SL.Sem Idealize.ShloMosaic.ValueIdx Cert.LossSpec

/-! ## The Gram tensor, the similarity, its row maximum and the stabilised exponential (%0 – %8) -/

/-- %3 at (i, k, j, l) is the similarity of (row i, context j) with (row k, context l). -/
theorem v3_apply (a : (⟨S2048x4x256, .f32⟩ : BufTy).Contents (Elt Ideal)) (i k : Fin 2048) (j l : Fin 4) :
    val_main_v3 (F := Ideal) a (ix4 i k j l) = sim a i j k l := by
  rw [val_main_v3_apply, val_main_v1_apply, val_main_v0_apply, val_main_v2_apply, val_main_cst_apply]
  unfold sim gram one
  simp only [Ideal.hostDivf_def, Ideal.ofBits_def]
  congr 1
  refine Finset.sum_congr rfl fun d _ => ?_
  rw [mul_comm]
  have el : lidx_main_v0 (idx_main_v1 (ix4 i k j l)) d = ix3 k l d := funext fun c => by
    match c with
    | ⟨0, _⟩ => rfl
    | ⟨1, _⟩ => rfl
    | ⟨2, _⟩ => rfl
  have er : ridx_main_v0 (idx_main_v1 (ix4 i k j l)) d = ix3 i j d := funext fun c => by
    match c with
    | ⟨0, _⟩ => rfl
    | ⟨1, _⟩ => rfl
    | ⟨2, _⟩ => rfl
  rw [el, er]

/-- Over the last axis of [2048,2048,4,4], the index above (i, k, j) with l inserted is (i, k, j, l). -/
theorem lift_d3 (h : S2048x2048x4x4.Reduces [3] S2048x2048x4) (i k : Fin 2048) (j l : Fin 4) :
    h.lift (ix3 i k j) l = ix4 i k j l := funext fun c => Fin.ext (by
  match c with
  | ⟨0, _⟩ => rfl
  | ⟨1, _⟩ => rfl
  | ⟨2, _⟩ => rfl
  | ⟨3, _⟩ => rfl)

/-- The fold a maximum over the last axis of [2048,2048,4,4] takes, from the word of minus infinity. -/
theorem fold_max_d3 (f : Fin (S2048x2048x4x4.size 3) → EReal) :
    Finset.univ.fold (FloatOps.maximumf (F := Ideal) (φ := .f32)) (FloatOps.ofBits (F := Ideal) .f32 0xFF800000#32) f
      = max (max (max (f (0 : Fin 4)) (f (1 : Fin 4))) (f (2 : Fin 4))) (f (3 : Fin 4)) := by
  rw [Ideal.ofBits_def, ofBits_ninf]
  exact fold_max_fin4 f

/-- %4 at (i, k, j) is the largest similarity over the four contexts of row k. -/
theorem v4_apply (a : (⟨S2048x4x256, .f32⟩ : BufTy).Contents (Elt Ideal)) (i k : Fin 2048) (j : Fin 4) :
    val_main_v4 (F := Ideal) a (ix3 i k j) = top a i j k := by
  have h : S2048x2048x4x4.Reduces [3] S2048x2048x4 := by decide
  unfold val_main_v4
  rw [Host.reduce_eq_fold_single FloatOps.maximumf _ _ reducesTo_S2048x2048x4x4_S2048x2048x4_d3 h h_S_]
  rw [val_main_cst_0_apply, fold_max_d3]
  have e : ∀ l : Fin 4, (val_main_v3 (F := Ideal) a ∘ h.lift (ix3 i k j)) l = sim a i j k l := fun l =>
    (congrArg (val_main_v3 (F := Ideal) a) (lift_d3 h i k j l)).trans (v3_apply a i k j l)
  exact congrArg₂ max (congrArg₂ max (congrArg₂ max (e 0) (e 1)) (e 2)) (e 3)

/-- %8 at (i, k, j, l) is the stabilised exponential. -/
theorem v8_apply (a : (⟨S2048x4x256, .f32⟩ : BufTy).Contents (Elt Ideal)) (i k : Fin 2048) (j l : Fin 4) :
    val_main_v8 (F := Ideal) a (ix4 i k j l) = dp a i j k l := by
  rw [val_main_v8_apply, val_main_v7_apply, val_main_v6_apply, val_main_v5_apply]
  have e : idx_main_v5 (idx_main_v6 (ix4 i k j l)) = ix3 i k j := funext fun c => by
    match c with
    | ⟨0, _⟩ => rfl
    | ⟨1, _⟩ => rfl
    | ⟨2, _⟩ => rfl
  rw [e, v3_apply, v4_apply]
  rfl

end Cert.RefLoss

end
-- ==== Proof.RefDiag.lean ====
/-
  The reference's operations %9 – %28 read at an index: the select on "the two rows are the same row" summed over the
  first row leaves the pairs of a row with itself (`LossSpec.diag`); multiplied by the float of "the two contexts
  differ" and summed over both contexts it is the sum over the twelve off-diagonal pairs (`LossSpec.posSum`); then the
  quotient by the word of twelve. A product with 0 is 0 and with 1 is the factor on every extended real.
-/
import proofs.«150541_j83794811945494_1_alg».proof.Proof.RefGram

noncomputable section

open scoped BigOperators

namespace Cert.RefLoss

open Cert.ReferenceIdeal Cert.ReferenceIdeal.Gen Cert.ReferenceIdeal.Read Idealize.ShloMosaic Idealize.ShloMosaic.TcCoe Idealize.SL.Sem Idealize.ShloMosaic.ValueIdx Cert.LossSpec

/-! ## The pairs of a row with itself and their off-diagonal sum (%9 – %28) -/

/-- %15 at (n, j, l): the sum over the rows p of "dp if p = n, else 0" has the one term p = n. -/
theorem v15_apply (a : (⟨S2048x4x256, .f32⟩ : BufTy).Contents (Elt Ideal)) (n : Fin 2048) (j l : Fin 4) :
    val_main_v15 (F := Ideal) a (ix3 n j l) = diag a n j l := by
  rw [val_main_v15_apply, val_main_cst_2_apply]
  simp only [Ideal.ofBits_def, Ideal.ofBits_zero_f32, zero_add]
  have hterm : ∀ p : Fin 2048, val_main_v14 (F := Ideal) a (idx_main_v15 (ix3 n j l) p)
      = if p = n then dp a p j n l else 0 := by
    intro p
    have e : idx_main_v15 (ix3 n j l) p = ix4 p n j l := funext fun c => by
      match c with
      | ⟨0, _⟩ => rfl
      | ⟨1, _⟩ => rfl
      | ⟨2, _⟩ => rfl
      | ⟨3, _⟩ => rfl
    rw [e, val_main_v14_apply, val_main_v12_apply, val_main_v11_apply, val_main_v9_apply, val_main_v10_apply,
      val_main_v13_apply, val_main_cst_1_apply, v8_apply]
    simp only [Ideal.ofBits_def, Ideal.ofBits_zero_f32]
    exact select_rows p n _ _
  simp only [hterm]
  rw [Finset.sum_ite_eq' Finset.univ n (fun p => dp a p j n l), if_pos (Finset.mem_univ _)]
  rfl

/-- %25 at (n, j, l): the pair's entry off the diagonal j ≠ l, zero on it. -/
theorem v25_apply (a : (⟨S2048x4x256, .f32⟩ : BufTy).Contents (Elt Ideal)) (n : Fin 2048) (j l : Fin 4) :
    val_main_v25 (F := Ideal) a (ix3 n j l) = if j = l then 0 else diag a n j l := by
  rw [val_main_v25_apply, v15_apply, val_main_v24_apply, val_main_v23_apply, val_main_v22_apply, val_main_v21_apply,
    val_main_v20_apply, val_main_v19_apply, val_main_v16_apply, val_main_v17_apply, val_main_v18_apply, val_main_c_apply]
  show diag a n j l * FloatOps.uitofp (F := Ideal) .f32
    (~~~(IntOp.cmpi .eq (IntOp.addi (BitVec.ofNat 32 j.val) 0#32) (BitVec.ofNat 32 l.val))) = _
  rw [offDiag_mask]
  split
  · exact mul_zero _
  · exact mul_one _

/-- %26 at row n is the sum over the twelve pairs j ≠ l. -/
theorem v26_apply (a : (⟨S2048x4x256, .f32⟩ : BufTy).Contents (Elt Ideal)) (n : Fin 2048) :
    val_main_v26 (F := Ideal) a (ix1 n) = posSum a n := by
  unfold val_main_v26
  rw [hostReduceAdd_apply, hostReduceAdd_d12, val_main_cst_3_apply]
  simp only [Ideal.ofBits_def, Ideal.ofBits_zero_f32, zero_add, v25_apply]
  rfl

/-- %28 at row n. -/
theorem v28_apply (a : (⟨S2048x4x256, .f32⟩ : BufTy).Contents (Elt Ideal)) (n : Fin 2048) :
    val_main_v28 (F := Ideal) a (ix1 n) = Ideal.div (posSum a n) twelve := by
  rw [val_main_v28_apply, v26_apply, val_main_v27_apply, val_main_cst_4_apply]
  rfl

end Cert.RefLoss

end
-- ==== Proof.RefSq.lean ====
/-
  The reference's operations %29 – %39 read at an index: the squares clamped from below by the floor word
  (`LossSpec.clampSq`), summed over a row's pairs with itself (`LossSpec.diagSq`) and with every row
  (`LossSpec.totalSq`), their difference over the word of the number of negative pairs.
-/
import proofs.«150541_j83794811945494_1_alg».proof.Proof.RefDiag

noncomputable section

open scoped BigOperators

namespace Cert.RefLoss

open Cert.ReferenceIdeal Cert.ReferenceIdeal.Gen Cert.ReferenceIdeal.Read Idealize.ShloMosaic Idealize.ShloMosaic.TcCoe Idealize.SL.Sem Idealize.ShloMosaic.ValueIdx Cert.LossSpec

/-! ## The clamped squares and their sums (%29 – %39) -/

/-- %31 at (i, k, j, l). -/
theorem v31_apply (a : (⟨S2048x4x256, .f32⟩ : BufTy).Contents (Elt Ideal)) (i k : Fin 2048) (j l : Fin 4) :
    val_main_v31 (F := Ideal) a (ix4 i k j l) = clampSq (dp a i j k l) := by
  rw [val_main_v31_apply, val_main_v29_apply, v8_apply, val_main_v30_apply, val_main_cst_5_apply]
  rfl

/-- %34 at (n, j, l). -/
theorem v34_apply (a : (⟨S2048x4x256, .f32⟩ : BufTy).Contents (Elt Ideal)) (n : Fin 2048) (j l : Fin 4) :
    val_main_v34 (F := Ideal) a (ix3 n j l) = clampSq (diag a n j l) := by
  rw [val_main_v34_apply, val_main_v32_apply, v15_apply, val_main_v33_apply, val_main_cst_6_apply]
  rfl

/-- %35 at row n. -/
theorem v35_apply (a : (⟨S2048x4x256, .f32⟩ : BufTy).Contents (Elt Ideal)) (n : Fin 2048) :
    val_main_v35 (F := Ideal) a (ix1 n) = diagSq a n := by
  unfold val_main_v35
  rw [hostReduceAdd_apply, hostReduceAdd_d12, val_main_cst_7_apply]
  simp only [Ideal.ofBits_def, Ideal.ofBits_zero_f32, zero_add, v34_apply]
  rfl

/-- %36 at row n. -/
theorem v36_apply (a : (⟨S2048x4x256, .f32⟩ : BufTy).Contents (Elt Ideal)) (n : Fin 2048) :
    val_main_v36 (F := Ideal) a (ix1 n) = totalSq a n := by
  unfold val_main_v36
  rw [hostReduceAdd_apply, hostReduceAdd_d123, val_main_cst_8_apply]
  simp only [Ideal.ofBits_def, Ideal.ofBits_zero_f32, zero_add, v31_apply]
  rfl

/-- %39 at row n. -/
theorem v39_apply (a : (⟨S2048x4x256, .f32⟩ : BufTy).Contents (Elt Ideal)) (n : Fin 2048) :
    val_main_v39 (F := Ideal) a (ix1 n) = Ideal.div (totalSq a n - diagSq a n) pairs := by
  rw [val_main_v39_apply, val_main_v37_apply, v36_apply, v35_apply, val_main_v38_apply, val_main_cst_9_apply]
  rfl

end Cert.RefLoss

end
-- ==== Proof.RefLoss.lean ====
/-
  The reference's side against the specification: the [2048] array %42 is the array of per-row losses
  (`rows_eq`), so the result — its sum over the rows from the zero word, over the word of 2048, the last two operations
  left as they are printed — is those two operations of `LossSpec.lossArr` (`result_eq`); and the reference runs with
  its argument unchanged (`frame`).
-/
import proofs.«150541_j83794811945494_1_alg».proof.Defs
import proofs.«150541_j83794811945494_1_alg».proof.Proof.Gen.ReferenceIdeal.Read
import proofs.«150541_j83794811945494_1_alg».proof.Proof.Gen.Pre_finite_inputs
import proofs.«150541_j83794811945494_1_alg».proof.Proof.Spec
import proofs.«150541_j83794811945494_1_alg».proof.Proof.RefSq

noncomputable section

open scoped BigOperators

namespace Cert.RefLoss

open Cert.ReferenceIdeal Cert.ReferenceIdeal.Gen Cert.ReferenceIdeal.Read Idealize.ShloMosaic Idealize.ShloMosaic.TcCoe Idealize.SL.Sem Idealize.ShloMosaic.ValueIdx Cert.LossSpec

/-! ## The per-row loss (%40 – %42) and the result -/

/-- %42 at row n is the loss of row n. -/
theorem v42_apply (a : (⟨S2048x4x256, .f32⟩ : BufTy).Contents (Elt Ideal)) (n : Fin 2048) :
    val_main_v42 (F := Ideal) a (ix1 n) = loss a n := by
  rw [val_main_v42_apply, val_main_v41_apply, val_main_v40_apply, val_main_cst_10_apply, v28_apply, v39_apply]
  rfl

/-- The [2048] array %42, as a function of the argument's contents, is the array of per-row losses. -/
theorem rows_eq (a : (⟨S2048x4x256, .f32⟩ : BufTy).Contents (Elt Ideal)) :
    val_main_v42 (F := Ideal) a = lossArr a := by
  funext i
  exact (congrArg (val_main_v42 (F := Ideal) a) (eq_ix1 i)).trans (v42_apply a (i 0))

/-- The last two operations, left unopened: the sum over the rows from the zero word, over the word of 2048. -/
theorem tail_eq (a : (⟨S2048x4x256, .f32⟩ : BufTy).Contents (Elt Ideal)) :
    val_main_v44 (F := Ideal) a
      = Host.divf (F := Ideal) (Host.reduceAdd (F := Ideal) (lossArr a) (constant (F := Ideal) S_ .f32 0x00000000#32) reducesTo_S2048_S_d0 h_S_)
          (constant (F := Ideal) S_ .f32 0x45000000#32) := by
  rw [← rows_eq]
  rfl

/-- The run's result term is those two operations of the array of per-row losses. -/
theorem result_eq (m : (ℓ : Loc nD τ sig) → Buf (Elt Ideal) ℓ) (c : Dev nD) :
    Cert.ReferenceIdeal.Value.res_out0 (F := Ideal) m c
      = Host.divf (F := Ideal) (Host.reduceAdd (F := Ideal) (lossArr (m ((c.tc : Thread nD τ).loc main_arg0)))
          (constant (F := Ideal) S_ .f32 0x00000000#32) reducesTo_S2048_S_d0 h_S_)
          (constant (F := Ideal) S_ .f32 0x45000000#32) :=
  (val_main_v44_eq (F := Ideal) m c).trans (tail_eq _)

/-- The reference runs and leaves its argument unchanged: the generated run with the result dropped. -/
theorem frame : Cert.frame_ReferenceIdeal := fun m ρ _ =>
  (θ_run Cert.ReferenceIdeal.defs _ _).mono (fun _ h c => (h c).2) (Cert.ReferenceIdeal.Value.run (F := Ideal) m ρ)

end Cert.RefLoss

end
-- ==== Proof.KBlocks.lean ====
/-
  The windows' blocks as rows of the arrays. Over the 8 × 8 grid, point t has row coordinate t / 8 and reduction
  coordinate t % 8. The first input window's block at t is rows 256·(t/8) … 256·(t/8) + 255 of the argument, the second's
  rows 256·(t%8) … 256·(t%8) + 255; the output window's block is rows 256·(t/8) … of the result, so row r of the result is
  in point t's block exactly when r / 256 = t / 8. A block's coordinate on an axis is the block index times the block's
  extent plus the coordinate inside the block.
-/
import proofs.«150541_j83794811945494_1_alg».proof.Proof.KBase
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The block indices over the grid -/

/-- The first input window follows the row coordinate … -/
theorem idx0_0 : ∀ t : Fin cfg0.N, win0_0.index t (0 : Fin 3) = t.val / 8 :=
  (by decide +kernel : ∀ t : Fin grid0.N, win0_0.index t (0 : Fin 3) = t.val / 8)
theorem idx0_1 : ∀ t : Fin cfg0.N, win0_0.index t (1 : Fin 3) = 0 :=
  (by decide +kernel : ∀ t : Fin grid0.N, win0_0.index t (1 : Fin 3) = 0)
theorem idx0_2 : ∀ t : Fin cfg0.N, win0_0.index t (2 : Fin 3) = 0 :=
  (by decide +kernel : ∀ t : Fin grid0.N, win0_0.index t (2 : Fin 3) = 0)
/-- … the second the reduction coordinate … -/
theorem idx1_0 : ∀ t : Fin cfg0.N, win0_1.index t (0 : Fin 3) = t.val % 8 :=
  (by decide +kernel : ∀ t : Fin grid0.N, win0_1.index t (0 : Fin 3) = t.val % 8)
theorem idx1_1 : ∀ t : Fin cfg0.N, win0_1.index t (1 : Fin 3) = 0 :=
  (by decide +kernel : ∀ t : Fin grid0.N, win0_1.index t (1 : Fin 3) = 0)
theorem idx1_2 : ∀ t : Fin cfg0.N, win0_1.index t (2 : Fin 3) = 0 :=
  (by decide +kernel : ∀ t : Fin grid0.N, win0_1.index t (2 : Fin 3) = 0)
/-- … and the output window the row coordinate. -/
theorem idx2 : ∀ t : Fin cfg0.N, win0_2.index t (0 : Fin 1) = t.val / 8 :=
  (by decide +kernel : ∀ t : Fin grid0.N, win0_2.index t (0 : Fin 1) = t.val / 8)

theorem point_lt (t : Fin cfg0.N) : t.val < 64 := t.isLt

/-! ## The input blocks read at an index -/

/-- The first input window's block at point t is rows 256·(t/8) … of the argument. -/
theorem iblk0_apply (c : Dev nD) (t : Fin cfg0.N) (p : Fin 256) (j : Fin 4) (d : Fin 256) :
    (iblk m c 0 t : Vec F S256x4x256 .f32) (ix3 p j d)
      = (V m c main_arg0 : S2048x4x256.Idx → Elt F .f32)
          (ix3 ⟨256 * (t.val / 8) + p.val, by have := point_lt t; omega⟩ j d) := by
  unfold iblk
  rw [View.read_apply]
  show V m c main_arg0 _ = V m c main_arg0 _
  congr 1
  funext a
  apply Fin.ext
  match a with
  | ⟨0, _⟩ => show win0_0.index t (0 : Fin 3) * 256 + 1 * p.val = 256 * (t.val / 8) + p.val; rw [idx0_0 t]; omega
  | ⟨1, _⟩ => show win0_0.index t (1 : Fin 3) * 4 + 1 * j.val = j.val; rw [idx0_1 t]; omega
  | ⟨2, _⟩ => show win0_0.index t (2 : Fin 3) * 256 + 1 * d.val = d.val; rw [idx0_2 t]; omega

/-- The second input window's block at point t is rows 256·(t%8) … of the argument. -/
theorem iblk1_apply (c : Dev nD) (t : Fin cfg0.N) (p : Fin 256) (j : Fin 4) (d : Fin 256) :
    (iblk m c 1 t : Vec F S256x4x256 .f32) (ix3 p j d)
      = (V m c main_arg0 : S2048x4x256.Idx → Elt F .f32)
          (ix3 ⟨256 * (t.val % 8) + p.val, by omega⟩ j d) := by
  unfold iblk
  rw [View.read_apply]
  show V m c main_arg0 _ = V m c main_arg0 _
  congr 1
  funext a
  apply Fin.ext
  match a with
  | ⟨0, _⟩ => show win0_1.index t (0 : Fin 3) * 256 + 1 * p.val = 256 * (t.val % 8) + p.val; rw [idx1_0 t]; omega
  | ⟨1, _⟩ => show win0_1.index t (1 : Fin 3) * 4 + 1 * j.val = j.val; rw [idx1_1 t]; omega
  | ⟨2, _⟩ => show win0_1.index t (2 : Fin 3) * 256 + 1 * d.val = d.val; rw [idx1_2 t]; omega

/-! ## The output window's blocks -/

/-- Row r of the result is in point t's block iff it is one of the 256 rows of block t / 8. -/
theorem mem_blk2 (t : Fin cfg0.N) (r : Fin 2048) :
    (ix1 r : S2048.Idx) ∈ ((cfg0.win 2).blk t).view.set ↔ r.val / 256 = t.val / 8 := by
  show (ix1 r : S2048.Idx) ∈ ((View.whole main_v0).slice (win0_2.rect t)).set ↔ _
  rw [View.set_slice_whole, Rect.mem_set_unit]
  constructor
  · intro h
    have h0 : win0_2.index t (0 : Fin 1) * 256 ≤ r.val ∧ r.val < win0_2.index t (0 : Fin 1) * 256 + 256 := h 0
    rw [idx2 t] at h0
    omega
  · intro h a
    match a with
    | ⟨0, _⟩ =>
      show win0_2.index t (0 : Fin 1) * 256 ≤ r.val ∧ r.val < win0_2.index t (0 : Fin 1) * 256 + 256
      rw [idx2 t]
      omega

end Cert.KernelIdeal.Hand

end
-- ==== Proof.BlockSpec.lean ====
/-
  The kernel's arithmetic at ONE grid point, written on the two input blocks: `x` the block of 256 rows the point's row
  coordinate I selects, `y` the block its reduction coordinate K selects. The body computes, for each of its 256 rows p
  and each context pair (j, l), the Gram entries against the 256 rows q of `y`, their stabilised exponentials, and adds
  to its two accumulators: column 4j+l gets the sum over q of the exponential times the indicator that row p of block I
  and row q of block K are the same row of the array; the running sum gets the clamped squares of all of them.
-/
import proofs.«150541_j83794811945494_1_alg».proof.Proof.Spec

noncomputable section

open scoped BigOperators

namespace Cert.BlockSpec

open Idealize.ShloMosaic Idealize.ShloMosaic.ValueIdx Cert.LossSpec

/-- A block of 256 rows of the argument, [256, 4, 256]. -/
abbrev B3 : Shape := ⟨3, ![256, 4, 256]⟩

variable (x y : B3.Idx → EReal)

/-- The Gram entry of (row p of x, context j) against (row q of y, context l). -/
def bgram (p : Fin 256) (j : Fin 4) (q : Fin 256) (l : Fin 4) : EReal :=
  ∑ d : Fin 256, x (ix3 p j d) * y (ix3 q l d)

def bsim (p : Fin 256) (j : Fin 4) (q : Fin 256) (l : Fin 4) : EReal := Ideal.div (bgram x y p j q l) one

def btop (p : Fin 256) (j : Fin 4) (q : Fin 256) : EReal :=
  max (max (max (bsim x y p j q 0) (bsim x y p j q 1)) (bsim x y p j q 2)) (bsim x y p j q 3)

def bdp (p : Fin 256) (j : Fin 4) (q : Fin 256) (l : Fin 4) : EReal := Ideal.exp (bsim x y p j q l - btop x y p j q)

/-- Whether row p of block I and row q of block K are one row of the array, as the float the kernel multiplies by
    (the block numbers as naturals, as the kernel computes with them). -/
def mask (I K : ℕ) (p q : Fin 256) : EReal := if p.val + 256 * I = q.val + 256 * K then 1 else 0

/-- What one grid point adds to column 4j+l of the pair accumulator, at row p. -/
def diagAdd (I K : ℕ) (p : Fin 256) (j l : Fin 4) : EReal := ∑ q : Fin 256, bdp x y p j q l * mask I K p q

/-- What one grid point adds to the running sum of clamped squares, at row p. -/
def sqAdd (p : Fin 256) : EReal := ∑ j : Fin 4, ∑ l : Fin 4, ∑ q : Fin 256, clampSq (bdp x y p j q l)

/-- The column of the pair accumulator that holds the pair (j, l). -/
abbrev pairCol (j l : Fin 4) : Fin 16 := ⟨4 * j.val + l.val, by omega⟩

/-- The row losses from the two accumulators: `acc` the sixteen columns, `sq` the running sum. -/
def lossOf (acc : Fin 256 → Fin 16 → EReal) (sq : Fin 256 → EReal) (p : Fin 256) : EReal :=
  negTwo * Ideal.div (∑ j : Fin 4, ∑ l : Fin 4, if j = l then 0 else acc p (pairCol j l)) twelve
    + Ideal.div (sq p - ∑ j : Fin 4, ∑ l : Fin 4, clampSq (acc p (pairCol j l))) pairs

end Cert.BlockSpec

end
-- ==== Proof.BlockMath.lean ====
/-
  The block arithmetic is the specification. The argument's 2048 rows are eight blocks of 256: row p of block I is row
  256·I + p. On the blocks of one array the per-point quantities are the specification's at those rows; the indicator
  "row p of block I is row q of block K" selects K = I and q = p, so the pair column summed over the reduction
  coordinate K is the row's diagonal entry; the clamped squares summed over K and over the rows q of block K are the sum
  over all 2048 rows; and the closing formula on the two accumulators is the row's loss. Last, the partial sums along
  the reduction coordinate: the sum over K ≤ k, its first term, its step, and its value at k = 7.
-/
import proofs.«150541_j83794811945494_1_alg».proof.Proof.BlockSpec

noncomputable section

open scoped BigOperators

namespace Cert.BlockSpec

open Idealize.ShloMosaic Idealize.ShloMosaic.ValueIdx Cert.LossSpec

/-! ## Blocks of rows -/

/-- Row p of block I, as a row of the array. -/
def blockRow (I : Fin 8) (p : Fin 256) : Fin 2048 := ⟨256 * I.val + p.val, by omega⟩

theorem blockRow_val (I : Fin 8) (p : Fin 256) : (blockRow I p).val = 256 * I.val + p.val := rfl

/-- Block I of an array: its rows 256·I … 256·I + 255. -/
def blk (a : A3.Idx → EReal) (I : Fin 8) : B3.Idx → EReal := fun y => a (ix3 (blockRow I (y 0)) (y 1) (y 2))

@[simp] theorem blk_ix3 (a : A3.Idx → EReal) (I : Fin 8) (p : Fin 256) (j : Fin 4) (d : Fin 256) :
    blk a I (ix3 p j d) = a (ix3 (blockRow I p) j d) := rfl

variable (a : A3.Idx → EReal)

/-! ## The per-point quantities on two blocks of one array -/

theorem bgram_blk (I K : Fin 8) (p q : Fin 256) (j l : Fin 4) :
    bgram (blk a I) (blk a K) p j q l = gram a (blockRow I p) j (blockRow K q) l := rfl

theorem bsim_blk (I K : Fin 8) (p q : Fin 256) (j l : Fin 4) :
    bsim (blk a I) (blk a K) p j q l = sim a (blockRow I p) j (blockRow K q) l := rfl

theorem btop_blk (I K : Fin 8) (p q : Fin 256) (j : Fin 4) :
    btop (blk a I) (blk a K) p j q = top a (blockRow I p) j (blockRow K q) := rfl

theorem bdp_blk (I K : Fin 8) (p q : Fin 256) (j l : Fin 4) :
    bdp (blk a I) (blk a K) p j q l = dp a (blockRow I p) j (blockRow K q) l := rfl

/-! ## The indicator -/

theorem mask_self (I : ℕ) (p : Fin 256) : mask I I p p = 1 := by
  unfold mask; rw [if_pos rfl]

theorem mask_ne_row (I K : ℕ) (p q : Fin 256) (h : q ≠ p) : mask I K p q = 0 := by
  unfold mask; rw [if_neg]; intro h'; apply h; apply Fin.ext; omega

theorem mask_ne_blk (I K : ℕ) (p q : Fin 256) (h : K ≠ I) : mask I K p q = 0 := by
  unfold mask; rw [if_neg]; intro h'; apply h; omega

/-! ## The pair column over the reduction coordinate -/

variable (x y : B3.Idx → EReal)

/-- On the diagonal block the indicator keeps the row itself. -/
theorem diagAdd_self (I : ℕ) (p : Fin 256) (j l : Fin 4) : diagAdd x y I I p j l = bdp x y p j p l := by
  unfold diagAdd
  rw [Finset.sum_eq_single p]
  · rw [mask_self, mul_one]
  · intro q _ hq; rw [mask_ne_row I I p q hq, mul_zero]
  · intro h; exact absurd (Finset.mem_univ p) h

/-- Off the diagonal block the indicator is zero everywhere. -/
theorem diagAdd_ne (I K : ℕ) (h : K ≠ I) (p : Fin 256) (j l : Fin 4) : diagAdd x y I K p j l = 0 := by
  unfold diagAdd
  refine Finset.sum_eq_zero fun q _ => ?_
  rw [mask_ne_blk I K p q h, mul_zero]

theorem sum_diagAdd (I : Fin 8) (p : Fin 256) (j l : Fin 4) :
    ∑ K : Fin 8, diagAdd (blk a I) (blk a K) I.val K.val p j l = diag a (blockRow I p) j l := by
  rw [Finset.sum_eq_single I]
  · rw [diagAdd_self, bdp_blk]; rfl
  · intro K _ hK; exact diagAdd_ne _ _ I.val K.val (fun h => hK (Fin.ext h)) p j l
  · intro h; exact absurd (Finset.mem_univ I) h

/-! ## The clamped squares over the reduction coordinate -/

/-- The 2048 rows are the eight blocks of 256. -/
def rowEquiv : Fin 8 × Fin 256 ≃ Fin 2048 where
  toFun z := blockRow z.1 z.2
  invFun k := (⟨k.val / 256, by omega⟩, ⟨k.val % 256, by omega⟩)
  left_inv z := by
    rcases z with ⟨K, q⟩
    refine Prod.ext (Fin.ext ?_) (Fin.ext ?_)
    · show (256 * K.val + q.val) / 256 = K.val; omega
    · show (256 * K.val + q.val) % 256 = q.val; omega
  right_inv k := by
    apply Fin.ext
    show 256 * (k.val / 256) + k.val % 256 = k.val; omega

/-- A sum over the rows is the sum over the blocks of the sums over their rows. -/
theorem sum_rows {M : Type*} [AddCommMonoid M] (h : Fin 2048 → M) :
    ∑ k, h k = ∑ K : Fin 8, ∑ q : Fin 256, h (blockRow K q) := by
  rw [← Equiv.sum_comp rowEquiv h, Fintype.sum_prod_type]
  rfl

theorem sum_sqAdd (I : Fin 8) (p : Fin 256) :
    ∑ K : Fin 8, sqAdd (blk a I) (blk a K) p = totalSq a (blockRow I p) := by
  unfold sqAdd totalSq
  rw [sum_rows]
  refine Finset.sum_congr rfl fun K _ => ?_
  simp only [bdp_blk]
  exact (Finset.sum_congr rfl fun j _ => Finset.sum_comm).trans Finset.sum_comm

/-! ## The closing formula -/

theorem lossOf_eq (I : Fin 8) (acc : Fin 256 → Fin 16 → EReal) (sq : Fin 256 → EReal)
    (hacc : ∀ p j l, acc p (pairCol j l) = diag a (blockRow I p) j l)
    (hsq : ∀ p, sq p = totalSq a (blockRow I p)) (p : Fin 256) :
    lossOf acc sq p = loss a (blockRow I p) := by
  unfold lossOf loss posSum diagSq
  simp only [hacc, hsq]

/-! ## Partial sums along the reduction coordinate -/

/-- The sum of f over the reduction coordinates K ≤ k. -/
def upTo (f : Fin 8 → EReal) (k : ℕ) : EReal := ∑ K ∈ Finset.univ.filter (fun K : Fin 8 => K.val ≤ k), f K

theorem upTo_zero (f : Fin 8 → EReal) : upTo f 0 = f 0 := by
  unfold upTo
  have h : Finset.univ.filter (fun K : Fin 8 => K.val ≤ 0) = {0} := by decide
  rw [h, Finset.sum_singleton]

theorem upTo_succ (f : Fin 8 → EReal) (k : ℕ) (hk : k + 1 < 8) :
    upTo f (k + 1) = upTo f k + f ⟨k + 1, hk⟩ := by
  unfold upTo
  have h : Finset.univ.filter (fun K : Fin 8 => K.val ≤ k + 1)
      = insert (⟨k + 1, hk⟩ : Fin 8) (Finset.univ.filter (fun K : Fin 8 => K.val ≤ k)) := by
    ext K
    simp only [Finset.mem_filter, Finset.mem_univ, true_and, Finset.mem_insert, Fin.ext_iff]
    omega
  have hn : (⟨k + 1, hk⟩ : Fin 8) ∉ Finset.univ.filter (fun K : Fin 8 => K.val ≤ k) := by
    simp only [Finset.mem_filter, Finset.mem_univ, true_and]; omega
  rw [h, Finset.sum_insert hn, add_comm]

theorem upTo_seven (f : Fin 8 → EReal) : upTo f 7 = ∑ K, f K := by
  unfold upTo
  rw [Finset.filter_true_of_mem]
  intro K _; omega

end Cert.BlockSpec

end
-- ==== Proof.KReadLib.lean ====
/-
  The mechanics shared by the three cases of the kernel body when what a case leaves in a buffer is read at an index: a
  load of a whole staging buffer or of one accumulator column reads what the buffer held; a list of column stores, or
  one whole store, whose payloads agree row by row with one function of the row and the column leaves that function;
  and the column 4j + l of the pair accumulator gives back j and l.
-/
import proofs.«150541_j83794811945494_1_alg».proof.Proof.KFrame
import proofs.«150541_j83794811945494_1_alg».proof.Proof.BlockSpec
import Idealize.ShloMosaic.Lib.ValueIdx
import Idealize.ShloMosaic.Lib.Writes
import Idealize.ShloMosaic.Lib.Pipeline.Value
import Idealize.ShloMosaic.Lib.Pipeline.FrameBody

set_option maxRecDepth 16384

noncomputable section

open scoped BigOperators

namespace Cert.KernelIdeal.HandI

open Cert.KernelIdeal Cert.KernelIdeal.Gen Cert.KernelIdeal.Hand Cert.BlockSpec Cert.LossSpec
open Idealize.ShloMosaic Idealize.ShloMosaic.TcCoe Idealize.ShloMosaic.Tactic Idealize.ShloMosaic.ValueIdx
open Idealize.SL.Sem

/-! ## Loads of whole blocks and of columns -/

/-- A load of a whole [256, 4, 256] staging buffer reads what the buffer holds. -/
theorem ldBlock (arg : Memref sig .tc .vmem S256x4x256 .f32) (h : arg.IsWhole) (x : Vec Ideal S256x4x256 .f32)
    (inb : ∀ a, (![0, 0, 0] : Fin 3 → ℕ) a + S256x4x256.size a ≤ S256x4x256.size a) :
    View.readAt (Elt Ideal) arg.view (Rect.unit (s := S256x4x256) ![0, 0, 0] ![256, 4, 256] inb).toLoadRect (h.unread x) = x := by
  rw [View.readAt_eq_ld, h.read_unread]
  exact View.ld_unit_zero (S := S256x4x256) (funext fun a => by
    match a with
    | ⟨0, _⟩ => rfl
    | ⟨1, _⟩ => rfl
    | ⟨2, _⟩ => rfl) inb x

/-- A load of column `c` of the pair accumulator reads, at row `p`, what the accumulator holds at `(p, c)`. -/
theorem ldCol (arg : Memref sig .tc .vmem S256x16 .f32) (h : arg.IsWhole) (xs : Vec Ideal S256x16 .f32) (c : ℕ) (hc : c < 16)
    (inb : ∀ a, (![0, c] : Fin 2 → ℕ) a + (![256, 1] : Fin 2 → ℕ) a ≤ S256x16.size a) (p : Fin 256) :
    View.readAt (Elt Ideal) arg.view (Rect.unit (s := S256x16) ![0, c] ![256, 1] inb).toLoadRect (h.unread xs) (ix2 p 0)
      = xs (ix2 p ⟨c, hc⟩) := by
  rw [View.readAt_eq_ld, h.read_unread]
  show xs ((Rect.unit (s := S256x16) ![0, c] ![256, 1] inb).toLoadRect.idx (ix2 p 0)) = _
  refine congrArg xs (funext fun a => Fin.ext ?_)
  match a with
  | ⟨0, _⟩ => show 0 + 1 * p.val = p.val; omega
  | ⟨1, _⟩ => show c + 1 * 0 = c; omega

/-- A load of the whole running sum reads what it holds. -/
theorem ldSq (arg : Memref sig .tc .vmem S256x1 .f32) (h : arg.IsWhole) (xs : Vec Ideal S256x1 .f32)
    (inb : ∀ a, (![0, 0] : Fin 2 → ℕ) a + S256x1.size a ≤ S256x1.size a) :
    View.readAt (Elt Ideal) arg.view (Rect.unit (s := S256x1) ![0, 0] ![256, 1] inb).toLoadRect (h.unread xs) = xs := by
  rw [View.readAt_eq_ld, h.read_unread]
  exact View.ld_unit_zero (S := S256x1) (funext fun a => by
    match a with
    | ⟨0, _⟩ => rfl
    | ⟨1, _⟩ => rfl) inb xs

/-! ## A function of the row and the column as contents of an accumulator -/

/-- A function of (row, column) as contents of the [256, 16] accumulator. -/
def accG (H : Fin 256 → Fin 16 → EReal) : S256x16.Idx → EReal :=
  fun y => H ⟨(y 0).val, (y 0).isLt⟩ ⟨(y 1).val, (y 1).isLt⟩

theorem accG_ix2 (H : Fin 256 → Fin 16 → EReal) (p : Fin 256) (cc : Fin 16) : accG H (ix2 p cc) = H p cc := rfl

/-- A function of the row as contents of the [256, 1] running sum. -/
def sqG (h : Fin 256 → EReal) : S256x1.Idx → EReal := fun y => h ⟨(y 0).val, (y 0).isLt⟩

theorem sqG_ix2 (h : Fin 256 → EReal) (p : Fin 256) (u : Fin 1) : sqG h (ix2 p u) = h p := rfl

/-- An index of a [256, 1] column is a row and the one column. -/
theorem eq_ix2_col (x : (⟨2, ![256, 1]⟩ : Shape).Idx) : ∃ p : Fin 256, x = ix2 p 0 := by
  refine ⟨x 0, ?_⟩
  funext a
  match a with
  | ⟨0, _⟩ => rfl
  | ⟨1, _⟩ => exact Fin.ext (by have h : (x 1).val < 1 := (x 1).isLt; show (x 1).val = 0; omega)

/-- The store of column `c` of the accumulator agrees with `H` as soon as its payload does row by row. -/
theorem colPiece_ok (c : ℕ) (hc : c < 16) (inb : ∀ a, (![0, c] : Fin 2 → ℕ) a + (![256, 1] : Fin 2 → ℕ) a ≤ S256x16.size a)
    (w : (⟨2, ![256, 1]⟩ : Shape).Idx → EReal) (H : Fin 256 → Fin 16 → EReal)
    (hw : ∀ p : Fin 256, w (ix2 p 0) = H p ⟨c, hc⟩) :
    ∀ x : (Rect.unit (s := S256x16) ![0, c] ![256, 1] inb).shape.Idx,
      w x = accG H ((Rect.unit (s := S256x16) ![0, c] ![256, 1] inb).emb x) := by
  intro x
  obtain ⟨p, rfl⟩ := eq_ix2_col x
  refine (hw p).trans ?_
  have e : (Rect.unit (s := S256x16) ![0, c] ![256, 1] inb).emb (ix2 p 0) = ix2 p ⟨c, hc⟩ := funext fun a => Fin.ext (by
    match a with
    | ⟨0, _⟩ => show 0 + 1 * p.val = p.val; omega
    | ⟨1, _⟩ => show c + 1 * 0 = c; omega)
  rw [e]
  rfl

/-- The whole store of the running sum agrees with `h` as soon as its payload does row by row. -/
theorem sqPiece_ok (inb : ∀ a, (![0, 0] : Fin 2 → ℕ) a + (![256, 1] : Fin 2 → ℕ) a ≤ S256x1.size a)
    (w : (⟨2, ![256, 1]⟩ : Shape).Idx → EReal) (h : Fin 256 → EReal) (hw : ∀ p : Fin 256, w (ix2 p 0) = h p) :
    ∀ x : (Rect.unit (s := S256x1) ![0, 0] ![256, 1] inb).shape.Idx,
      w x = sqG h ((Rect.unit (s := S256x1) ![0, 0] ![256, 1] inb).emb x) := by
  intro x
  obtain ⟨p, rfl⟩ := eq_ix2_col x
  refine (hw p).trans ?_
  have e : (Rect.unit (s := S256x1) ![0, 0] ![256, 1] inb).emb (ix2 p 0) = ix2 p 0 := funext fun a => Fin.ext (by
    match a with
    | ⟨0, _⟩ => show 0 + 1 * p.val = p.val; omega
    | ⟨1, _⟩ => show 0 + 1 * 0 = 0; omega)
  rw [e]
  rfl

/-! ## The column of a context pair -/

/-- The first context of the pair a column holds. -/
abbrev colJ (cc : Fin 16) : Fin 4 := ⟨cc.val / 4, by omega⟩
/-- The second context of the pair a column holds. -/
abbrev colL (cc : Fin 16) : Fin 4 := ⟨cc.val % 4, by omega⟩

theorem colJ_pairCol (j l : Fin 4) : colJ (pairCol j l) = j := Fin.ext (by show (4 * j.val + l.val) / 4 = j.val; omega)
theorem colL_pairCol (j l : Fin 4) : colL (pairCol j l) = l := Fin.ext (by show (4 * j.val + l.val) % 4 = l.val; omega)

end Cert.KernelIdeal.HandI

end
-- ==== Proof.LibColumn.lean ====
/-
  Column vectors read at an index, for any sizes.

  A keepdims reduction leaves an `[a]` vector that is viewed as an `[a, 1]` column, a column is broadcast across `b`
  lanes, and a column is flattened back to `[a]`: each of these reads the operand at the row's one entry. A lane
  maximum of an `[a, b]` array from the word for -∞, at the extended reals, is the fold of `max` over the row's `b`
  entries from that word's value, and a lane sum from the zero word is the row's sum.
-/
import Idealize.ShloMosaic.Lib.Pipeline.Value
import Idealize.ShloMosaic.Lib.ValueIdx
import Idealize.ShloMosaic.Lib.ValueLayout
import Idealize.ShloMosaic.PureOps.Ideal.Laws

noncomputable section

namespace Idealize.ShloMosaic.LibColumn

open Idealize.ShloMosaic ValueIdx

variable {α : Type}

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector viewed as an `[a, 1]` column reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column flattened to `[a]` reads, at `p`, the column's entry of row `p`. -/
theorem shapeCast_a1_a_apply {a : ℕ} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_two, Shape.rowMajor_val_one]
    show p.val * 1 + 0 = p.val
    rw [Nat.mul_one, Nat.add_zero])

/-- Over result index `p`, the source index of a reduction of `[a, b]` along its lanes with lane coordinate `k` is `(p, k)`. -/
theorem lift_rows {a b : ℕ} (h : (⟨2, ![a, b]⟩ : Shape).Reduces [1] ⟨1, ![a]⟩) (p : Fin a) (k : Fin b) :
    h.lift (ix1 p) k = ix2 p k := by
  funext c
  apply Fin.ext
  show h.liftVal (ix1 p) k.val c = (ix2 p k c).val
  match c with
  | ⟨0, _⟩ => simp [Shape.Reduces.liftVal]
  | ⟨1, _⟩ => simp [Shape.Reduces.liftVal]

/-- A lane maximum of an f32 `[a, b]` array from the word of -∞, at the extended reals: the fold of `max` over the row. -/
theorem rowMax_f32 {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (p : Fin a) :
    multiReduction .maximumf [1] ⟨1, ![a]⟩ src 0xFF800000#32 h hφ hacc (ix1 p)
      = (Finset.univ : Finset (Fin b)).fold max (Ideal.ofBits .f32 0xFF800000#32) (fun k => src (ix2 p k)) := by
  refine (Ideal.multiReduction_maximumf_single src 0xFF800000#32 h hφ hacc (ix1 p)).trans ?_
  show (Finset.univ : Finset (Fin b)).fold max (Ideal.ofBits .f32 0xFF800000#32) (src ∘ h.lift (ix1 p)) = _
  refine Finset.fold_congr fun k _ => ?_
  exact congrArg src (lift_rows h p k)

/-- A lane sum of an f32 `[a, b]` array from the zero word, at the extended reals: the row's sum. -/
theorem rowSum_f32 {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  show ∑ k : Fin b, src (h.lift (ix1 p) k) = _
  exact Finset.sum_congr rfl fun k _ => congrArg src (lift_rows h p k)

end Idealize.ShloMosaic.LibColumn

end
-- ==== Proof.LibBlockOps.lean ====
/-
  The block operations of the kernel read at an index, over the exact extended reals.

  A context's rows cut out of a [256, 4, 256] block and viewed as a matrix; the product of two such matrices along their
  second axes into the zero matrix; the sum of a matrix along its rows; a vector viewed as a column and back; and the
  indicator of the global diagonal built from two coordinate grids and the grid point's offsets.
-/
import proofs.«150541_j83794811945494_1_alg».proof.Proof.Gen.KernelIdeal.Skeleton
import proofs.«150541_j83794811945494_1_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.PayRead

open Cert.KernelIdeal Cert.KernelIdeal.Gen Idealize.ShloMosaic Idealize.ShloMosaic.ValueIdx Idealize.SL.Sem

section Layout
variable {α : Type}

/-- An `[a, 1, b]` array viewed as the matrix `[a, b]` reads, at `(p, d)`, the operand at `(p, 0, d)`. -/
theorem shapeCast_a1b_ab_apply {a b : ℕ} (x : (⟨3, ![a, 1, b]⟩ : Shape).Idx → α)
    (h : (⟨3, ![a, 1, b]⟩ : Shape).ShapeCasts ⟨2, ![a, b]⟩) (p : Fin a) (d : Fin b) :
    shapeCast ⟨2, ![a, b]⟩ x h (ix2 p d) = x (ix3 p (0 : Fin 1) d) :=
  shapeCast_apply x h _ _ (by
    rw [Shape.rowMajor_val_three, Shape.rowMajor_val_two]
    show (p.val * 1 + 0) * b + d.val = p.val * b + d.val
    rw [Nat.mul_one, Nat.add_zero])

/-- Context `j` of a [256, 4, 256] block, cut out and viewed as a [256, 256] matrix: at `(p, d)` the block at `(p, j, d)`. -/
theorem ctxRows_apply (o : ℕ) (v : S256x4x256.Idx → α) (h : S256x4x256.Slices ![0, o, 0] S256x1x256)
    (h' : S256x1x256.ShapeCasts S256x256) (j : Fin 4) (hj : j.val = o) (p d : Fin 256) :
    shapeCast S256x256 (extractStridedSlice S256x1x256 ![0, o, 0] v h) h' (ix2 p d) = v (ix3 p j d) :=
  (shapeCast_a1b_ab_apply _ h' p d).trans
    (slice3_axis1_apply o v h p (0 : Fin 1) d j (by rw [hj]; rfl))

end Layout

section Product

/-- The product record of the kernel: two [256, 256] matrices contracted along their second axes. -/
abbrev DD : DotDims S256x256 S256x256 S256x256 := dot_S256x256_S256x256_S256x256_1_1_0_0_n_n

theorem dd_lhs0 (i : S256x256.Idx) (k : DD.contr.Idx) : (DD.lhsIdx i k 0).val = (i 0).val := by
  unfold DotDims.lhsIdx
  rw [dif_neg (show ¬(0 : Fin S256x256.rank) ∈ DD.lhsBatch by decide), dif_pos (show (0 : Fin S256x256.rank) ∈ DD.lhsNonContracting by decide)]
  rfl
theorem dd_lhs1 (i : S256x256.Idx) (k : DD.contr.Idx) : (DD.lhsIdx i k 1).val = (k ⟨0, by decide⟩).val :=
  DD.lhsIdx_val_of_single rfl i k
theorem dd_rhs0 (i : S256x256.Idx) (k : DD.contr.Idx) : (DD.rhsIdx i k 0).val = (i 1).val := by
  unfold DotDims.rhsIdx
  rw [dif_neg (show ¬(0 : Fin S256x256.rank) ∈ DD.rhsBatch by decide), dif_pos (show (0 : Fin S256x256.rank) ∈ DD.rhsNonContracting by decide)]
  rfl
theorem dd_rhs1 (i : S256x256.Idx) (k : DD.contr.Idx) : (DD.rhsIdx i k 1).val = (k ⟨0, by decide⟩).val :=
  DD.rhsIdx_val_of_single rfl i k

/-- The block product into the zero matrix: at `(p, q)` the sum over `d` of `A (p, d) · B (q, d)`. -/
theorem gramBlock_apply (prec : Option ContractPrecision) (A B : FVec Ideal S256x256 .f32) (p q : Fin 256) :
    matmul DD prec A B (constant (F := Ideal) S256x256 .f32 0x00000000#32) (ix2 p q)
      = ∑ d : Fin 256, A (ix2 p d) * B (ix2 q d) := by
  simp only [matmul]
  rw [Ideal.matmul_constant_zero_apply, ← Equiv.sum_comp (contrEquiv1 DD 256 rfl rfl).symm]
  refine Finset.sum_congr rfl fun k _ => ?_
  have hk := contrEquiv1_symm_val DD 256 rfl rfl k
  have el : DD.lhsIdx (ix2 p q) ((contrEquiv1 DD 256 rfl rfl).symm k) = ix2 p k := funext fun a => Fin.ext (by
    match a with
    | ⟨0, _⟩ => exact dd_lhs0 _ _
    | ⟨1, _⟩ => exact (dd_lhs1 _ _).trans hk)
  have er : DD.rhsIdx (ix2 p q) ((contrEquiv1 DD 256 rfl rfl).symm k) = ix2 q k := funext fun a => Fin.ext (by
    match a with
    | ⟨0, _⟩ => exact dd_rhs0 _ _
    | ⟨1, _⟩ => exact (dd_rhs1 _ _).trans hk)
  rw [el, er]

end Product

section Sums

/-- The sum of a [256, 256] matrix along its rows from the zero word: at `p` the sum over the columns. -/
theorem rowSum_apply (src : FVec Ideal S256x256 .f32) (h : S256x256.Reduces [1] S256) (hφ : FKind.Formats .f32)
    (hacc : (0x00000000#32 : BitVec 32) = 0x00000000#32) (p : Fin 256) :
    multiReduction .add [1] S256 src 0x00000000#32 h hφ hacc (ix1 p) = ∑ q : Fin 256, src (ix2 p q) :=
  LibColumn.rowSum_f32 src h hφ hacc p

/-- A running column plus a matrix's row sums, kept as a column: at `(p, 0)` the column's entry plus the row's sum. -/
theorem colAcc_apply (src : FVec Ideal S256x256 .f32) (acc : Vec Ideal S256x1 .f32) (h : S256x256.Reduces [1] S256)
    (hφ : FKind.Formats .f32) (hacc : (0x00000000#32 : BitVec 32) = 0x00000000#32) (h1 : S256x1.ShapeCasts S256)
    (h2 : S256.ShapeCasts S256x1) (p : Fin 256) :
    shapeCast S256x1 (addf (shapeCast S256 acc h1) (multiReduction .add [1] S256 src 0x00000000#32 h hφ hacc)) h2 (ix2 p 0)
      = acc (ix2 p 0) + ∑ q : Fin 256, src (ix2 p q) := by
  refine (LibColumn.shapeCast_a_a1_apply _ h2 p 0).trans ?_
  show shapeCast S256 acc h1 (ix1 p) + multiReduction .add [1] S256 src 0x00000000#32 h hφ hacc (ix1 p) = _
  rw [rowSum_apply, LibColumn.shapeCast_a1_a_apply]

end Sums

section Similarity

/-- Context `j` of one block against context `l` of another, both cut out and viewed as matrices, multiplied into the zero
    matrix: at `(p, q)` the sum over `d` of `x (p, j, d) · y (q, l, d)`. -/
theorem simBlock_apply (o o' : ℕ) (prec : Option ContractPrecision) (x y : FVec Ideal S256x4x256 .f32)
    (h : S256x4x256.Slices ![0, o, 0] S256x1x256) (h' : S256x4x256.Slices ![0, o', 0] S256x1x256)
    (hc : S256x1x256.ShapeCasts S256x256) (j l : Fin 4) (hj : j.val = o) (hl : l.val = o') (p q : Fin 256) :
    matmul DD prec (shapeCast S256x256 (extractStridedSlice S256x1x256 ![0, o, 0] x h) hc)
        (shapeCast S256x256 (extractStridedSlice S256x1x256 ![0, o', 0] y h') hc)
        (constant (F := Ideal) S256x256 .f32 0x00000000#32) (ix2 p q)
      = ∑ d : Fin 256, x (ix3 p j d) * y (ix3 q l d) := by
  rw [gramBlock_apply]
  exact Finset.sum_congr rfl fun d _ => by rw [ctxRows_apply o x h hc j hj, ctxRows_apply o' y h' hc l hl]

/-- A matrix against a [256, 1, 256] cut viewed as a matrix, multiplied into the zero matrix: at `(p, q)` the sum over
    `d` of `A (p, d) · c (q, 0, d)`. -/
theorem simCut_apply (prec : Option ContractPrecision) (A : FVec Ideal S256x256 .f32) (c : FVec Ideal S256x1x256 .f32)
    (hc : S256x1x256.ShapeCasts S256x256) (p q : Fin 256) :
    matmul DD prec A (shapeCast S256x256 c hc) (constant (F := Ideal) S256x256 .f32 0x00000000#32) (ix2 p q)
      = ∑ d : Fin 256, A (ix2 p d) * c (ix3 q (0 : Fin 1) d) := by
  rw [gramBlock_apply]
  exact Finset.sum_congr rfl fun d _ => by rw [shapeCast_a1b_ab_apply c hc q d]

end Similarity

section Diagonal

/-- Two naturals below 2^32 as 32-bit words are equal words exactly when they are equal. -/
theorem ofNat32_beq (a b : ℕ) (ha : a < 4294967296) (hb : b < 4294967296) :
    (BitVec.ofNat 32 a == BitVec.ofNat 32 b) = decide (a = b) := by
  by_cases h : a = b
  · subst h; simp
  · have hne : BitVec.ofNat 32 a ≠ BitVec.ofNat 32 b := fun e => h (by
      have e' := congrArg BitVec.toNat e
      simp only [BitVec.toNat_ofNat] at e'
      omega)
    simp [hne, h]

/-- The comparison bit widened to a word and read as a signed integer: one if the bit is set, zero if not. -/
theorem bit_toReal (c : Bool) :
    (FloatOps.sitofp (F := Ideal) .f32 ((BitVec.ofBool c).setWidth 32) : EReal) = if c then 1 else 0 := by
  cases c
  · show (((((BitVec.ofBool false).setWidth 32).toInt : ℤ) : ℝ) : EReal) = 0
    simp
  · show (((((BitVec.ofBool true).setWidth 32).toInt : ℤ) : ℝ) : EReal) = 1
    simp

/-- A row index plus 256 times a block index, added as 32-bit words. -/
theorem word_offset (a c : ℕ) : BitVec.ofNat 32 a + BitVec.ofNat 32 c * 256#32 = BitVec.ofNat 32 (a + 256 * c) := by
  rw [BitVec.ofNat_add, Nat.mul_comm, BitVec.ofNat_mul]

/-- The indicator of the global diagonal at grid point `i`: at `(p, q)` it is one when row `p` of row block `i 0` and
    column `q` of column block `i 1` are the same global index, and zero otherwise. -/
theorem mask_apply (i : grid0.Coords) (p q : Fin 256) :
    k0_pay22 (F := Ideal) i (ix2 p q)
      = if p.val + 256 * (i 0).val = q.val + 256 * (i 1).val then (1 : EReal) else 0 := by
  have h0 : (i 0).val < 8 := (i 0).isLt
  have h1 : (i 1).val < 8 := (i 1).isLt
  have hp : p.val < 256 := p.isLt
  have hq : q.val < 256 := q.isLt
  unfold k0_pay22
  show FloatOps.sitofp (F := Ideal) .f32 ((IntOp.cmpi .eq
      (IntOp.addi (iota .tc S256x256 32 [0] iota_S256x256_d0_w32 (ix2 p q)) (Scalar.muli (BitVec.ofNat 32 (i 0).val) 256#32))
      (IntOp.addi (iota .tc S256x256 32 [1] iota_S256x256_d1_w32 (ix2 p q)) (Scalar.muli (BitVec.ofNat 32 (i 1).val) 256#32))).setWidth 32) = _
  rw [iota_single_apply, iota_single_apply]
  show FloatOps.sitofp (F := Ideal) .f32 ((BitVec.ofBool
      (BitVec.ofNat 32 p.val + BitVec.ofNat 32 (i 0).val * 256#32 == BitVec.ofNat 32 q.val + BitVec.ofNat 32 (i 1).val * 256#32)).setWidth 32) = _
  rw [word_offset, word_offset, ofNat32_beq _ _ (by omega) (by omega), bit_toReal]
  simp only [decide_eq_true_eq]

end Diagonal

end Cert.KernelIdeal.PayRead

end
-- ==== Proof.PayA.lean ====
/-
  The kernel's payloads of the first two contexts read at an index, over the exact extended reals.

  Each vector the kernel computes at a grid point, from the diagonal indicator and the similarity blocks of context 0
  and context 1 to the running sums they feed, is read at one index as plain arithmetic of its arguments at indices:
  a similarity entry is a sum of products over the feature axis divided by the temperature literal, a stabilised
  exponential is the exponential of an entry minus the largest of the four, a running column gains a row's masked sum,
  and the running total gains the rows' sums of clamped squares.
-/
import proofs.«150541_j83794811945494_1_alg».proof.Proof.LibBlockOps

noncomputable section

open scoped BigOperators

namespace Cert.KernelIdeal.PayRead

open Cert.KernelIdeal Cert.KernelIdeal.Gen Idealize.ShloMosaic Idealize.ShloMosaic.ValueIdx Idealize.SL.Sem

/-! ## Constant fills -/

theorem pay20_fill (j : S256x16.Idx) : k0_pay20 (F := Ideal) j = 0 := by
  unfold k0_pay20
  show Ideal.ofBits .f32 0x00000000#32 = 0
  exact Ideal.ofBits_zero_f32

theorem pay21_fill (j : S256x1.Idx) : k0_pay21 (F := Ideal) j = 0 := by
  unfold k0_pay21
  show Ideal.ofBits .f32 0x00000000#32 = 0
  exact Ideal.ofBits_zero_f32

theorem pay23_apply (j : S256.Idx) : k0_pay23 (F := Ideal) j = 0 := by
  unfold k0_pay23
  show Ideal.ofBits .f32 0x00000000#32 = 0
  exact Ideal.ofBits_zero_f32

theorem pay29_apply (j : S256x256.Idx) : k0_pay29 (F := Ideal) j = Ideal.ofBits .f32 0x3F800000#32 := rfl

theorem pay57_apply (j : S256x256.Idx) : k0_pay57 (F := Ideal) j = Ideal.ofBits .f32 0x322BCC77#32 := rfl

/-! ## The diagonal indicator -/

theorem pay22_apply (i : grid0.Coords) (p q : Fin 256) :
    k0_pay22 (F := Ideal) i (ix2 p q)
      = if p.val + 256 * (i 0).val = q.val + 256 * (i 1).val then (1 : EReal) else 0 :=
  mask_apply i p q

/-! ## Context 0 against the four contexts -/

theorem pay24_apply (v3 : Vec Ideal S256x4x256 .f32) (p d : Fin 256) :
    k0_pay24 (F := Ideal) v3 (ix2 p d) = v3 (ix3 p 0 d) := by
  unfold k0_pay24
  exact ctxRows_apply 0 v3 _ _ (0 : Fin 4) rfl p d

theorem pay25_apply (v3 v4 : Vec Ideal S256x4x256 .f32) (p q : Fin 256) :
    k0_pay25 (F := Ideal) v3 v4 (ix2 p q)
      = Ideal.div (∑ d : Fin 256, v3 (ix3 p 0 d) * v4 (ix3 q 0 d)) (Ideal.ofBits .f32 0x3F800000#32) := by
  unfold k0_pay25 k0_pay24
  exact congrArg (fun s => Ideal.div s (Ideal.ofBits .f32 0x3F800000#32))
    (simBlock_apply 0 0 (some .fp32) v3 v4 _ _ _ (0 : Fin 4) (0 : Fin 4) rfl rfl p q)

theorem pay26_apply (v3 v4 : Vec Ideal S256x4x256 .f32) (p q : Fin 256) :
    k0_pay26 (F := Ideal) v3 v4 (ix2 p q)
      = Ideal.div (∑ d : Fin 256, v3 (ix3 p 0 d) * v4 (ix3 q 1 d)) (Ideal.ofBits .f32 0x3F800000#32) := by
  unfold k0_pay26 k0_pay24
  exact congrArg (fun s => Ideal.div s (Ideal.ofBits .f32 0x3F800000#32))
    (simBlock_apply 0 1 (some .fp32) v3 v4 _ _ _ (0 : Fin 4) (1 : Fin 4) rfl rfl p q)

theorem pay27_apply (v3 v4 : Vec Ideal S256x4x256 .f32) (p q : Fin 256) :
    k0_pay27 (F := Ideal) v3 v4 (ix2 p q)
      = Ideal.div (∑ d : Fin 256, v3 (ix3 p 0 d) * v4 (ix3 q 2 d)) (Ideal.ofBits .f32 0x3F800000#32) := by
  unfold k0_pay27 k0_pay24
  exact congrArg (fun s => Ideal.div s (Ideal.ofBits .f32 0x3F800000#32))
    (simBlock_apply 0 2 (some .fp32) v3 v4 _ _ _ (0 : Fin 4) (2 : Fin 4) rfl rfl p q)

theorem pay28_apply (v3 v4 : Vec Ideal S256x4x256 .f32) (p q : Fin 256) :
    k0_pay28 (F := Ideal) v3 v4 (ix2 p q) = ∑ d : Fin 256, v3 (ix3 p 0 d) * v4 (ix3 q 3 d) := by
  unfold k0_pay28 k0_pay24
  exact simBlock_apply 0 3 (some .fp32) v3 v4 _ _ _ (0 : Fin 4) (3 : Fin 4) rfl rfl p q

theorem pay30_apply (v36 v37 : FVec Ideal S256x256 .f32) (p q : Fin 256) :
    k0_pay30 (F := Ideal) v36 v37 (ix2 p q) = Ideal.div (v36 (ix2 p q)) (v37 (ix2 p q)) := rfl

theorem pay31_apply (v23 v28 v33 v36 v37 : FVec Ideal S256x256 .f32) (p q : Fin 256) :
    k0_pay31 (F := Ideal) v23 v28 v33 v36 v37 (ix2 p q)
      = max (max (max (v23 (ix2 p q)) (v28 (ix2 p q))) (v33 (ix2 p q))) (Ideal.div (v36 (ix2 p q)) (v37 (ix2 p q))) := rfl

theorem pay32_apply (v23 v28 v33 v36 v37 : FVec Ideal S256x256 .f32) (p q : Fin 256) :
    k0_pay32 (F := Ideal) v23 v28 v33 v36 v37 (ix2 p q)
      = Ideal.exp (v23 (ix2 p q) - k0_pay31 (F := Ideal) v23 v28 v33 v36 v37 (ix2 p q)) := rfl

theorem pay34_apply (v23 v28 v33 v36 v37 : FVec Ideal S256x256 .f32) (p q : Fin 256) :
    k0_pay34 (F := Ideal) v23 v28 v33 v36 v37 (ix2 p q)
      = Ideal.exp (v28 (ix2 p q) - k0_pay31 (F := Ideal) v23 v28 v33 v36 v37 (ix2 p q)) := rfl

theorem pay36_apply (v23 v28 v33 v36 v37 : FVec Ideal S256x256 .f32) (p q : Fin 256) :
    k0_pay36 (F := Ideal) v23 v28 v33 v36 v37 (ix2 p q)
      = Ideal.exp (v33 (ix2 p q) - k0_pay31 (F := Ideal) v23 v28 v33 v36 v37 (ix2 p q)) := rfl

theorem pay33_apply (v15 v23 v28 v33 v36 v37 : FVec Ideal S256x256 .f32) (v51 : Vec Ideal S256x1 .f32) (p : Fin 256) :
    k0_pay33 (F := Ideal) v15 v23 v28 v33 v36 v37 v51 (ix2 p 0)
      = v51 (ix2 p 0) + ∑ q : Fin 256, k0_pay32 (F := Ideal) v23 v28 v33 v36 v37 (ix2 p q) * v15 (ix2 p q) := by
  unfold k0_pay33
  exact colAcc_apply (mulf (k0_pay32 (F := Ideal) v23 v28 v33 v36 v37) v15) v51 _ _ _ _ _ p

theorem pay35_apply (v15 v23 v28 v33 v36 v37 : FVec Ideal S256x256 .f32) (v66 : Vec Ideal S256x1 .f32) (p : Fin 256) :
    k0_pay35 (F := Ideal) v15 v23 v28 v33 v36 v37 v66 (ix2 p 0)
      = v66 (ix2 p 0) + ∑ q : Fin 256, k0_pay34 (F := Ideal) v23 v28 v33 v36 v37 (ix2 p q) * v15 (ix2 p q) := by
  unfold k0_pay35
  exact colAcc_apply (mulf (k0_pay34 (F := Ideal) v23 v28 v33 v36 v37) v15) v66 _ _ _ _ _ p

/-- The sum of clamped squares of a matrix along its rows: the step every running total takes. -/
theorem sqSum_apply (e : FVec Ideal S256x256 .f32) (h : S256x256.Reduces [1] S256) (hφ : FKind.Formats .f32)
    (hacc : (0x00000000#32 : BitVec 32) = 0x00000000#32) (p : Fin 256) :
    multiReduction .add [1] S256 (maximumf (mulf e e) (broadcast S256x256 (Scalar.ofBits (F := Ideal) .f32 0x322BCC77#32)))
        0x00000000#32 h hφ hacc (ix1 p)
      = ∑ q : Fin 256, max (e (ix2 p q) * e (ix2 p q)) (Ideal.ofBits .f32 0x322BCC77#32) :=
  rowSum_apply _ h hφ hacc p

theorem pay37_apply (v16 : FVec Ideal S256 .f32) (v23 v28 v33 v36 v37 : FVec Ideal S256x256 .f32) (p : Fin 256) :
    k0_pay37 (F := Ideal) v16 v23 v28 v33 v36 v37 (ix1 p)
      = v16 (ix1 p) + ∑ q : Fin 256, max (k0_pay32 (F := Ideal) v23 v28 v33 v36 v37 (ix2 p q) * k0_pay32 (F := Ideal) v23 v28 v33 v36 v37 (ix2 p q)) (Ideal.ofBits .f32 0x322BCC77#32)
          + ∑ q : Fin 256, max (k0_pay34 (F := Ideal) v23 v28 v33 v36 v37 (ix2 p q) * k0_pay34 (F := Ideal) v23 v28 v33 v36 v37 (ix2 p q)) (Ideal.ofBits .f32 0x322BCC77#32)
          + ∑ q : Fin 256, max (k0_pay36 (F := Ideal) v23 v28 v33 v36 v37 (ix2 p q) * k0_pay36 (F := Ideal) v23 v28 v33 v36 v37 (ix2 p q)) (Ideal.ofBits .f32 0x322BCC77#32) := by
  unfold k0_pay37
  show v16 (ix1 p) + multiReduction .add [1] S256 _ 0x00000000#32 _ _ _ (ix1 p)
      + multiReduction .add [1] S256 _ 0x00000000#32 _ _ _ (ix1 p)
      + multiReduction .add [1] S256 _ 0x00000000#32 _ _ _ (ix1 p) = _
  rw [sqSum_apply (k0_pay32 (F := Ideal) v23 v28 v33 v36 v37), sqSum_apply (k0_pay34 (F := Ideal) v23 v28 v33 v36 v37), sqSum_apply (k0_pay36 (F := Ideal) v23 v28 v33 v36 v37)]

theorem pay38_apply (v15 v23 v28 v33 v36 v37 : FVec Ideal S256x256 .f32) (p q : Fin 256) :
    k0_pay38 (F := Ideal) v15 v23 v28 v33 v36 v37 (ix2 p q)
      = k0_pay36 (F := Ideal) v23 v28 v33 v36 v37 (ix2 p q) * v15 (ix2 p q) := rfl

theorem pay39_apply (v79 : FVec Ideal S256x256 .f32) (v81 : Vec Ideal S256x1 .f32) (p : Fin 256) :
    k0_pay39 (F := Ideal) v79 v81 (ix2 p 0) = v81 (ix2 p 0) + ∑ q : Fin 256, v79 (ix2 p q) := by
  unfold k0_pay39
  exact colAcc_apply v79 v81 _ _ _ _ _ p

theorem pay40_apply (v38 v41 : FVec Ideal S256x256 .f32) (p q : Fin 256) :
    k0_pay40 (F := Ideal) v38 v41 (ix2 p q) = Ideal.exp (v38 (ix2 p q) - v41 (ix2 p q)) := rfl

theorem pay41_apply (v38 v41 : FVec Ideal S256x256 .f32) (v78 : FVec Ideal S256 .f32) (p : Fin 256) :
    k0_pay41 (F := Ideal) v38 v41 v78 (ix1 p)
      = v78 (ix1 p) + ∑ q : Fin 256, max (k0_pay40 (F := Ideal) v38 v41 (ix2 p q) * k0_pay40 (F := Ideal) v38 v41 (ix2 p q)) (Ideal.ofBits .f32 0x322BCC77#32) := by
  unfold k0_pay41
  show v78 (ix1 p) + multiReduction .add [1] S256 _ 0x00000000#32 _ _ _ (ix1 p) = _
  rw [sqSum_apply (k0_pay40 (F := Ideal) v38 v41)]

theorem pay42_apply (v15 v38 v41 : FVec Ideal S256x256 .f32) (v96 : Vec Ideal S256x1 .f32) (p : Fin 256) :
    k0_pay42 (F := Ideal) v15 v38 v41 v96 (ix2 p 0)
      = v96 (ix2 p 0) + ∑ q : Fin 256, k0_pay40 (F := Ideal) v38 v41 (ix2 p q) * v15 (ix2 p q) := by
  unfold k0_pay42
  exact colAcc_apply (mulf (k0_pay40 (F := Ideal) v38 v41) v15) v96 _ _ _ _ _ p

/-! ## Context 1 against the four contexts -/

theorem pay43_apply (v3 : Vec Ideal S256x4x256 .f32) (p d : Fin 256) :
    k0_pay43 (F := Ideal) v3 (ix2 p d) = v3 (ix3 p 1 d) := by
  unfold k0_pay43
  exact ctxRows_apply 1 v3 _ _ (1 : Fin 4) rfl p d

theorem pay44_apply (v3 v4 : Vec Ideal S256x4x256 .f32) (p q : Fin 256) :
    k0_pay44 (F := Ideal) v3 v4 (ix2 p q)
      = Ideal.div (∑ d : Fin 256, v3 (ix3 p 1 d) * v4 (ix3 q 0 d)) (Ideal.ofBits .f32 0x3F800000#32) := by
  unfold k0_pay44 k0_pay43
  exact congrArg (fun s => Ideal.div s (Ideal.ofBits .f32 0x3F800000#32))
    (simBlock_apply 1 0 (some .fp32) v3 v4 _ _ _ (1 : Fin 4) (0 : Fin 4) rfl rfl p q)

theorem pay45_apply (v3 v4 : Vec Ideal S256x4x256 .f32) (p q : Fin 256) :
    k0_pay45 (F := Ideal) v3 v4 (ix2 p q)
      = Ideal.div (∑ d : Fin 256, v3 (ix3 p 1 d) * v4 (ix3 q 1 d)) (Ideal.ofBits .f32 0x3F800000#32) := by
  unfold k0_pay45 k0_pay43
  exact congrArg (fun s => Ideal.div s (Ideal.ofBits .f32 0x3F800000#32))
    (simBlock_apply 1 1 (some .fp32) v3 v4 _ _ _ (1 : Fin 4) (1 : Fin 4) rfl rfl p q)

theorem pay46_apply (v3 v4 : Vec Ideal S256x4x256 .f32) (p q : Fin 256) :
    k0_pay46 (F := Ideal) v3 v4 (ix2 p q)
      = Ideal.div (∑ d : Fin 256, v3 (ix3 p 1 d) * v4 (ix3 q 2 d)) (Ideal.ofBits .f32 0x3F800000#32) := by
  unfold k0_pay46 k0_pay43
  exact congrArg (fun s => Ideal.div s (Ideal.ofBits .f32 0x3F800000#32))
    (simBlock_apply 1 2 (some .fp32) v3 v4 _ _ _ (1 : Fin 4) (2 : Fin 4) rfl rfl p q)

theorem pay47_apply (v4 : Vec Ideal S256x4x256 .f32) (p d : Fin 256) :
    k0_pay47 (F := Ideal) v4 (ix3 p 0 d) = v4 (ix3 p 3 d) := by
  unfold k0_pay47
  exact slice3_axis1_apply 3 v4 _ p (0 : Fin 1) d (3 : Fin 4) rfl

theorem pay48_apply (v103 : FVec Ideal S256x256 .f32) (v119 : FVec Ideal S256x1x256 .f32) (p q : Fin 256) :
    k0_pay48 (F := Ideal) v103 v119 (ix2 p q)
      = Ideal.div (∑ d : Fin 256, v103 (ix2 p d) * v119 (ix3 q 0 d)) (Ideal.ofBits .f32 0x3F800000#32) := by
  unfold k0_pay48
  exact congrArg (fun s => Ideal.div s (Ideal.ofBits .f32 0x3F800000#32))
    (simCut_apply (some .fp32) v103 v119 _ p q)

theorem pay49_apply (v103 v108 v113 v118 : FVec Ideal S256x256 .f32) (v119 : FVec Ideal S256x1x256 .f32) (p q : Fin 256) :
    k0_pay49 (F := Ideal) v103 v108 v113 v118 v119 (ix2 p q)
      = max (max (max (v108 (ix2 p q)) (v113 (ix2 p q))) (v118 (ix2 p q))) (k0_pay48 (F := Ideal) v103 v119 (ix2 p q)) := rfl

theorem pay50_apply (v103 v108 v113 v118 : FVec Ideal S256x256 .f32) (v119 : FVec Ideal S256x1x256 .f32) (p q : Fin 256) :
    k0_pay50 (F := Ideal) v103 v108 v113 v118 v119 (ix2 p q) = Ideal.exp (v108 (ix2 p q) - k0_pay49 (F := Ideal) v103 v108 v113 v118 v119 (ix2 p q)) := rfl

theorem pay52_apply (v103 v108 v113 v118 : FVec Ideal S256x256 .f32) (v119 : FVec Ideal S256x1x256 .f32) (p q : Fin 256) :
    k0_pay52 (F := Ideal) v103 v108 v113 v118 v119 (ix2 p q) = Ideal.exp (v113 (ix2 p q) - k0_pay49 (F := Ideal) v103 v108 v113 v118 v119 (ix2 p q)) := rfl

theorem pay55_apply (v103 v108 v113 v118 : FVec Ideal S256x256 .f32) (v119 : FVec Ideal S256x1x256 .f32) (p q : Fin 256) :
    k0_pay55 (F := Ideal) v103 v108 v113 v118 v119 (ix2 p q) = Ideal.exp (v118 (ix2 p q) - k0_pay49 (F := Ideal) v103 v108 v113 v118 v119 (ix2 p q)) := rfl

theorem pay51_apply (v15 : FVec Ideal S256x256 .f32) (v103 v108 v113 v118 : FVec Ideal S256x256 .f32) (v119 : FVec Ideal S256x1x256 .f32) (v136 : Vec Ideal S256x1 .f32) (p : Fin 256) :
    k0_pay51 (F := Ideal) v15 v103 v108 v113 v118 v119 v136 (ix2 p 0)
      = v136 (ix2 p 0) + ∑ q : Fin 256, k0_pay50 (F := Ideal) v103 v108 v113 v118 v119 (ix2 p q) * v15 (ix2 p q) := by
  unfold k0_pay51
  exact colAcc_apply (mulf (k0_pay50 (F := Ideal) v103 v108 v113 v118 v119) v15) v136 _ _ _ _ _ p

theorem pay53_apply (v93 : FVec Ideal S256 .f32) (v103 v108 v113 v118 : FVec Ideal S256x256 .f32) (v119 : FVec Ideal S256x1x256 .f32) (p : Fin 256) :
    k0_pay53 (F := Ideal) v93 v103 v108 v113 v118 v119 (ix1 p)
      = v93 (ix1 p) + ∑ q : Fin 256, max (k0_pay50 (F := Ideal) v103 v108 v113 v118 v119 (ix2 p q) * k0_pay50 (F := Ideal) v103 v108 v113 v118 v119 (ix2 p q)) (Ideal.ofBits .f32 0x322BCC77#32)
          + ∑ q : Fin 256, max (k0_pay52 (F := Ideal) v103 v108 v113 v118 v119 (ix2 p q) * k0_pay52 (F := Ideal) v103 v108 v113 v118 v119 (ix2 p q)) (Ideal.ofBits .f32 0x322BCC77#32) := by
  unfold k0_pay53
  show v93 (ix1 p) + multiReduction .add [1] S256 _ 0x00000000#32 _ _ _ (ix1 p)
      + multiReduction .add [1] S256 _ 0x00000000#32 _ _ _ (ix1 p) = _
  rw [sqSum_apply (k0_pay50 (F := Ideal) v103 v108 v113 v118 v119), sqSum_apply (k0_pay52 (F := Ideal) v103 v108 v113 v118 v119)]

theorem pay54_apply (v15 : FVec Ideal S256x256 .f32) (v103 v108 v113 v118 : FVec Ideal S256x256 .f32) (v119 : FVec Ideal S256x1x256 .f32) (v151 : Vec Ideal S256x1 .f32) (p : Fin 256) :
    k0_pay54 (F := Ideal) v15 v103 v108 v113 v118 v119 v151 (ix2 p 0)
      = v151 (ix2 p 0) + ∑ q : Fin 256, k0_pay52 (F := Ideal) v103 v108 v113 v118 v119 (ix2 p q) * v15 (ix2 p q) := by
  unfold k0_pay54
  exact colAcc_apply (mulf (k0_pay52 (F := Ideal) v103 v108 v113 v118 v119) v15) v151 _ _ _ _ _ p

theorem pay56_apply (v103 v108 v113 v118 : FVec Ideal S256x256 .f32) (v119 : FVec Ideal S256x1x256 .f32) (p q : Fin 256) :
    k0_pay56 (F := Ideal) v103 v108 v113 v118 v119 (ix2 p q) = k0_pay55 (F := Ideal) v103 v108 v113 v118 v119 (ix2 p q) * k0_pay55 (F := Ideal) v103 v108 v113 v118 v119 (ix2 p q) := rfl

end Cert.KernelIdeal.PayRead

end
-- ==== Proof.LibCols.lean ====
/-
  The [256] and [256, 1] views of one column, read at an index.

  A vector of 256 entries and a matrix of 256 rows and one column hold the same entries in the same row-major order, so a
  shape cast between the two reads entry p at (p, 0) and back. Column c of a [256, 16] matrix, cut out as a [256, 1]
  block and cast to a vector, reads at p the matrix's entry (p, c).
-/
import proofs.«150541_j83794811945494_1_alg».proof.Proof.Gen.KernelIdeal.Skeleton
import Idealize.ShloMosaic.Lib.ValueIdx
import Idealize.ShloMosaic.Lib.ValueLayout

noncomputable section

open scoped BigOperators

namespace Cert.KernelIdeal.PayRead

open Idealize.ShloMosaic Idealize.ShloMosaic.ValueIdx Cert.KernelIdeal.Gen

variable {α : Type}

/-- A vector of 256 entries cast to a one-column matrix reads entry p at (p, 0). -/
theorem cast_col_apply (v : S256.Idx → α) (h : S256.ShapeCasts S256x1) (p : Fin 256) (u : Fin 1) :
    shapeCast S256x1 v h (ix2 p u) = v (ix1 p) := by
  refine shapeCast_apply v h (ix2 p u) (ix1 p) ?_
  rw [Shape.rowMajor_val_one, Shape.rowMajor_val_two]
  have hu : u.val = 0 := by omega
  show p.val = p.val * 1 + u.val
  omega

/-- A one-column matrix of 256 rows cast to a vector reads (p, 0) at entry p. -/
theorem cast_vec_apply (v : S256x1.Idx → α) (h : S256x1.ShapeCasts S256) (p : Fin 256) :
    shapeCast S256 v h (ix1 p) = v (ix2 p 0) := by
  refine shapeCast_apply v h (ix1 p) (ix2 p 0) ?_
  rw [Shape.rowMajor_val_one, Shape.rowMajor_val_two]
  show p.val * 1 + 0 = p.val
  omega

/-- Column c of a [256, 16] matrix as a [256, 1] block reads (p, c) at (p, 0). -/
theorem colBlock_apply (c : Nat) (hc : c < 16) (v : S256x16.Idx → α) (h : S256x16.Slices ![0, c] S256x1) (p : Fin 256) :
    extractStridedSlice S256x1 ![0, c] v h (ix2 p 0) = v (ix2 p ⟨c, hc⟩) :=
  slice2_axis1_apply c v h p 0 ⟨c, hc⟩ rfl

/-- Column c of a [256, 16] matrix as a vector reads (p, c) at entry p. -/
theorem col_apply (c : Nat) (hc : c < 16) (v : S256x16.Idx → α) (h : S256x16.Slices ![0, c] S256x1)
    (h' : S256x1.ShapeCasts S256) (p : Fin 256) :
    shapeCast S256 (extractStridedSlice S256x1 ![0, c] v h) h' (ix1 p) = v (ix2 p ⟨c, hc⟩) :=
  (cast_vec_apply _ h' p).trans (colBlock_apply c hc v h p)

end Cert.KernelIdeal.PayRead

end
-- ==== Proof.PayB.lean ====
/-
  The kernel's pure values for the contexts j = 2 and j = 3 of a row block, and the last running totals, read at an
  index over the extended reals.

  Per context j the kernel forms the four similarity blocks x[:, j, :] · y[:, l, :]ᵀ / 1, their entrywise maximum m,
  the stabilised exponentials exp (sim_l − m), adds each row's clamped squares max (dp², c) to a running total and each
  row's masked sum Σ_q dp[p, q] · mask[p, q] to one column of the accumulator. Each lemma reads one such value at a
  row p (and a column q), as arithmetic of the values it is computed from at such indices.
-/
import proofs.«150541_j83794811945494_1_alg».proof.Proof.LibBlockOps
import proofs.«150541_j83794811945494_1_alg».proof.Proof.LibCols
import proofs.«150541_j83794811945494_1_alg».proof.Proof.Spec
import Idealize.ShloMosaic.PureOps.Ideal.Laws

noncomputable section

open scoped BigOperators

namespace Cert.KernelIdeal.PayRead

open Idealize.ShloMosaic Idealize.ShloMosaic.ValueIdx Cert.KernelIdeal.Gen

/-- The exponential of a vector, at the extended reals, read at an index. -/
private theorem exp_apply {s : Shape} {φ : FTy} (a : FVec Ideal s φ) (i : s.Idx) : (exp a : FVec Ideal s φ) i = Ideal.exp (a i) := rfl

/-- A float literal of the kernel, at the extended reals, is the value of its word. -/
private theorem scalar_ofBits' (b : BitVec 32) : (Scalar.ofBits .f32 b : Ideal .f32) = Ideal.ofBits .f32 b := rfl

/-! ## A context of a block and the block product, in the form the payloads meet them -/

private theorem ctx_0 {α : Type} (v : S256x4x256.Idx → α) (h : S256x4x256.Slices ![0, 0, 0] S256x1x256)
    (h' : S256x1x256.ShapeCasts S256x256) (p d : Fin 256) :
    shapeCast S256x256 (extractStridedSlice S256x1x256 ![0, 0, 0] v h) h' (ix2 p d) = v (ix3 p 0 d) :=
  ctxRows_apply 0 v h h' (0 : Fin 4) rfl p d

private theorem ctx_1 {α : Type} (v : S256x4x256.Idx → α) (h : S256x4x256.Slices ![0, 1, 0] S256x1x256)
    (h' : S256x1x256.ShapeCasts S256x256) (p d : Fin 256) :
    shapeCast S256x256 (extractStridedSlice S256x1x256 ![0, 1, 0] v h) h' (ix2 p d) = v (ix3 p 1 d) :=
  ctxRows_apply 1 v h h' (1 : Fin 4) rfl p d

private theorem ctx_2 {α : Type} (v : S256x4x256.Idx → α) (h : S256x4x256.Slices ![0, 2, 0] S256x1x256)
    (h' : S256x1x256.ShapeCasts S256x256) (p d : Fin 256) :
    shapeCast S256x256 (extractStridedSlice S256x1x256 ![0, 2, 0] v h) h' (ix2 p d) = v (ix3 p 2 d) :=
  ctxRows_apply 2 v h h' (2 : Fin 4) rfl p d

private theorem ctx_3 {α : Type} (v : S256x4x256.Idx → α) (h : S256x4x256.Slices ![0, 3, 0] S256x1x256)
    (h' : S256x1x256.ShapeCasts S256x256) (p d : Fin 256) :
    shapeCast S256x256 (extractStridedSlice S256x1x256 ![0, 3, 0] v h) h' (ix2 p d) = v (ix3 p 3 d) :=
  ctxRows_apply 3 v h h' (3 : Fin 4) rfl p d

/-- The block product added to an accumulator: at (p, q) the accumulator's entry plus the sum over d of A (p, d) · B (q, d). -/
private theorem mm_apply (A B acc : FVec Ideal S256x256 .f32) (p q : Fin 256) :
    matmul dot_S256x256_S256x256_S256x256_1_1_0_0_n_n (some .fp32) A B acc (ix2 p q)
      = acc (ix2 p q) + ∑ d : Fin 256, A (ix2 p d) * B (ix2 q d) := by
  simp only [matmul]
  rw [Ideal.matmul_apply, ← Equiv.sum_comp (contrEquiv1 DD 256 rfl rfl).symm]
  refine congrArg (fun s => acc (ix2 p q) + s) (Finset.sum_congr rfl fun k _ => ?_)
  have hk := contrEquiv1_symm_val DD 256 rfl rfl k
  have el : DD.lhsIdx (ix2 p q) ((contrEquiv1 DD 256 rfl rfl).symm k) = ix2 p k := funext fun a => Fin.ext (by
    match a with
    | ⟨0, _⟩ => exact dd_lhs0 _ _
    | ⟨1, _⟩ => exact (dd_lhs1 _ _).trans hk)
  have er : DD.rhsIdx (ix2 p q) ((contrEquiv1 DD 256 rfl rfl).symm k) = ix2 q k := funext fun a => Fin.ext (by
    match a with
    | ⟨0, _⟩ => exact dd_rhs0 _ _
    | ⟨1, _⟩ => exact (dd_rhs1 _ _).trans hk)
  rw [el, er]

/-! ## Pointwise values -/

theorem pay59_apply (v123 v126 : FVec Ideal S256x256 .f32) (p q : Fin 256) :
    k0_pay59 (F := Ideal) v123 v126 (ix2 p q) = Ideal.exp (v123 (ix2 p q) - v126 (ix2 p q)) := rfl

theorem pay68_apply (v4 : Vec Ideal S256x4x256 .f32) (v188 v193 v198 v200 cst_76 : FVec Ideal S256x256 .f32) (p q : Fin 256) :
    k0_pay68 (F := Ideal) v4 v188 v193 v198 v200 cst_76 (ix2 p q)
      = max (max (max (v193 (ix2 p q)) (v198 (ix2 p q))) (k0_pay66 (F := Ideal) v188 v200 cst_76 (ix2 p q)))
          (k0_pay67 (F := Ideal) v4 v188 (ix2 p q)) := rfl

theorem pay69_apply (v4 : Vec Ideal S256x4x256 .f32) (v188 v193 v198 v200 cst_76 : FVec Ideal S256x256 .f32) (p q : Fin 256) :
    k0_pay69 (F := Ideal) v4 v188 v193 v198 v200 cst_76 (ix2 p q)
      = Ideal.exp (v193 (ix2 p q) - k0_pay68 (F := Ideal) v4 v188 v193 v198 v200 cst_76 (ix2 p q)) := rfl

theorem pay71_apply (v4 : Vec Ideal S256x4x256 .f32) (v188 v193 v198 v200 cst_76 : FVec Ideal S256x256 .f32) (p q : Fin 256) :
    k0_pay71 (F := Ideal) v4 v188 v193 v198 v200 cst_76 (ix2 p q)
      = Ideal.exp (v198 (ix2 p q) - k0_pay68 (F := Ideal) v4 v188 v193 v198 v200 cst_76 (ix2 p q)) := rfl

theorem pay74_apply (v203 v211 : FVec Ideal S256x256 .f32) (p q : Fin 256) :
    k0_pay74 (F := Ideal) v203 v211 (ix2 p q) = Ideal.exp (v203 (ix2 p q) - v211 (ix2 p q)) := rfl

theorem pay76_apply (v208 v211 : FVec Ideal S256x256 .f32) (p q : Fin 256) :
    k0_pay76 (F := Ideal) v208 v211 (ix2 p q) = Ideal.exp (v208 (ix2 p q) - v211 (ix2 p q)) := rfl

theorem pay82_apply (v281 : FVec Ideal S256x256 .f32) (cst_107 : Ideal .f32) (p q : Fin 256) :
    k0_pay82 (F := Ideal) v281 cst_107 (ix2 p q) = Ideal.div (v281 (ix2 p q)) cst_107 := rfl

theorem pay85_apply (v4 : Vec Ideal S256x4x256 .f32) (v273 v278 v281 : FVec Ideal S256x256 .f32) (cst_107 : Ideal .f32)
    (p q : Fin 256) :
    k0_pay85 (F := Ideal) v4 v273 v278 v281 cst_107 (ix2 p q)
      = max (max (max (v278 (ix2 p q)) (k0_pay82 (F := Ideal) v281 cst_107 (ix2 p q))) (k0_pay83 (F := Ideal) v4 v273 (ix2 p q)))
          (k0_pay84 (F := Ideal) v4 v273 (ix2 p q)) := rfl

theorem pay86_apply (v4 : Vec Ideal S256x4x256 .f32) (v273 v278 v281 : FVec Ideal S256x256 .f32) (cst_107 : Ideal .f32)
    (p q : Fin 256) :
    k0_pay86 (F := Ideal) v4 v273 v278 v281 cst_107 (ix2 p q)
      = Ideal.exp (v278 (ix2 p q) - k0_pay85 (F := Ideal) v4 v273 v278 v281 cst_107 (ix2 p q)) := rfl

theorem pay88_apply (v4 : Vec Ideal S256x4x256 .f32) (v273 v278 v281 : FVec Ideal S256x256 .f32) (cst_107 : Ideal .f32)
    (p q : Fin 256) :
    k0_pay88 (F := Ideal) v4 v273 v278 v281 cst_107 (ix2 p q)
      = Ideal.exp (k0_pay82 (F := Ideal) v281 cst_107 (ix2 p q) - k0_pay85 (F := Ideal) v4 v273 v278 v281 cst_107 (ix2 p q)) := rfl

theorem pay92_apply (v288 v296 : FVec Ideal S256x256 .f32) (p q : Fin 256) :
    k0_pay92 (F := Ideal) v288 v296 (ix2 p q) = Ideal.exp (v288 (ix2 p q) - v296 (ix2 p q)) := rfl

theorem pay94_apply (v293 v296 : FVec Ideal S256x256 .f32) (p q : Fin 256) :
    k0_pay94 (F := Ideal) v293 v296 (ix2 p q) = Ideal.exp (v293 (ix2 p q) - v296 (ix2 p q)) := rfl

theorem pay91_apply (v323 : FVec Ideal S256 .f32) (p : Fin 256) :
    k0_pay91 (F := Ideal) v323 (ix2 p 0) = v323 (ix1 p) := by
  unfold k0_pay91; exact cast_col_apply v323 _ p 0

/-! ## One context of a block, and the products of contexts -/

theorem pay62_apply (v3 : Vec Ideal S256x4x256 .f32) (p d : Fin 256) :
    k0_pay62 (F := Ideal) v3 (ix2 p d) = v3 (ix3 p 2 d) := by
  unfold k0_pay62; exact ctx_2 v3 _ _ p d

theorem pay65_apply (v4 : Vec Ideal S256x4x256 .f32) (p d : Fin 256) :
    k0_pay65 (F := Ideal) v4 (ix2 p d) = v4 (ix3 p 2 d) := by
  unfold k0_pay65; exact ctx_2 v4 _ _ p d

theorem pay79_apply (v3 : Vec Ideal S256x4x256 .f32) (p d : Fin 256) :
    k0_pay79 (F := Ideal) v3 (ix2 p d) = v3 (ix3 p 3 d) := by
  unfold k0_pay79; exact ctx_3 v3 _ _ p d

theorem pay63_apply (v3 v4 : Vec Ideal S256x4x256 .f32) (p q : Fin 256) :
    k0_pay63 (F := Ideal) v3 v4 (ix2 p q)
      = Ideal.div (∑ d : Fin 256, v3 (ix3 p 2 d) * v4 (ix3 q 0 d)) (Ideal.ofBits .f32 0x3F800000#32) := by
  unfold k0_pay63
  simp only [divf_apply, broadcast_apply, mm_apply, constant_apply, ctx_0, pay62_apply, scalar_ofBits',
    Ideal.ofBits_zero_f32, zero_add]

theorem pay64_apply (v3 v4 : Vec Ideal S256x4x256 .f32) (p q : Fin 256) :
    k0_pay64 (F := Ideal) v3 v4 (ix2 p q)
      = Ideal.div (∑ d : Fin 256, v3 (ix3 p 2 d) * v4 (ix3 q 1 d)) (Ideal.ofBits .f32 0x3F800000#32) := by
  unfold k0_pay64
  simp only [divf_apply, broadcast_apply, mm_apply, constant_apply, ctx_1, pay62_apply, scalar_ofBits',
    Ideal.ofBits_zero_f32, zero_add]

theorem pay66_apply (v188 v200 cst_76 : FVec Ideal S256x256 .f32) (p q : Fin 256) :
    k0_pay66 (F := Ideal) v188 v200 cst_76 (ix2 p q)
      = Ideal.div (cst_76 (ix2 p q) + ∑ d : Fin 256, v188 (ix2 p d) * v200 (ix2 q d)) (Ideal.ofBits .f32 0x3F800000#32) := by
  unfold k0_pay66
  simp only [divf_apply, broadcast_apply, mm_apply, scalar_ofBits']

theorem pay67_apply (v4 : Vec Ideal S256x4x256 .f32) (v188 : FVec Ideal S256x256 .f32) (p q : Fin 256) :
    k0_pay67 (F := Ideal) v4 v188 (ix2 p q)
      = Ideal.div (∑ d : Fin 256, v188 (ix2 p d) * v4 (ix3 q 3 d)) (Ideal.ofBits .f32 0x3F800000#32) := by
  unfold k0_pay67
  simp only [divf_apply, broadcast_apply, mm_apply, constant_apply, ctx_3, scalar_ofBits', Ideal.ofBits_zero_f32, zero_add]

theorem pay80_apply (v3 v4 : Vec Ideal S256x4x256 .f32) (p q : Fin 256) :
    k0_pay80 (F := Ideal) v3 v4 (ix2 p q)
      = Ideal.div (∑ d : Fin 256, v3 (ix3 p 3 d) * v4 (ix3 q 0 d)) (Ideal.ofBits .f32 0x3F800000#32) := by
  unfold k0_pay80
  simp only [divf_apply, broadcast_apply, mm_apply, constant_apply, ctx_0, pay79_apply, scalar_ofBits',
    Ideal.ofBits_zero_f32, zero_add]

theorem pay81_apply (v3 v4 : Vec Ideal S256x4x256 .f32) (p q : Fin 256) :
    k0_pay81 (F := Ideal) v3 v4 (ix2 p q) = ∑ d : Fin 256, v3 (ix3 p 3 d) * v4 (ix3 q 1 d) := by
  unfold k0_pay81
  simp only [mm_apply, constant_apply, ctx_1, pay79_apply, Ideal.ofBits_zero_f32, zero_add]

theorem pay83_apply (v4 : Vec Ideal S256x4x256 .f32) (v273 : FVec Ideal S256x256 .f32) (p q : Fin 256) :
    k0_pay83 (F := Ideal) v4 v273 (ix2 p q)
      = Ideal.div (∑ d : Fin 256, v273 (ix2 p d) * v4 (ix3 q 2 d)) (Ideal.ofBits .f32 0x3F800000#32) := by
  unfold k0_pay83
  simp only [divf_apply, broadcast_apply, mm_apply, constant_apply, ctx_2, scalar_ofBits', Ideal.ofBits_zero_f32, zero_add]

theorem pay84_apply (v4 : Vec Ideal S256x4x256 .f32) (v273 : FVec Ideal S256x256 .f32) (p q : Fin 256) :
    k0_pay84 (F := Ideal) v4 v273 (ix2 p q)
      = Ideal.div (∑ d : Fin 256, v273 (ix2 p d) * v4 (ix3 q 3 d)) (Ideal.ofBits .f32 0x3F800000#32) := by
  unfold k0_pay84
  simp only [divf_apply, broadcast_apply, mm_apply, constant_apply, ctx_3, scalar_ofBits', Ideal.ofBits_zero_f32, zero_add]

/-! ## A row's masked sum added to a column of the accumulator -/

theorem pay58_apply (v15 v158 : FVec Ideal S256x256 .f32) (v166 : Vec Ideal S256x1 .f32) (p : Fin 256) :
    k0_pay58 (F := Ideal) v15 v158 v166 (ix2 p 0)
      = v166 (ix2 p 0) + ∑ q : Fin 256, v158 (ix2 p q) * v15 (ix2 p q) := by
  unfold k0_pay58
  exact colAcc_apply (mulf v158 v15) v166 _ _ _ _ _ p

theorem pay61_apply (v15 v123 v126 : FVec Ideal S256x256 .f32) (v181 : Vec Ideal S256x1 .f32) (p : Fin 256) :
    k0_pay61 (F := Ideal) v15 v123 v126 v181 (ix2 p 0)
      = v181 (ix2 p 0) + ∑ q : Fin 256, k0_pay59 (F := Ideal) v123 v126 (ix2 p q) * v15 (ix2 p q) := by
  unfold k0_pay61
  exact colAcc_apply (mulf (k0_pay59 (F := Ideal) v123 v126) v15) v181 _ _ _ _ _ p

theorem pay70_apply (v4 : Vec Ideal S256x4x256 .f32) (v15 v188 v193 v198 v200 cst_76 : FVec Ideal S256x256 .f32) (v221 : Vec Ideal S256x1 .f32) (p : Fin 256) :
    k0_pay70 (F := Ideal) v4 v15 v188 v193 v198 v200 cst_76 v221 (ix2 p 0)
      = v221 (ix2 p 0) + ∑ q : Fin 256, k0_pay69 (F := Ideal) v4 v188 v193 v198 v200 cst_76 (ix2 p q) * v15 (ix2 p q) := by
  unfold k0_pay70
  exact colAcc_apply (mulf (k0_pay69 (F := Ideal) v4 v188 v193 v198 v200 cst_76) v15) v221 _ _ _ _ _ p

theorem pay73_apply (v4 : Vec Ideal S256x4x256 .f32) (v15 v188 v193 v198 v200 cst_76 : FVec Ideal S256x256 .f32) (v236 : Vec Ideal S256x1 .f32) (p : Fin 256) :
    k0_pay73 (F := Ideal) v4 v15 v188 v193 v198 v200 cst_76 v236 (ix2 p 0)
      = v236 (ix2 p 0) + ∑ q : Fin 256, k0_pay71 (F := Ideal) v4 v188 v193 v198 v200 cst_76 (ix2 p q) * v15 (ix2 p q) := by
  unfold k0_pay73
  exact colAcc_apply (mulf (k0_pay71 (F := Ideal) v4 v188 v193 v198 v200 cst_76) v15) v236 _ _ _ _ _ p

theorem pay75_apply (v15 v203 v211 : FVec Ideal S256x256 .f32) (v251 : Vec Ideal S256x1 .f32) (p : Fin 256) :
    k0_pay75 (F := Ideal) v15 v203 v211 v251 (ix2 p 0)
      = v251 (ix2 p 0) + ∑ q : Fin 256, k0_pay74 (F := Ideal) v203 v211 (ix2 p q) * v15 (ix2 p q) := by
  unfold k0_pay75
  exact colAcc_apply (mulf (k0_pay74 (F := Ideal) v203 v211) v15) v251 _ _ _ _ _ p

theorem pay78_apply (v15 v208 v211 : FVec Ideal S256x256 .f32) (v266 : Vec Ideal S256x1 .f32) (p : Fin 256) :
    k0_pay78 (F := Ideal) v15 v208 v211 v266 (ix2 p 0)
      = v266 (ix2 p 0) + ∑ q : Fin 256, k0_pay76 (F := Ideal) v208 v211 (ix2 p q) * v15 (ix2 p q) := by
  unfold k0_pay78
  exact colAcc_apply (mulf (k0_pay76 (F := Ideal) v208 v211) v15) v266 _ _ _ _ _ p

theorem pay87_apply (v4 : Vec Ideal S256x4x256 .f32) (v15 v273 v278 v281 : FVec Ideal S256x256 .f32) (cst_107 : Ideal .f32) (v306 : Vec Ideal S256x1 .f32) (p : Fin 256) :
    k0_pay87 (F := Ideal) v4 v15 v273 v278 v281 cst_107 v306 (ix2 p 0)
      = v306 (ix2 p 0) + ∑ q : Fin 256, k0_pay86 (F := Ideal) v4 v273 v278 v281 cst_107 (ix2 p q) * v15 (ix2 p q) := by
  unfold k0_pay87
  exact colAcc_apply (mulf (k0_pay86 (F := Ideal) v4 v273 v278 v281 cst_107) v15) v306 _ _ _ _ _ p

theorem pay93_apply (v15 v288 v296 : FVec Ideal S256x256 .f32) (v336 : Vec Ideal S256x1 .f32) (p : Fin 256) :
    k0_pay93 (F := Ideal) v15 v288 v296 v336 (ix2 p 0)
      = v336 (ix2 p 0) + ∑ q : Fin 256, k0_pay92 (F := Ideal) v288 v296 (ix2 p q) * v15 (ix2 p q) := by
  unfold k0_pay93
  exact colAcc_apply (mulf (k0_pay92 (F := Ideal) v288 v296) v15) v336 _ _ _ _ _ p

theorem pay95_apply (v15 v293 v296 : FVec Ideal S256x256 .f32) (v351 : Vec Ideal S256x1 .f32) (p : Fin 256) :
    k0_pay95 (F := Ideal) v15 v293 v296 v351 (ix2 p 0)
      = v351 (ix2 p 0) + ∑ q : Fin 256, k0_pay94 (F := Ideal) v293 v296 (ix2 p q) * v15 (ix2 p q) := by
  unfold k0_pay95
  exact colAcc_apply (mulf (k0_pay94 (F := Ideal) v293 v296) v15) v351 _ _ _ _ _ p

theorem pay90_apply (v4 : Vec Ideal S256x4x256 .f32) (v15 v273 v278 v281 : FVec Ideal S256x256 .f32) (cst_107 : Ideal .f32) (v321 : Vec Ideal S256x1 .f32) (p : Fin 256) :
    k0_pay90 (F := Ideal) v4 v15 v273 v278 v281 cst_107 v321 (ix1 p)
      = v321 (ix2 p 0) + ∑ q : Fin 256, k0_pay88 (F := Ideal) v4 v273 v278 v281 cst_107 (ix2 p q) * v15 (ix2 p q) := by
  unfold k0_pay90
  simp only [addf_apply, cast_vec_apply]
  rw [rowSum_apply]
  rfl

/-! ## A row's clamped squares added to the running total -/

theorem pay60_apply (v123 v126 : FVec Ideal S256x256 .f32) (v148 : FVec Ideal S256 .f32) (v159 v160 : FVec Ideal S256x256 .f32) (p : Fin 256) :
    k0_pay60 (F := Ideal) v123 v126 v148 v159 v160 (ix1 p)
      = v148 (ix1 p) + ∑ q : Fin 256, max (v159 (ix2 p q)) (v160 (ix2 p q))
        + ∑ q : Fin 256, Cert.LossSpec.clampSq (k0_pay59 (F := Ideal) v123 v126 (ix2 p q)) := by
  unfold k0_pay60
  simp only [addf_apply]
  rw [rowSum_apply, rowSum_apply]
  rfl

theorem pay72_apply (v4 : Vec Ideal S256x4x256 .f32) (v178 : FVec Ideal S256 .f32) (v188 v193 v198 v200 cst_76 : FVec Ideal S256x256 .f32) (p : Fin 256) :
    k0_pay72 (F := Ideal) v4 v178 v188 v193 v198 v200 cst_76 (ix1 p)
      = v178 (ix1 p) + ∑ q : Fin 256, Cert.LossSpec.clampSq (k0_pay69 (F := Ideal) v4 v188 v193 v198 v200 cst_76 (ix2 p q))
        + ∑ q : Fin 256, Cert.LossSpec.clampSq (k0_pay71 (F := Ideal) v4 v188 v193 v198 v200 cst_76 (ix2 p q)) := by
  unfold k0_pay72
  simp only [addf_apply]
  rw [rowSum_apply, rowSum_apply]
  rfl

theorem pay77_apply (v203 v208 v211 : FVec Ideal S256x256 .f32) (v233 : FVec Ideal S256 .f32) (p : Fin 256) :
    k0_pay77 (F := Ideal) v203 v208 v211 v233 (ix1 p)
      = v233 (ix1 p) + ∑ q : Fin 256, Cert.LossSpec.clampSq (k0_pay74 (F := Ideal) v203 v211 (ix2 p q))
        + ∑ q : Fin 256, Cert.LossSpec.clampSq (k0_pay76 (F := Ideal) v208 v211 (ix2 p q)) := by
  unfold k0_pay77
  simp only [addf_apply]
  rw [rowSum_apply, rowSum_apply]
  rfl

theorem pay89_apply (v4 : Vec Ideal S256x4x256 .f32) (v263 : FVec Ideal S256 .f32) (v273 v278 v281 : FVec Ideal S256x256 .f32) (cst_107 : Ideal .f32) (p : Fin 256) :
    k0_pay89 (F := Ideal) v4 v263 v273 v278 v281 cst_107 (ix1 p)
      = v263 (ix1 p) + ∑ q : Fin 256, Cert.LossSpec.clampSq (k0_pay86 (F := Ideal) v4 v273 v278 v281 cst_107 (ix2 p q))
        + ∑ q : Fin 256, Cert.LossSpec.clampSq (k0_pay88 (F := Ideal) v4 v273 v278 v281 cst_107 (ix2 p q)) := by
  unfold k0_pay89
  simp only [addf_apply]
  rw [rowSum_apply, rowSum_apply]
  rfl

theorem pay96_apply (v288 v293 v296 : FVec Ideal S256x256 .f32) (v318 : FVec Ideal S256 .f32) (v357 : Vec Ideal S256x1 .f32) (p : Fin 256) :
    k0_pay96 (F := Ideal) v288 v293 v296 v318 v357 (ix1 p)
      = v357 (ix2 p 0) + (v318 (ix1 p) + ∑ q : Fin 256, Cert.LossSpec.clampSq (k0_pay92 (F := Ideal) v288 v296 (ix2 p q))
        + ∑ q : Fin 256, Cert.LossSpec.clampSq (k0_pay94 (F := Ideal) v293 v296 (ix2 p q))) := by
  unfold k0_pay96
  simp only [addf_apply, cast_vec_apply]
  rw [rowSum_apply, rowSum_apply]
  rfl

end Cert.KernelIdeal.PayRead

end
-- ==== Proof.PayFinal.lean ====
/-
  The final part of the kernel, read at an index over the extended reals.

  At the last column block the kernel reads the sixteen columns of its [256, 16] accumulator (column 4 j + l holds the
  masked sum of the pair of contexts (j, l) of a row with itself) and its [256, 1] accumulator of clamped squares, and
  forms, per row p,
      -2 * ((sum of the twelve columns with j ≠ l) / 12) + (squares − sum over the sixteen columns of max (col², c)) / 32752.
  Each pure value of that part is read here at a row as arithmetic of the accumulators' entries at that row.
-/
import proofs.«150541_j83794811945494_1_alg».proof.Proof.LibCols
import proofs.«150541_j83794811945494_1_alg».proof.Proof.Spec
import proofs.«150541_j83794811945494_1_alg».proof.Proof.BlockSpec
import Idealize.ShloMosaic.PureOps.Ideal.Laws

noncomputable section

open scoped BigOperators

namespace Cert.KernelIdeal.PayRead

open Idealize.ShloMosaic Idealize.ShloMosaic.ValueIdx Cert.KernelIdeal.Gen

/-- A float literal of the kernel, at the extended reals, is the value of its word. -/
private theorem scalar_ofBits (b : BitVec 32) : (Scalar.ofBits .f32 b : Ideal .f32) = Ideal.ofBits .f32 b := rfl

/-! ## The sixteen columns of the accumulator as vectors -/

theorem col_0 {α : Type} (v : S256x16.Idx → α) (h : S256x16.Slices ![0, 0] S256x1) (h' : S256x1.ShapeCasts S256) (p : Fin 256) :
    shapeCast S256 (extractStridedSlice S256x1 ![0, 0] v h) h' (ix1 p) = v (ix2 p 0) :=
  col_apply 0 (by omega) v h h' p

theorem col_1 {α : Type} (v : S256x16.Idx → α) (h : S256x16.Slices ![0, 1] S256x1) (h' : S256x1.ShapeCasts S256) (p : Fin 256) :
    shapeCast S256 (extractStridedSlice S256x1 ![0, 1] v h) h' (ix1 p) = v (ix2 p 1) :=
  col_apply 1 (by omega) v h h' p

theorem col_2 {α : Type} (v : S256x16.Idx → α) (h : S256x16.Slices ![0, 2] S256x1) (h' : S256x1.ShapeCasts S256) (p : Fin 256) :
    shapeCast S256 (extractStridedSlice S256x1 ![0, 2] v h) h' (ix1 p) = v (ix2 p 2) :=
  col_apply 2 (by omega) v h h' p

theorem col_3 {α : Type} (v : S256x16.Idx → α) (h : S256x16.Slices ![0, 3] S256x1) (h' : S256x1.ShapeCasts S256) (p : Fin 256) :
    shapeCast S256 (extractStridedSlice S256x1 ![0, 3] v h) h' (ix1 p) = v (ix2 p 3) :=
  col_apply 3 (by omega) v h h' p

theorem col_4 {α : Type} (v : S256x16.Idx → α) (h : S256x16.Slices ![0, 4] S256x1) (h' : S256x1.ShapeCasts S256) (p : Fin 256) :
    shapeCast S256 (extractStridedSlice S256x1 ![0, 4] v h) h' (ix1 p) = v (ix2 p 4) :=
  col_apply 4 (by omega) v h h' p

theorem col_5 {α : Type} (v : S256x16.Idx → α) (h : S256x16.Slices ![0, 5] S256x1) (h' : S256x1.ShapeCasts S256) (p : Fin 256) :
    shapeCast S256 (extractStridedSlice S256x1 ![0, 5] v h) h' (ix1 p) = v (ix2 p 5) :=
  col_apply 5 (by omega) v h h' p

theorem col_6 {α : Type} (v : S256x16.Idx → α) (h : S256x16.Slices ![0, 6] S256x1) (h' : S256x1.ShapeCasts S256) (p : Fin 256) :
    shapeCast S256 (extractStridedSlice S256x1 ![0, 6] v h) h' (ix1 p) = v (ix2 p 6) :=
  col_apply 6 (by omega) v h h' p

theorem col_7 {α : Type} (v : S256x16.Idx → α) (h : S256x16.Slices ![0, 7] S256x1) (h' : S256x1.ShapeCasts S256) (p : Fin 256) :
    shapeCast S256 (extractStridedSlice S256x1 ![0, 7] v h) h' (ix1 p) = v (ix2 p 7) :=
  col_apply 7 (by omega) v h h' p

theorem col_8 {α : Type} (v : S256x16.Idx → α) (h : S256x16.Slices ![0, 8] S256x1) (h' : S256x1.ShapeCasts S256) (p : Fin 256) :
    shapeCast S256 (extractStridedSlice S256x1 ![0, 8] v h) h' (ix1 p) = v (ix2 p 8) :=
  col_apply 8 (by omega) v h h' p

theorem col_9 {α : Type} (v : S256x16.Idx → α) (h : S256x16.Slices ![0, 9] S256x1) (h' : S256x1.ShapeCasts S256) (p : Fin 256) :
    shapeCast S256 (extractStridedSlice S256x1 ![0, 9] v h) h' (ix1 p) = v (ix2 p 9) :=
  col_apply 9 (by omega) v h h' p

theorem col_10 {α : Type} (v : S256x16.Idx → α) (h : S256x16.Slices ![0, 10] S256x1) (h' : S256x1.ShapeCasts S256) (p : Fin 256) :
    shapeCast S256 (extractStridedSlice S256x1 ![0, 10] v h) h' (ix1 p) = v (ix2 p 10) :=
  col_apply 10 (by omega) v h h' p

theorem col_11 {α : Type} (v : S256x16.Idx → α) (h : S256x16.Slices ![0, 11] S256x1) (h' : S256x1.ShapeCasts S256) (p : Fin 256) :
    shapeCast S256 (extractStridedSlice S256x1 ![0, 11] v h) h' (ix1 p) = v (ix2 p 11) :=
  col_apply 11 (by omega) v h h' p

theorem col_12 {α : Type} (v : S256x16.Idx → α) (h : S256x16.Slices ![0, 12] S256x1) (h' : S256x1.ShapeCasts S256) (p : Fin 256) :
    shapeCast S256 (extractStridedSlice S256x1 ![0, 12] v h) h' (ix1 p) = v (ix2 p 12) :=
  col_apply 12 (by omega) v h h' p

theorem col_13 {α : Type} (v : S256x16.Idx → α) (h : S256x16.Slices ![0, 13] S256x1) (h' : S256x1.ShapeCasts S256) (p : Fin 256) :
    shapeCast S256 (extractStridedSlice S256x1 ![0, 13] v h) h' (ix1 p) = v (ix2 p 13) :=
  col_apply 13 (by omega) v h h' p

theorem col_14 {α : Type} (v : S256x16.Idx → α) (h : S256x16.Slices ![0, 14] S256x1) (h' : S256x1.ShapeCasts S256) (p : Fin 256) :
    shapeCast S256 (extractStridedSlice S256x1 ![0, 14] v h) h' (ix1 p) = v (ix2 p 14) :=
  col_apply 14 (by omega) v h h' p

theorem col_15 {α : Type} (v : S256x16.Idx → α) (h : S256x16.Slices ![0, 15] S256x1) (h' : S256x1.ShapeCasts S256) (p : Fin 256) :
    shapeCast S256 (extractStridedSlice S256x1 ![0, 15] v h) h' (ix1 p) = v (ix2 p 15) :=
  col_apply 15 (by omega) v h h' p

/-! ## The payloads that are one column -/

theorem pay3_apply (v366 : Vec Ideal S256x16 .f32) (p : Fin 256) :
    k0_pay3 (F := Ideal) v366 (ix1 p) = v366 (ix2 p 1) := by
  unfold k0_pay3; exact col_1 v366 _ _ p

theorem pay4_apply (v366 : Vec Ideal S256x16 .f32) (p : Fin 256) :
    k0_pay4 (F := Ideal) v366 (ix1 p) = v366 (ix2 p 2) := by
  unfold k0_pay4; exact col_2 v366 _ _ p

theorem pay5_apply (v366 : Vec Ideal S256x16 .f32) (p : Fin 256) :
    k0_pay5 (F := Ideal) v366 (ix1 p) = v366 (ix2 p 3) := by
  unfold k0_pay5; exact col_3 v366 _ _ p

theorem pay6_apply (v366 : Vec Ideal S256x16 .f32) (p : Fin 256) :
    k0_pay6 (F := Ideal) v366 (ix1 p) = v366 (ix2 p 4) := by
  unfold k0_pay6; exact col_4 v366 _ _ p

theorem pay8_apply (v366 : Vec Ideal S256x16 .f32) (p : Fin 256) :
    k0_pay8 (F := Ideal) v366 (ix1 p) = v366 (ix2 p 6) := by
  unfold k0_pay8; exact col_6 v366 _ _ p

theorem pay10_apply (v366 : Vec Ideal S256x16 .f32) (p : Fin 256) :
    k0_pay10 (F := Ideal) v366 (ix1 p) = v366 (ix2 p 7) := by
  unfold k0_pay10; exact col_7 v366 _ _ p

theorem pay11_apply (v366 : Vec Ideal S256x16 .f32) (p : Fin 256) :
    k0_pay11 (F := Ideal) v366 (ix1 p) = v366 (ix2 p 8) := by
  unfold k0_pay11; exact col_8 v366 _ _ p

theorem pay12_apply (v366 : Vec Ideal S256x16 .f32) (p : Fin 256) :
    k0_pay12 (F := Ideal) v366 (ix1 p) = v366 (ix2 p 9) := by
  unfold k0_pay12; exact col_9 v366 _ _ p

theorem pay13_apply (v366 : Vec Ideal S256x16 .f32) (p : Fin 256) :
    k0_pay13 (F := Ideal) v366 (ix1 p) = v366 (ix2 p 11) := by
  unfold k0_pay13; exact col_11 v366 _ _ p

theorem pay14_apply (v366 : Vec Ideal S256x16 .f32) (p : Fin 256) :
    k0_pay14 (F := Ideal) v366 (ix1 p) = v366 (ix2 p 12) := by
  unfold k0_pay14; exact col_12 v366 _ _ p

theorem pay15_apply (v366 : Vec Ideal S256x16 .f32) (p : Fin 256) :
    k0_pay15 (F := Ideal) v366 (ix1 p) = v366 (ix2 p 13) := by
  unfold k0_pay15; exact col_13 v366 _ _ p

theorem pay18_apply (v366 : Vec Ideal S256x16 .f32) (p : Fin 256) :
    k0_pay18 (F := Ideal) v366 (ix1 p) = v366 (ix2 p 14) := by
  unfold k0_pay18; exact col_14 v366 _ _ p

/-! ## Sums of columns and of clamped squares -/

theorem pay7_apply (v366 : Vec Ideal S256x16 .f32) (p : Fin 256) :
    k0_pay7 (F := Ideal) v366 (ix1 p) = v366 (ix2 p 1) + v366 (ix2 p 2) + v366 (ix2 p 3) + v366 (ix2 p 4) := by
  unfold k0_pay7
  simp only [addf_apply, broadcast_apply, pay3_apply, pay4_apply, pay5_apply, pay6_apply, scalar_ofBits,
    Ideal.ofBits_zero_f32, zero_add]

theorem pay9_apply (v366 : Vec Ideal S256x16 .f32) (p : Fin 256) :
    k0_pay9 (F := Ideal) v366 (ix1 p)
      = Cert.LossSpec.clampSq (v366 (ix2 p 0)) + Cert.LossSpec.clampSq (v366 (ix2 p 1))
        + Cert.LossSpec.clampSq (v366 (ix2 p 2)) + Cert.LossSpec.clampSq (v366 (ix2 p 3))
        + Cert.LossSpec.clampSq (v366 (ix2 p 4)) + Cert.LossSpec.clampSq (v366 (ix2 p 5))
        + Cert.LossSpec.clampSq (v366 (ix2 p 6)) := by
  unfold k0_pay9
  simp only [addf_apply, mulf_apply, maximumf_apply, broadcast_apply, pay3_apply, pay4_apply, pay5_apply, pay6_apply,
    pay8_apply, col_0, col_5, scalar_ofBits, Ideal.ofBits_zero_f32, zero_add]
  rfl

theorem pay16_apply (v366 : Vec Ideal S256x16 .f32) (v414 : FVec Ideal S256 .f32) (p : Fin 256) :
    k0_pay16 (F := Ideal) v366 v414 (ix1 p)
      = v414 (ix1 p) + Cert.LossSpec.clampSq (v366 (ix2 p 7)) + Cert.LossSpec.clampSq (v366 (ix2 p 8))
        + Cert.LossSpec.clampSq (v366 (ix2 p 9)) + Cert.LossSpec.clampSq (v366 (ix2 p 10))
        + Cert.LossSpec.clampSq (v366 (ix2 p 11)) + Cert.LossSpec.clampSq (v366 (ix2 p 12))
        + Cert.LossSpec.clampSq (v366 (ix2 p 13)) := by
  unfold k0_pay16
  simp only [addf_apply, mulf_apply, maximumf_apply, broadcast_apply, pay10_apply, pay11_apply, pay12_apply,
    pay13_apply, pay14_apply, pay15_apply, col_10, scalar_ofBits]
  rfl

theorem pay17_apply (v366 : Vec Ideal S256x16 .f32) (v402 v410 : FVec Ideal S256 .f32) (p : Fin 256) :
    k0_pay17 (F := Ideal) v366 v402 v410 (ix1 p)
      = v402 (ix1 p) + v410 (ix1 p) + v366 (ix2 p 7) + v366 (ix2 p 8) + v366 (ix2 p 9) + v366 (ix2 p 11)
        + v366 (ix2 p 12) + v366 (ix2 p 13) := by
  unfold k0_pay17
  simp only [addf_apply, pay10_apply, pay11_apply, pay12_apply, pay13_apply, pay14_apply, pay15_apply]

theorem pay19_apply (v366 : Vec Ideal S256x16 .f32) (p : Fin 256) :
    k0_pay19 (F := Ideal) v366 (ix1 p) = v366 (ix2 p 14) * v366 (ix2 p 14) := by
  unfold k0_pay19
  simp only [mulf_apply, pay18_apply]

/-! ## The two zero fills and the running total as a column -/

theorem pay20_ix_apply (p : Fin 256) (c : Fin 16) : k0_pay20 (F := Ideal) (ix2 p c) = 0 := by
  unfold k0_pay20
  rw [shapeCast_self]
  simp only [broadcast_apply, scalar_ofBits, Ideal.ofBits_zero_f32]

theorem pay21_ix_apply (p : Fin 256) : k0_pay21 (F := Ideal) (ix2 p 0) = 0 := by
  unfold k0_pay21
  rw [shapeCast_self]
  simp only [broadcast_apply, scalar_ofBits, Ideal.ofBits_zero_f32]

theorem pay1_apply (v359 : FVec Ideal S256 .f32) (p : Fin 256) :
    k0_pay1 (F := Ideal) v359 (ix2 p 0) = v359 (ix1 p) := by
  unfold k0_pay1; exact cast_col_apply v359 _ p 0

/-! ## The loss of a row -/

theorem pay2_apply (v366 : Vec Ideal S256x16 .f32) (v462 v463 v465 v466 : FVec Ideal S256 .f32) (cst_159 : Ideal .f32)
    (v479 : Vec Ideal S256x1 .f32) (p : Fin 256) :
    k0_pay2 (F := Ideal) v366 v462 v463 v465 v466 cst_159 v479 (ix1 p)
      = Ideal.ofBits .f32 0xC0000000#32 * Ideal.div (v463 (ix1 p) + v465 (ix1 p)) (Ideal.ofBits .f32 0x41400000#32)
        + Ideal.div (v479 (ix2 p 0) - (v462 (ix1 p) + max (v466 (ix1 p)) cst_159 + Cert.LossSpec.clampSq (v366 (ix2 p 15))))
            (Ideal.ofBits .f32 0x46FFE000#32) := by
  unfold k0_pay2
  simp only [addf_apply, subf_apply, mulf_apply, divf_apply, maximumf_apply, broadcast_apply, col_15, scalar_ofBits]
  simp only [cast_vec_apply]
  rfl

/-- The value the kernel stores for row p at the last column block, with the final part's values wired as the kernel
    passes them: minus two times the twelve off-diagonal columns' sum over twelve, plus the accumulated squares less the
    sixteen columns' clamped squares, over the number of negative pairs. Both sums in the kernel's order. -/
theorem final_apply (v366 : Vec Ideal S256x16 .f32) (v479 : Vec Ideal S256x1 .f32) (p : Fin 256) :
    k0_pay2 (F := Ideal) v366 (k0_pay16 v366 (k0_pay9 v366)) (k0_pay17 v366 (k0_pay7 v366) (k0_pay8 v366))
        (k0_pay18 v366) (k0_pay19 v366) (Scalar.ofBits .f32 0x322BCC77#32) v479 (ix1 p)
      = Cert.LossSpec.negTwo
          * Ideal.div (v366 (ix2 p 1) + v366 (ix2 p 2) + v366 (ix2 p 3) + v366 (ix2 p 4) + v366 (ix2 p 6) + v366 (ix2 p 7)
              + v366 (ix2 p 8) + v366 (ix2 p 9) + v366 (ix2 p 11) + v366 (ix2 p 12) + v366 (ix2 p 13) + v366 (ix2 p 14))
            Cert.LossSpec.twelve
        + Ideal.div (v479 (ix2 p 0)
            - (Cert.LossSpec.clampSq (v366 (ix2 p 0)) + Cert.LossSpec.clampSq (v366 (ix2 p 1))
              + Cert.LossSpec.clampSq (v366 (ix2 p 2)) + Cert.LossSpec.clampSq (v366 (ix2 p 3))
              + Cert.LossSpec.clampSq (v366 (ix2 p 4)) + Cert.LossSpec.clampSq (v366 (ix2 p 5))
              + Cert.LossSpec.clampSq (v366 (ix2 p 6)) + Cert.LossSpec.clampSq (v366 (ix2 p 7))
              + Cert.LossSpec.clampSq (v366 (ix2 p 8)) + Cert.LossSpec.clampSq (v366 (ix2 p 9))
              + Cert.LossSpec.clampSq (v366 (ix2 p 10)) + Cert.LossSpec.clampSq (v366 (ix2 p 11))
              + Cert.LossSpec.clampSq (v366 (ix2 p 12)) + Cert.LossSpec.clampSq (v366 (ix2 p 13))
              + Cert.LossSpec.clampSq (v366 (ix2 p 14)) + Cert.LossSpec.clampSq (v366 (ix2 p 15))))
            Cert.LossSpec.pairs := by
  rw [pay2_apply, pay16_apply, pay9_apply, pay17_apply, pay7_apply, pay8_apply, pay18_apply, pay19_apply]
  rfl

/-- A double sum over the pairs of contexts, written out in the order of the columns. -/
private theorem sum_pairs (f : Fin 4 → Fin 4 → EReal) :
    ∑ j : Fin 4, ∑ l : Fin 4, f j l
      = f 0 0 + f 0 1 + f 0 2 + f 0 3 + f 1 0 + f 1 1 + f 1 2 + f 1 3 + f 2 0 + f 2 1 + f 2 2 + f 2 3 + f 3 0 + f 3 1
        + f 3 2 + f 3 3 := by
  simp only [Fin.sum_univ_four, add_assoc]

/-- The stored value of row p with the two sums over the pairs of contexts (j, l): the off-diagonal columns, and every
    column's clamped square. -/
theorem final_apply_sum (v366 : Vec Ideal S256x16 .f32) (v479 : Vec Ideal S256x1 .f32) (p : Fin 256) :
    k0_pay2 (F := Ideal) v366 (k0_pay16 v366 (k0_pay9 v366)) (k0_pay17 v366 (k0_pay7 v366) (k0_pay8 v366))
        (k0_pay18 v366) (k0_pay19 v366) (Scalar.ofBits .f32 0x322BCC77#32) v479 (ix1 p)
      = Cert.LossSpec.negTwo
          * Ideal.div (∑ j : Fin 4, ∑ l : Fin 4, if j = l then 0 else v366 (ix2 p (Cert.BlockSpec.pairCol j l))) Cert.LossSpec.twelve
        + Ideal.div (v479 (ix2 p 0) - ∑ j : Fin 4, ∑ l : Fin 4, Cert.LossSpec.clampSq (v366 (ix2 p (Cert.BlockSpec.pairCol j l))))
            Cert.LossSpec.pairs := by
  rw [final_apply, sum_pairs, sum_pairs]
  have e : ∀ (x0 x1 x2 x3 x4 x5 x6 x7 x8 x9 x10 x11 x12 x13 x14 x15 : EReal),
      x1 + x2 + x3 + x4 + x6 + x7 + x8 + x9 + x11 + x12 + x13 + x14
        = (if (0 : Fin 4) = 0 then 0 else x0) + (if (0 : Fin 4) = 1 then 0 else x1) + (if (0 : Fin 4) = 2 then 0 else x2)
          + (if (0 : Fin 4) = 3 then 0 else x3) + (if (1 : Fin 4) = 0 then 0 else x4) + (if (1 : Fin 4) = 1 then 0 else x5)
          + (if (1 : Fin 4) = 2 then 0 else x6) + (if (1 : Fin 4) = 3 then 0 else x7) + (if (2 : Fin 4) = 0 then 0 else x8)
          + (if (2 : Fin 4) = 1 then 0 else x9) + (if (2 : Fin 4) = 2 then 0 else x10) + (if (2 : Fin 4) = 3 then 0 else x11)
          + (if (3 : Fin 4) = 0 then 0 else x12) + (if (3 : Fin 4) = 1 then 0 else x13) + (if (3 : Fin 4) = 2 then 0 else x14)
          + (if (3 : Fin 4) = 3 then 0 else x15) := by
    intro x0 x1 x2 x3 x4 x5 x6 x7 x8 x9 x10 x11 x12 x13 x14 x15
    rw [if_pos rfl, if_neg (by decide), if_neg (by decide), if_neg (by decide), if_neg (by decide), if_pos rfl,
      if_neg (by decide), if_neg (by decide), if_neg (by decide), if_neg (by decide), if_pos rfl, if_neg (by decide),
      if_neg (by decide), if_neg (by decide), if_neg (by decide), if_pos rfl]
    simp only [zero_add, add_zero]
  rw [e (v366 (ix2 p 0)) (v366 (ix2 p 1)) (v366 (ix2 p 2)) (v366 (ix2 p 3)) (v366 (ix2 p 4)) (v366 (ix2 p 5))
    (v366 (ix2 p 6)) (v366 (ix2 p 7)) (v366 (ix2 p 8)) (v366 (ix2 p 9)) (v366 (ix2 p 10)) (v366 (ix2 p 11))
    (v366 (ix2 p 12)) (v366 (ix2 p 13)) (v366 (ix2 p 14)) (v366 (ix2 p 15))]
  rfl

/-- The stored value of row p is the block specification's row loss of the two accumulators. -/
theorem final_apply_lossOf (v366 : Vec Ideal S256x16 .f32) (v479 : Vec Ideal S256x1 .f32) (p : Fin 256) :
    k0_pay2 (F := Ideal) v366 (k0_pay16 v366 (k0_pay9 v366)) (k0_pay17 v366 (k0_pay7 v366) (k0_pay8 v366))
        (k0_pay18 v366) (k0_pay19 v366) (Scalar.ofBits .f32 0x322BCC77#32) v479 (ix1 p)
      = Cert.BlockSpec.lossOf (fun r c => v366 (ix2 r c)) (fun r => v479 (ix2 r 0)) p :=
  final_apply_sum v366 v479 p

end Cert.KernelIdeal.PayRead

end
-- ==== Proof.PayCols.lean ====
/-
  What one grid point adds to the two accumulators, as the block specification writes it.

  The value the kernel stores back into column 4 j + l of its [256, 16] accumulator is the column's old entry plus, per
  row p, the sum over the 256 rows q of the other block of exp (sim (p, j, q, l) − top (p, j, q)) times the indicator
  that the two rows are one row of the array; the value it stores back into its [256, 1] accumulator is the old entry
  plus the sum over the sixteen pairs of contexts and the rows q of the clamped squares of those exponentials. Each is
  stated over the two loaded blocks, the grid point and the old contents, with the stored value spelt as the kernel
  composes it from its pure values.
-/
import proofs.«150541_j83794811945494_1_alg».proof.Proof.PayA
import proofs.«150541_j83794811945494_1_alg».proof.Proof.PayB
import proofs.«150541_j83794811945494_1_alg».proof.Proof.PayFinal
import proofs.«150541_j83794811945494_1_alg».proof.Proof.BlockSpec

noncomputable section

open scoped BigOperators

namespace Cert.KernelIdeal.PayRead

open Idealize.ShloMosaic Idealize.ShloMosaic.ValueIdx Cert.KernelIdeal.Gen

/-- Column 0: the pair of contexts (0, 0). -/
theorem col0_apply (i : grid0.Coords) (x0 x1 : Vec Ideal S256x4x256 .f32) (v : Vec Ideal S256x1 .f32) (p : Fin 256) :
    (k0_pay33 (F := Ideal) (k0_pay22 i) (k0_pay25 x0 x1) (k0_pay26 x0 x1) (k0_pay27 x0 x1) (k0_pay28 x0 x1) (k0_pay29
      (F := Ideal)) v) (ix2 p 0)
      = v (ix2 p 0) + Cert.BlockSpec.diagAdd x0 x1 (i 0).val (i 1).val p 0 0 := by
  simp only [pay1_apply, pay22_apply, pay23_apply, pay24_apply, pay25_apply, pay26_apply, pay27_apply, pay28_apply,
      pay29_apply, pay30_apply, pay31_apply, pay32_apply, pay33_apply, pay34_apply, pay35_apply, pay36_apply,
      pay37_apply, pay38_apply, pay39_apply, pay40_apply, pay41_apply, pay42_apply, pay43_apply, pay44_apply,
      pay45_apply, pay46_apply, pay47_apply, pay48_apply, pay49_apply, pay50_apply, pay51_apply, pay52_apply,
      pay53_apply, pay54_apply, pay55_apply, pay56_apply, pay57_apply, pay58_apply, pay59_apply, pay60_apply,
      pay61_apply, pay62_apply, pay63_apply, pay64_apply, pay65_apply, pay66_apply, pay67_apply, pay68_apply,
      pay69_apply, pay70_apply, pay71_apply, pay72_apply, pay73_apply, pay74_apply, pay75_apply, pay76_apply,
      pay77_apply, pay78_apply, pay79_apply, pay80_apply, pay81_apply, pay82_apply, pay83_apply, pay84_apply,
      pay85_apply, pay86_apply, pay87_apply, pay88_apply, pay89_apply, pay90_apply, pay91_apply, pay92_apply,
      pay93_apply, pay94_apply, pay95_apply, pay96_apply, constant_apply, Ideal.ofBits_def, Ideal.ofBits_zero_f32,
      zero_add]
  rfl

/-- Column 1: the pair of contexts (0, 1). -/
theorem col1_apply (i : grid0.Coords) (x0 x1 : Vec Ideal S256x4x256 .f32) (v : Vec Ideal S256x1 .f32) (p : Fin 256) :
    (k0_pay35 (F := Ideal) (k0_pay22 i) (k0_pay25 x0 x1) (k0_pay26 x0 x1) (k0_pay27 x0 x1) (k0_pay28 x0 x1) (k0_pay29
      (F := Ideal)) v) (ix2 p 0)
      = v (ix2 p 0) + Cert.BlockSpec.diagAdd x0 x1 (i 0).val (i 1).val p 0 1 := by
  simp only [pay1_apply, pay22_apply, pay23_apply, pay24_apply, pay25_apply, pay26_apply, pay27_apply, pay28_apply,
      pay29_apply, pay30_apply, pay31_apply, pay32_apply, pay33_apply, pay34_apply, pay35_apply, pay36_apply,
      pay37_apply, pay38_apply, pay39_apply, pay40_apply, pay41_apply, pay42_apply, pay43_apply, pay44_apply,
      pay45_apply, pay46_apply, pay47_apply, pay48_apply, pay49_apply, pay50_apply, pay51_apply, pay52_apply,
      pay53_apply, pay54_apply, pay55_apply, pay56_apply, pay57_apply, pay58_apply, pay59_apply, pay60_apply,
      pay61_apply, pay62_apply, pay63_apply, pay64_apply, pay65_apply, pay66_apply, pay67_apply, pay68_apply,
      pay69_apply, pay70_apply, pay71_apply, pay72_apply, pay73_apply, pay74_apply, pay75_apply, pay76_apply,
      pay77_apply, pay78_apply, pay79_apply, pay80_apply, pay81_apply, pay82_apply, pay83_apply, pay84_apply,
      pay85_apply, pay86_apply, pay87_apply, pay88_apply, pay89_apply, pay90_apply, pay91_apply, pay92_apply,
      pay93_apply, pay94_apply, pay95_apply, pay96_apply, constant_apply, Ideal.ofBits_def, Ideal.ofBits_zero_f32,
      zero_add]
  rfl

/-- Column 2: the pair of contexts (0, 2). -/
theorem col2_apply (i : grid0.Coords) (x0 x1 : Vec Ideal S256x4x256 .f32) (v : Vec Ideal S256x1 .f32) (p : Fin 256) :
    (k0_pay39 (F := Ideal) (k0_pay38 (k0_pay22 i) (k0_pay25 x0 x1) (k0_pay26 x0 x1) (k0_pay27 x0 x1) (k0_pay28 x0 x1)
      (k0_pay29 (F := Ideal))) v) (ix2 p 0)
      = v (ix2 p 0) + Cert.BlockSpec.diagAdd x0 x1 (i 0).val (i 1).val p 0 2 := by
  simp only [pay1_apply, pay22_apply, pay23_apply, pay24_apply, pay25_apply, pay26_apply, pay27_apply, pay28_apply,
      pay29_apply, pay30_apply, pay31_apply, pay32_apply, pay33_apply, pay34_apply, pay35_apply, pay36_apply,
      pay37_apply, pay38_apply, pay39_apply, pay40_apply, pay41_apply, pay42_apply, pay43_apply, pay44_apply,
      pay45_apply, pay46_apply, pay47_apply, pay48_apply, pay49_apply, pay50_apply, pay51_apply, pay52_apply,
      pay53_apply, pay54_apply, pay55_apply, pay56_apply, pay57_apply, pay58_apply, pay59_apply, pay60_apply,
      pay61_apply, pay62_apply, pay63_apply, pay64_apply, pay65_apply, pay66_apply, pay67_apply, pay68_apply,
      pay69_apply, pay70_apply, pay71_apply, pay72_apply, pay73_apply, pay74_apply, pay75_apply, pay76_apply,
      pay77_apply, pay78_apply, pay79_apply, pay80_apply, pay81_apply, pay82_apply, pay83_apply, pay84_apply,
      pay85_apply, pay86_apply, pay87_apply, pay88_apply, pay89_apply, pay90_apply, pay91_apply, pay92_apply,
      pay93_apply, pay94_apply, pay95_apply, pay96_apply, constant_apply, Ideal.ofBits_def, Ideal.ofBits_zero_f32,
      zero_add]
  rfl

/-- Column 3: the pair of contexts (0, 3). -/
theorem col3_apply (i : grid0.Coords) (x0 x1 : Vec Ideal S256x4x256 .f32) (v : Vec Ideal S256x1 .f32) (p : Fin 256) :
    (k0_pay42 (F := Ideal) (k0_pay22 i) (k0_pay30 (k0_pay28 x0 x1) (k0_pay29 (F := Ideal))) (k0_pay31 (k0_pay25 x0 x1)
      (k0_pay26 x0 x1) (k0_pay27 x0 x1) (k0_pay28 x0 x1) (k0_pay29 (F := Ideal))) v) (ix2 p 0)
      = v (ix2 p 0) + Cert.BlockSpec.diagAdd x0 x1 (i 0).val (i 1).val p 0 3 := by
  simp only [pay1_apply, pay22_apply, pay23_apply, pay24_apply, pay25_apply, pay26_apply, pay27_apply, pay28_apply,
      pay29_apply, pay30_apply, pay31_apply, pay32_apply, pay33_apply, pay34_apply, pay35_apply, pay36_apply,
      pay37_apply, pay38_apply, pay39_apply, pay40_apply, pay41_apply, pay42_apply, pay43_apply, pay44_apply,
      pay45_apply, pay46_apply, pay47_apply, pay48_apply, pay49_apply, pay50_apply, pay51_apply, pay52_apply,
      pay53_apply, pay54_apply, pay55_apply, pay56_apply, pay57_apply, pay58_apply, pay59_apply, pay60_apply,
      pay61_apply, pay62_apply, pay63_apply, pay64_apply, pay65_apply, pay66_apply, pay67_apply, pay68_apply,
      pay69_apply, pay70_apply, pay71_apply, pay72_apply, pay73_apply, pay74_apply, pay75_apply, pay76_apply,
      pay77_apply, pay78_apply, pay79_apply, pay80_apply, pay81_apply, pay82_apply, pay83_apply, pay84_apply,
      pay85_apply, pay86_apply, pay87_apply, pay88_apply, pay89_apply, pay90_apply, pay91_apply, pay92_apply,
      pay93_apply, pay94_apply, pay95_apply, pay96_apply, constant_apply, Ideal.ofBits_def, Ideal.ofBits_zero_f32,
      zero_add]
  rfl

/-- Column 4: the pair of contexts (1, 0). -/
theorem col4_apply (i : grid0.Coords) (x0 x1 : Vec Ideal S256x4x256 .f32) (v : Vec Ideal S256x1 .f32) (p : Fin 256) :
    (k0_pay51 (F := Ideal) (k0_pay22 i) (k0_pay43 x0) (k0_pay44 x0 x1) (k0_pay45 x0 x1) (k0_pay46 x0 x1) (k0_pay47 x1)
      v) (ix2 p 0)
      = v (ix2 p 0) + Cert.BlockSpec.diagAdd x0 x1 (i 0).val (i 1).val p 1 0 := by
  simp only [pay1_apply, pay22_apply, pay23_apply, pay24_apply, pay25_apply, pay26_apply, pay27_apply, pay28_apply,
      pay29_apply, pay30_apply, pay31_apply, pay32_apply, pay33_apply, pay34_apply, pay35_apply, pay36_apply,
      pay37_apply, pay38_apply, pay39_apply, pay40_apply, pay41_apply, pay42_apply, pay43_apply, pay44_apply,
      pay45_apply, pay46_apply, pay47_apply, pay48_apply, pay49_apply, pay50_apply, pay51_apply, pay52_apply,
      pay53_apply, pay54_apply, pay55_apply, pay56_apply, pay57_apply, pay58_apply, pay59_apply, pay60_apply,
      pay61_apply, pay62_apply, pay63_apply, pay64_apply, pay65_apply, pay66_apply, pay67_apply, pay68_apply,
      pay69_apply, pay70_apply, pay71_apply, pay72_apply, pay73_apply, pay74_apply, pay75_apply, pay76_apply,
      pay77_apply, pay78_apply, pay79_apply, pay80_apply, pay81_apply, pay82_apply, pay83_apply, pay84_apply,
      pay85_apply, pay86_apply, pay87_apply, pay88_apply, pay89_apply, pay90_apply, pay91_apply, pay92_apply,
      pay93_apply, pay94_apply, pay95_apply, pay96_apply, constant_apply, Ideal.ofBits_def, Ideal.ofBits_zero_f32,
      zero_add]
  rfl

/-- Column 5: the pair of contexts (1, 1). -/
theorem col5_apply (i : grid0.Coords) (x0 x1 : Vec Ideal S256x4x256 .f32) (v : Vec Ideal S256x1 .f32) (p : Fin 256) :
    (k0_pay54 (F := Ideal) (k0_pay22 i) (k0_pay43 x0) (k0_pay44 x0 x1) (k0_pay45 x0 x1) (k0_pay46 x0 x1) (k0_pay47 x1)
      v) (ix2 p 0)
      = v (ix2 p 0) + Cert.BlockSpec.diagAdd x0 x1 (i 0).val (i 1).val p 1 1 := by
  simp only [pay1_apply, pay22_apply, pay23_apply, pay24_apply, pay25_apply, pay26_apply, pay27_apply, pay28_apply,
      pay29_apply, pay30_apply, pay31_apply, pay32_apply, pay33_apply, pay34_apply, pay35_apply, pay36_apply,
      pay37_apply, pay38_apply, pay39_apply, pay40_apply, pay41_apply, pay42_apply, pay43_apply, pay44_apply,
      pay45_apply, pay46_apply, pay47_apply, pay48_apply, pay49_apply, pay50_apply, pay51_apply, pay52_apply,
      pay53_apply, pay54_apply, pay55_apply, pay56_apply, pay57_apply, pay58_apply, pay59_apply, pay60_apply,
      pay61_apply, pay62_apply, pay63_apply, pay64_apply, pay65_apply, pay66_apply, pay67_apply, pay68_apply,
      pay69_apply, pay70_apply, pay71_apply, pay72_apply, pay73_apply, pay74_apply, pay75_apply, pay76_apply,
      pay77_apply, pay78_apply, pay79_apply, pay80_apply, pay81_apply, pay82_apply, pay83_apply, pay84_apply,
      pay85_apply, pay86_apply, pay87_apply, pay88_apply, pay89_apply, pay90_apply, pay91_apply, pay92_apply,
      pay93_apply, pay94_apply, pay95_apply, pay96_apply, constant_apply, Ideal.ofBits_def, Ideal.ofBits_zero_f32,
      zero_add]
  rfl

/-- Column 6: the pair of contexts (1, 2). -/
theorem col6_apply (i : grid0.Coords) (x0 x1 : Vec Ideal S256x4x256 .f32) (v : Vec Ideal S256x1 .f32) (p : Fin 256) :
    (k0_pay58 (F := Ideal) (k0_pay22 i) (k0_pay55 (k0_pay43 x0) (k0_pay44 x0 x1) (k0_pay45 x0 x1) (k0_pay46 x0 x1)
      (k0_pay47 x1)) v) (ix2 p 0)
      = v (ix2 p 0) + Cert.BlockSpec.diagAdd x0 x1 (i 0).val (i 1).val p 1 2 := by
  simp only [pay1_apply, pay22_apply, pay23_apply, pay24_apply, pay25_apply, pay26_apply, pay27_apply, pay28_apply,
      pay29_apply, pay30_apply, pay31_apply, pay32_apply, pay33_apply, pay34_apply, pay35_apply, pay36_apply,
      pay37_apply, pay38_apply, pay39_apply, pay40_apply, pay41_apply, pay42_apply, pay43_apply, pay44_apply,
      pay45_apply, pay46_apply, pay47_apply, pay48_apply, pay49_apply, pay50_apply, pay51_apply, pay52_apply,
      pay53_apply, pay54_apply, pay55_apply, pay56_apply, pay57_apply, pay58_apply, pay59_apply, pay60_apply,
      pay61_apply, pay62_apply, pay63_apply, pay64_apply, pay65_apply, pay66_apply, pay67_apply, pay68_apply,
      pay69_apply, pay70_apply, pay71_apply, pay72_apply, pay73_apply, pay74_apply, pay75_apply, pay76_apply,
      pay77_apply, pay78_apply, pay79_apply, pay80_apply, pay81_apply, pay82_apply, pay83_apply, pay84_apply,
      pay85_apply, pay86_apply, pay87_apply, pay88_apply, pay89_apply, pay90_apply, pay91_apply, pay92_apply,
      pay93_apply, pay94_apply, pay95_apply, pay96_apply, constant_apply, Ideal.ofBits_def, Ideal.ofBits_zero_f32,
      zero_add]
  rfl

/-- Column 7: the pair of contexts (1, 3). -/
theorem col7_apply (i : grid0.Coords) (x0 x1 : Vec Ideal S256x4x256 .f32) (v : Vec Ideal S256x1 .f32) (p : Fin 256) :
    (k0_pay61 (F := Ideal) (k0_pay22 i) (k0_pay48 (k0_pay43 x0) (k0_pay47 x1)) (k0_pay49 (k0_pay43 x0) (k0_pay44 x0
      x1) (k0_pay45 x0 x1) (k0_pay46 x0 x1) (k0_pay47 x1)) v) (ix2 p 0)
      = v (ix2 p 0) + Cert.BlockSpec.diagAdd x0 x1 (i 0).val (i 1).val p 1 3 := by
  simp only [pay1_apply, pay22_apply, pay23_apply, pay24_apply, pay25_apply, pay26_apply, pay27_apply, pay28_apply,
      pay29_apply, pay30_apply, pay31_apply, pay32_apply, pay33_apply, pay34_apply, pay35_apply, pay36_apply,
      pay37_apply, pay38_apply, pay39_apply, pay40_apply, pay41_apply, pay42_apply, pay43_apply, pay44_apply,
      pay45_apply, pay46_apply, pay47_apply, pay48_apply, pay49_apply, pay50_apply, pay51_apply, pay52_apply,
      pay53_apply, pay54_apply, pay55_apply, pay56_apply, pay57_apply, pay58_apply, pay59_apply, pay60_apply,
      pay61_apply, pay62_apply, pay63_apply, pay64_apply, pay65_apply, pay66_apply, pay67_apply, pay68_apply,
      pay69_apply, pay70_apply, pay71_apply, pay72_apply, pay73_apply, pay74_apply, pay75_apply, pay76_apply,
      pay77_apply, pay78_apply, pay79_apply, pay80_apply, pay81_apply, pay82_apply, pay83_apply, pay84_apply,
      pay85_apply, pay86_apply, pay87_apply, pay88_apply, pay89_apply, pay90_apply, pay91_apply, pay92_apply,
      pay93_apply, pay94_apply, pay95_apply, pay96_apply, constant_apply, Ideal.ofBits_def, Ideal.ofBits_zero_f32,
      zero_add]
  rfl

/-- Column 8: the pair of contexts (2, 0). -/
theorem col8_apply (i : grid0.Coords) (x0 x1 : Vec Ideal S256x4x256 .f32) (v : Vec Ideal S256x1 .f32) (p : Fin 256) :
    (k0_pay70 (F := Ideal) x1 (k0_pay22 i) (k0_pay62 x0) (k0_pay63 x0 x1) (k0_pay64 x0 x1) (k0_pay65 x1) (constant (F
      := Ideal) S256x256 .f32 0#32) v) (ix2 p 0)
      = v (ix2 p 0) + Cert.BlockSpec.diagAdd x0 x1 (i 0).val (i 1).val p 2 0 := by
  simp only [pay1_apply, pay22_apply, pay23_apply, pay24_apply, pay25_apply, pay26_apply, pay27_apply, pay28_apply,
      pay29_apply, pay30_apply, pay31_apply, pay32_apply, pay33_apply, pay34_apply, pay35_apply, pay36_apply,
      pay37_apply, pay38_apply, pay39_apply, pay40_apply, pay41_apply, pay42_apply, pay43_apply, pay44_apply,
      pay45_apply, pay46_apply, pay47_apply, pay48_apply, pay49_apply, pay50_apply, pay51_apply, pay52_apply,
      pay53_apply, pay54_apply, pay55_apply, pay56_apply, pay57_apply, pay58_apply, pay59_apply, pay60_apply,
      pay61_apply, pay62_apply, pay63_apply, pay64_apply, pay65_apply, pay66_apply, pay67_apply, pay68_apply,
      pay69_apply, pay70_apply, pay71_apply, pay72_apply, pay73_apply, pay74_apply, pay75_apply, pay76_apply,
      pay77_apply, pay78_apply, pay79_apply, pay80_apply, pay81_apply, pay82_apply, pay83_apply, pay84_apply,
      pay85_apply, pay86_apply, pay87_apply, pay88_apply, pay89_apply, pay90_apply, pay91_apply, pay92_apply,
      pay93_apply, pay94_apply, pay95_apply, pay96_apply, constant_apply, Ideal.ofBits_def, Ideal.ofBits_zero_f32,
      zero_add]
  rfl

/-- Column 9: the pair of contexts (2, 1). -/
theorem col9_apply (i : grid0.Coords) (x0 x1 : Vec Ideal S256x4x256 .f32) (v : Vec Ideal S256x1 .f32) (p : Fin 256) :
    (k0_pay73 (F := Ideal) x1 (k0_pay22 i) (k0_pay62 x0) (k0_pay63 x0 x1) (k0_pay64 x0 x1) (k0_pay65 x1) (constant (F
      := Ideal) S256x256 .f32 0#32) v) (ix2 p 0)
      = v (ix2 p 0) + Cert.BlockSpec.diagAdd x0 x1 (i 0).val (i 1).val p 2 1 := by
  simp only [pay1_apply, pay22_apply, pay23_apply, pay24_apply, pay25_apply, pay26_apply, pay27_apply, pay28_apply,
      pay29_apply, pay30_apply, pay31_apply, pay32_apply, pay33_apply, pay34_apply, pay35_apply, pay36_apply,
      pay37_apply, pay38_apply, pay39_apply, pay40_apply, pay41_apply, pay42_apply, pay43_apply, pay44_apply,
      pay45_apply, pay46_apply, pay47_apply, pay48_apply, pay49_apply, pay50_apply, pay51_apply, pay52_apply,
      pay53_apply, pay54_apply, pay55_apply, pay56_apply, pay57_apply, pay58_apply, pay59_apply, pay60_apply,
      pay61_apply, pay62_apply, pay63_apply, pay64_apply, pay65_apply, pay66_apply, pay67_apply, pay68_apply,
      pay69_apply, pay70_apply, pay71_apply, pay72_apply, pay73_apply, pay74_apply, pay75_apply, pay76_apply,
      pay77_apply, pay78_apply, pay79_apply, pay80_apply, pay81_apply, pay82_apply, pay83_apply, pay84_apply,
      pay85_apply, pay86_apply, pay87_apply, pay88_apply, pay89_apply, pay90_apply, pay91_apply, pay92_apply,
      pay93_apply, pay94_apply, pay95_apply, pay96_apply, constant_apply, Ideal.ofBits_def, Ideal.ofBits_zero_f32,
      zero_add]
  rfl

/-- Column 10: the pair of contexts (2, 2). -/
theorem col10_apply (i : grid0.Coords) (x0 x1 : Vec Ideal S256x4x256 .f32) (v : Vec Ideal S256x1 .f32) (p : Fin 256) :
    (k0_pay75 (F := Ideal) (k0_pay22 i) (k0_pay66 (k0_pay62 x0) (k0_pay65 x1) (constant (F := Ideal) S256x256 .f32
      0#32)) (k0_pay68 x1 (k0_pay62 x0) (k0_pay63 x0 x1) (k0_pay64 x0 x1) (k0_pay65 x1) (constant (F := Ideal) S256x256
      .f32 0#32)) v) (ix2 p 0)
      = v (ix2 p 0) + Cert.BlockSpec.diagAdd x0 x1 (i 0).val (i 1).val p 2 2 := by
  simp only [pay1_apply, pay22_apply, pay23_apply, pay24_apply, pay25_apply, pay26_apply, pay27_apply, pay28_apply,
      pay29_apply, pay30_apply, pay31_apply, pay32_apply, pay33_apply, pay34_apply, pay35_apply, pay36_apply,
      pay37_apply, pay38_apply, pay39_apply, pay40_apply, pay41_apply, pay42_apply, pay43_apply, pay44_apply,
      pay45_apply, pay46_apply, pay47_apply, pay48_apply, pay49_apply, pay50_apply, pay51_apply, pay52_apply,
      pay53_apply, pay54_apply, pay55_apply, pay56_apply, pay57_apply, pay58_apply, pay59_apply, pay60_apply,
      pay61_apply, pay62_apply, pay63_apply, pay64_apply, pay65_apply, pay66_apply, pay67_apply, pay68_apply,
      pay69_apply, pay70_apply, pay71_apply, pay72_apply, pay73_apply, pay74_apply, pay75_apply, pay76_apply,
      pay77_apply, pay78_apply, pay79_apply, pay80_apply, pay81_apply, pay82_apply, pay83_apply, pay84_apply,
      pay85_apply, pay86_apply, pay87_apply, pay88_apply, pay89_apply, pay90_apply, pay91_apply, pay92_apply,
      pay93_apply, pay94_apply, pay95_apply, pay96_apply, constant_apply, Ideal.ofBits_def, Ideal.ofBits_zero_f32,
      zero_add]
  rfl

/-- Column 11: the pair of contexts (2, 3). -/
theorem col11_apply (i : grid0.Coords) (x0 x1 : Vec Ideal S256x4x256 .f32) (v : Vec Ideal S256x1 .f32) (p : Fin 256) :
    (k0_pay78 (F := Ideal) (k0_pay22 i) (k0_pay67 x1 (k0_pay62 x0)) (k0_pay68 x1 (k0_pay62 x0) (k0_pay63 x0 x1)
      (k0_pay64 x0 x1) (k0_pay65 x1) (constant (F := Ideal) S256x256 .f32 0#32)) v) (ix2 p 0)
      = v (ix2 p 0) + Cert.BlockSpec.diagAdd x0 x1 (i 0).val (i 1).val p 2 3 := by
  simp only [pay1_apply, pay22_apply, pay23_apply, pay24_apply, pay25_apply, pay26_apply, pay27_apply, pay28_apply,
      pay29_apply, pay30_apply, pay31_apply, pay32_apply, pay33_apply, pay34_apply, pay35_apply, pay36_apply,
      pay37_apply, pay38_apply, pay39_apply, pay40_apply, pay41_apply, pay42_apply, pay43_apply, pay44_apply,
      pay45_apply, pay46_apply, pay47_apply, pay48_apply, pay49_apply, pay50_apply, pay51_apply, pay52_apply,
      pay53_apply, pay54_apply, pay55_apply, pay56_apply, pay57_apply, pay58_apply, pay59_apply, pay60_apply,
      pay61_apply, pay62_apply, pay63_apply, pay64_apply, pay65_apply, pay66_apply, pay67_apply, pay68_apply,
      pay69_apply, pay70_apply, pay71_apply, pay72_apply, pay73_apply, pay74_apply, pay75_apply, pay76_apply,
      pay77_apply, pay78_apply, pay79_apply, pay80_apply, pay81_apply, pay82_apply, pay83_apply, pay84_apply,
      pay85_apply, pay86_apply, pay87_apply, pay88_apply, pay89_apply, pay90_apply, pay91_apply, pay92_apply,
      pay93_apply, pay94_apply, pay95_apply, pay96_apply, constant_apply, Ideal.ofBits_def, Ideal.ofBits_zero_f32,
      zero_add]
  rfl

/-- Column 12: the pair of contexts (3, 0). -/
theorem col12_apply (i : grid0.Coords) (x0 x1 : Vec Ideal S256x4x256 .f32) (v : Vec Ideal S256x1 .f32) (p : Fin 256) :
    (k0_pay87 (F := Ideal) x1 (k0_pay22 i) (k0_pay79 x0) (k0_pay80 x0 x1) (k0_pay81 x0 x1) (FloatOps.ofBits (F :=
      Ideal) .f32 1065353216#32) v) (ix2 p 0)
      = v (ix2 p 0) + Cert.BlockSpec.diagAdd x0 x1 (i 0).val (i 1).val p 3 0 := by
  simp only [pay1_apply, pay22_apply, pay23_apply, pay24_apply, pay25_apply, pay26_apply, pay27_apply, pay28_apply,
      pay29_apply, pay30_apply, pay31_apply, pay32_apply, pay33_apply, pay34_apply, pay35_apply, pay36_apply,
      pay37_apply, pay38_apply, pay39_apply, pay40_apply, pay41_apply, pay42_apply, pay43_apply, pay44_apply,
      pay45_apply, pay46_apply, pay47_apply, pay48_apply, pay49_apply, pay50_apply, pay51_apply, pay52_apply,
      pay53_apply, pay54_apply, pay55_apply, pay56_apply, pay57_apply, pay58_apply, pay59_apply, pay60_apply,
      pay61_apply, pay62_apply, pay63_apply, pay64_apply, pay65_apply, pay66_apply, pay67_apply, pay68_apply,
      pay69_apply, pay70_apply, pay71_apply, pay72_apply, pay73_apply, pay74_apply, pay75_apply, pay76_apply,
      pay77_apply, pay78_apply, pay79_apply, pay80_apply, pay81_apply, pay82_apply, pay83_apply, pay84_apply,
      pay85_apply, pay86_apply, pay87_apply, pay88_apply, pay89_apply, pay90_apply, pay91_apply, pay92_apply,
      pay93_apply, pay94_apply, pay95_apply, pay96_apply, constant_apply, Ideal.ofBits_def, Ideal.ofBits_zero_f32,
      zero_add]
  rfl

/-- Column 13: the pair of contexts (3, 1). -/
theorem col13_apply (i : grid0.Coords) (x0 x1 : Vec Ideal S256x4x256 .f32) (v : Vec Ideal S256x1 .f32) (p : Fin 256) :
    (k0_pay91 (F := Ideal) (k0_pay90 x1 (k0_pay22 i) (k0_pay79 x0) (k0_pay80 x0 x1) (k0_pay81 x0 x1) (FloatOps.ofBits
      (F := Ideal) .f32 1065353216#32) v)) (ix2 p 0)
      = v (ix2 p 0) + Cert.BlockSpec.diagAdd x0 x1 (i 0).val (i 1).val p 3 1 := by
  simp only [pay1_apply, pay22_apply, pay23_apply, pay24_apply, pay25_apply, pay26_apply, pay27_apply, pay28_apply,
      pay29_apply, pay30_apply, pay31_apply, pay32_apply, pay33_apply, pay34_apply, pay35_apply, pay36_apply,
      pay37_apply, pay38_apply, pay39_apply, pay40_apply, pay41_apply, pay42_apply, pay43_apply, pay44_apply,
      pay45_apply, pay46_apply, pay47_apply, pay48_apply, pay49_apply, pay50_apply, pay51_apply, pay52_apply,
      pay53_apply, pay54_apply, pay55_apply, pay56_apply, pay57_apply, pay58_apply, pay59_apply, pay60_apply,
      pay61_apply, pay62_apply, pay63_apply, pay64_apply, pay65_apply, pay66_apply, pay67_apply, pay68_apply,
      pay69_apply, pay70_apply, pay71_apply, pay72_apply, pay73_apply, pay74_apply, pay75_apply, pay76_apply,
      pay77_apply, pay78_apply, pay79_apply, pay80_apply, pay81_apply, pay82_apply, pay83_apply, pay84_apply,
      pay85_apply, pay86_apply, pay87_apply, pay88_apply, pay89_apply, pay90_apply, pay91_apply, pay92_apply,
      pay93_apply, pay94_apply, pay95_apply, pay96_apply, constant_apply, Ideal.ofBits_def, Ideal.ofBits_zero_f32,
      zero_add]
  rfl

/-- Column 14: the pair of contexts (3, 2). -/
theorem col14_apply (i : grid0.Coords) (x0 x1 : Vec Ideal S256x4x256 .f32) (v : Vec Ideal S256x1 .f32) (p : Fin 256) :
    (k0_pay93 (F := Ideal) (k0_pay22 i) (k0_pay83 x1 (k0_pay79 x0)) (k0_pay85 x1 (k0_pay79 x0) (k0_pay80 x0 x1)
      (k0_pay81 x0 x1) (FloatOps.ofBits (F := Ideal) .f32 1065353216#32)) v) (ix2 p 0)
      = v (ix2 p 0) + Cert.BlockSpec.diagAdd x0 x1 (i 0).val (i 1).val p 3 2 := by
  simp only [pay1_apply, pay22_apply, pay23_apply, pay24_apply, pay25_apply, pay26_apply, pay27_apply, pay28_apply,
      pay29_apply, pay30_apply, pay31_apply, pay32_apply, pay33_apply, pay34_apply, pay35_apply, pay36_apply,
      pay37_apply, pay38_apply, pay39_apply, pay40_apply, pay41_apply, pay42_apply, pay43_apply, pay44_apply,
      pay45_apply, pay46_apply, pay47_apply, pay48_apply, pay49_apply, pay50_apply, pay51_apply, pay52_apply,
      pay53_apply, pay54_apply, pay55_apply, pay56_apply, pay57_apply, pay58_apply, pay59_apply, pay60_apply,
      pay61_apply, pay62_apply, pay63_apply, pay64_apply, pay65_apply, pay66_apply, pay67_apply, pay68_apply,
      pay69_apply, pay70_apply, pay71_apply, pay72_apply, pay73_apply, pay74_apply, pay75_apply, pay76_apply,
      pay77_apply, pay78_apply, pay79_apply, pay80_apply, pay81_apply, pay82_apply, pay83_apply, pay84_apply,
      pay85_apply, pay86_apply, pay87_apply, pay88_apply, pay89_apply, pay90_apply, pay91_apply, pay92_apply,
      pay93_apply, pay94_apply, pay95_apply, pay96_apply, constant_apply, Ideal.ofBits_def, Ideal.ofBits_zero_f32,
      zero_add]
  rfl

/-- Column 15: the pair of contexts (3, 3). -/
theorem col15_apply (i : grid0.Coords) (x0 x1 : Vec Ideal S256x4x256 .f32) (v : Vec Ideal S256x1 .f32) (p : Fin 256) :
    (k0_pay95 (F := Ideal) (k0_pay22 i) (k0_pay84 x1 (k0_pay79 x0)) (k0_pay85 x1 (k0_pay79 x0) (k0_pay80 x0 x1)
      (k0_pay81 x0 x1) (FloatOps.ofBits (F := Ideal) .f32 1065353216#32)) v) (ix2 p 0)
      = v (ix2 p 0) + Cert.BlockSpec.diagAdd x0 x1 (i 0).val (i 1).val p 3 3 := by
  simp only [pay1_apply, pay22_apply, pay23_apply, pay24_apply, pay25_apply, pay26_apply, pay27_apply, pay28_apply,
      pay29_apply, pay30_apply, pay31_apply, pay32_apply, pay33_apply, pay34_apply, pay35_apply, pay36_apply,
      pay37_apply, pay38_apply, pay39_apply, pay40_apply, pay41_apply, pay42_apply, pay43_apply, pay44_apply,
      pay45_apply, pay46_apply, pay47_apply, pay48_apply, pay49_apply, pay50_apply, pay51_apply, pay52_apply,
      pay53_apply, pay54_apply, pay55_apply, pay56_apply, pay57_apply, pay58_apply, pay59_apply, pay60_apply,
      pay61_apply, pay62_apply, pay63_apply, pay64_apply, pay65_apply, pay66_apply, pay67_apply, pay68_apply,
      pay69_apply, pay70_apply, pay71_apply, pay72_apply, pay73_apply, pay74_apply, pay75_apply, pay76_apply,
      pay77_apply, pay78_apply, pay79_apply, pay80_apply, pay81_apply, pay82_apply, pay83_apply, pay84_apply,
      pay85_apply, pay86_apply, pay87_apply, pay88_apply, pay89_apply, pay90_apply, pay91_apply, pay92_apply,
      pay93_apply, pay94_apply, pay95_apply, pay96_apply, constant_apply, Ideal.ofBits_def, Ideal.ofBits_zero_f32,
      zero_add]
  rfl

/-- A double sum over the pairs of contexts, written out in the order the kernel visits them. -/
private theorem sum_pairs16 (f : Fin 4 → Fin 4 → EReal) :
    ∑ j : Fin 4, ∑ l : Fin 4, f j l
      = f 0 0 + f 0 1 + f 0 2 + f 0 3 + f 1 0 + f 1 1 + f 1 2 + f 1 3 + f 2 0 + f 2 1 + f 2 2 + f 2 3 + f 3 0 + f 3 1
        + f 3 2 + f 3 3 := by
  simp only [Fin.sum_univ_four, add_assoc]

/-- The running sum of clamped squares: the old entry plus the sixteen pairs' rows of clamped squares. -/
theorem sqNew_apply (x0 x1 : Vec Ideal S256x4x256 .f32) (w : Vec Ideal S256x1 .f32) (p : Fin 256) :
    (k0_pay1 (F := Ideal) (k0_pay96 (k0_pay83 x1 (k0_pay79 x0)) (k0_pay84 x1 (k0_pay79 x0)) (k0_pay85 x1 (k0_pay79 x0)
      (k0_pay80 x0 x1) (k0_pay81 x0 x1) (FloatOps.ofBits (F := Ideal) .f32 1065353216#32)) (k0_pay89 x1 (k0_pay77
      (k0_pay66 (k0_pay62 x0) (k0_pay65 x1) (constant (F := Ideal) S256x256 .f32 0#32)) (k0_pay67 x1 (k0_pay62 x0))
      (k0_pay68 x1 (k0_pay62 x0) (k0_pay63 x0 x1) (k0_pay64 x0 x1) (k0_pay65 x1) (constant (F := Ideal) S256x256 .f32
      0#32)) (k0_pay72 x1 (k0_pay60 (k0_pay48 (k0_pay43 x0) (k0_pay47 x1)) (k0_pay49 (k0_pay43 x0) (k0_pay44 x0 x1)
      (k0_pay45 x0 x1) (k0_pay46 x0 x1) (k0_pay47 x1)) (k0_pay53 (k0_pay41 (k0_pay30 (k0_pay28 x0 x1) (k0_pay29 (F :=
      Ideal))) (k0_pay31 (k0_pay25 x0 x1) (k0_pay26 x0 x1) (k0_pay27 x0 x1) (k0_pay28 x0 x1) (k0_pay29 (F := Ideal)))
      (k0_pay37 (k0_pay23 (F := Ideal)) (k0_pay25 x0 x1) (k0_pay26 x0 x1) (k0_pay27 x0 x1) (k0_pay28 x0 x1) (k0_pay29 (F
      := Ideal)))) (k0_pay43 x0) (k0_pay44 x0 x1) (k0_pay45 x0 x1) (k0_pay46 x0 x1) (k0_pay47 x1)) (k0_pay56 (k0_pay43
      x0) (k0_pay44 x0 x1) (k0_pay45 x0 x1) (k0_pay46 x0 x1) (k0_pay47 x1)) (k0_pay57 (F := Ideal))) (k0_pay62 x0)
      (k0_pay63 x0 x1) (k0_pay64 x0 x1) (k0_pay65 x1) (constant (F := Ideal) S256x256 .f32 0#32))) (k0_pay79 x0)
      (k0_pay80 x0 x1) (k0_pay81 x0 x1) (FloatOps.ofBits (F := Ideal) .f32 1065353216#32)) w)) (ix2 p 0)
      = w (ix2 p 0) + Cert.BlockSpec.sqAdd x0 x1 p := by
  simp only [pay1_apply, pay22_apply, pay23_apply, pay24_apply, pay25_apply, pay26_apply, pay27_apply, pay28_apply,
      pay29_apply, pay30_apply, pay31_apply, pay32_apply, pay33_apply, pay34_apply, pay35_apply, pay36_apply,
      pay37_apply, pay38_apply, pay39_apply, pay40_apply, pay41_apply, pay42_apply, pay43_apply, pay44_apply,
      pay45_apply, pay46_apply, pay47_apply, pay48_apply, pay49_apply, pay50_apply, pay51_apply, pay52_apply,
      pay53_apply, pay54_apply, pay55_apply, pay56_apply, pay57_apply, pay58_apply, pay59_apply, pay60_apply,
      pay61_apply, pay62_apply, pay63_apply, pay64_apply, pay65_apply, pay66_apply, pay67_apply, pay68_apply,
      pay69_apply, pay70_apply, pay71_apply, pay72_apply, pay73_apply, pay74_apply, pay75_apply, pay76_apply,
      pay77_apply, pay78_apply, pay79_apply, pay80_apply, pay81_apply, pay82_apply, pay83_apply, pay84_apply,
      pay85_apply, pay86_apply, pay87_apply, pay88_apply, pay89_apply, pay90_apply, pay91_apply, pay92_apply,
      pay93_apply, pay94_apply, pay95_apply, pay96_apply, constant_apply, Ideal.ofBits_def, Ideal.ofBits_zero_f32,
      zero_add]
  unfold Cert.BlockSpec.sqAdd
  rw [sum_pairs16]
  rfl

end Cert.KernelIdeal.PayRead

end
-- ==== Proof.KRead.lean ====
/-
  What the kernel body leaves in its two accumulators at a middle step of the reduction axis, read at an index over the
  exact extended reals and written on the point's two input blocks: column 4j + l of the pair accumulator holds what it
  held plus the masked row sums of the pair's stabilised exponentials, and the running sum holds what it held plus the
  clamped squares of all sixteen pairs.
-/
import proofs.«150541_j83794811945494_1_alg».proof.Proof.KReadLib
import proofs.«150541_j83794811945494_1_alg».proof.Proof.PayCols

set_option maxRecDepth 16384

noncomputable section

open scoped BigOperators

namespace Cert.KernelIdeal.HandI

open Cert.KernelIdeal Cert.KernelIdeal.Gen Cert.KernelIdeal.Hand Cert.KernelIdeal.PayRead Cert.BlockSpec Cert.LossSpec
open Idealize.ShloMosaic Idealize.ShloMosaic.TcCoe Idealize.ShloMosaic.Tactic Idealize.ShloMosaic.ValueIdx
open Idealize.SL.Sem

/-- The running sum of clamped squares after a middle step: what it held plus the point's clamped squares. -/
theorem readB1 (c : Dev nD) (i : grid0.Coords) (arg2 : Memref sig .tc .vmem S256x4x256 .f32) (harg2 : arg2.IsWhole) (arg3 : Memref sig .tc .vmem S256x4x256 .f32) (harg3 : arg3.IsWhole) (arg4 : Memref sig .tc .vmem S256 .f32) (harg4 : arg4.IsWhole) (arg5 : Memref sig .tc .vmem S256x16 .f32) (harg5 : arg5.IsWhole) (arg6 : Memref sig .tc .vmem S256x1 .f32) (harg6 : arg6.IsWhole) (hc0 : ¬cond0_0 i) (hc1 : ¬cond0_1 i)
    (x0 x1 : Vec Ideal S256x4x256 .f32) (xs0 : Vec Ideal S256x16 .f32) (xs1 : Vec Ideal S256x1 .f32) (p : Fin 256) :
    sout0_B_1 (F := Ideal) c i arg2 harg2 arg3 harg3 arg4 harg4 arg5 harg5 arg6 harg6 hc0 hc1 x0 x1 xs0 xs1 (ix2 p 0) = xs1 (ix2 p 0) + sqAdd x0 x1 p := by
  unfold sout0_B_1
  refine View.read_writes_apply_of_pieces VS0_1 VS0_1.junk (sqG fun r => xs1 (ix2 r 0) + sqAdd x0 x1 r) _ ?_ (ix2 p 0)
    (scover0_B_1 c i arg2 harg2 arg3 harg3 arg4 harg4 arg5 harg5 arg6 harg6 hc0 hc1 x0 x1 xs0 xs1 (ix2 p 0))
  unfold kernelRun0_B
  dsimp only
  sl_unfold_words
  simp only [ldBlock, ldSq]
  refine List.forall_mem_cons.2 ⟨?_, fun _ h => absurd h List.not_mem_nil⟩
  dsimp only
  exact sqPiece_ok inb_S256x1_S256x1_0_0 _ _ fun r => sqNew_apply x0 x1 xs1 r

/-- The pair accumulator after a middle step: column 4j + l holds what it held plus the point's masked row sums of the
    pair (j, l). -/
theorem readB0 (c : Dev nD) (i : grid0.Coords) (arg2 : Memref sig .tc .vmem S256x4x256 .f32) (harg2 : arg2.IsWhole) (arg3 : Memref sig .tc .vmem S256x4x256 .f32) (harg3 : arg3.IsWhole) (arg4 : Memref sig .tc .vmem S256 .f32) (harg4 : arg4.IsWhole) (arg5 : Memref sig .tc .vmem S256x16 .f32) (harg5 : arg5.IsWhole) (arg6 : Memref sig .tc .vmem S256x1 .f32) (harg6 : arg6.IsWhole) (hc0 : ¬cond0_0 i) (hc1 : ¬cond0_1 i)
    (x0 x1 : Vec Ideal S256x4x256 .f32) (xs0 : Vec Ideal S256x16 .f32) (xs1 : Vec Ideal S256x1 .f32) (p : Fin 256) (j l : Fin 4) :
    sout0_B_0 (F := Ideal) c i arg2 harg2 arg3 harg3 arg4 harg4 arg5 harg5 arg6 harg6 hc0 hc1 x0 x1 xs0 xs1 (ix2 p (pairCol j l))
      = xs0 (ix2 p (pairCol j l)) + diagAdd x0 x1 (i 0).val (i 1).val p j l := by
  unfold sout0_B_0
  refine (View.read_writes_apply_of_pieces VS0_0 VS0_0.junk
    (accG fun r cc => xs0 (ix2 r cc) + diagAdd x0 x1 (i 0).val (i 1).val r (colJ cc) (colL cc)) _ ?_ (ix2 p (pairCol j l))
    (scover0_B_0 c i arg2 harg2 arg3 harg3 arg4 harg4 arg5 harg5 arg6 harg6 hc0 hc1 x0 x1 xs0 xs1 (ix2 p (pairCol j l)))).trans ?_
  · unfold kernelRun0_B
    dsimp only
    sl_unfold_words
    simp only [ldBlock]
    refine List.forall_mem_cons.2 ⟨?c15, List.forall_mem_cons.2 ⟨?c14, List.forall_mem_cons.2 ⟨?c13, List.forall_mem_cons.2 ⟨?c12, List.forall_mem_cons.2 ⟨?c11, List.forall_mem_cons.2 ⟨?c10, List.forall_mem_cons.2 ⟨?c9, List.forall_mem_cons.2 ⟨?c8, List.forall_mem_cons.2 ⟨?c7, List.forall_mem_cons.2 ⟨?c6, List.forall_mem_cons.2 ⟨?c5, List.forall_mem_cons.2 ⟨?c4, List.forall_mem_cons.2 ⟨?c3, List.forall_mem_cons.2 ⟨?c2, List.forall_mem_cons.2 ⟨?c1, List.forall_mem_cons.2 ⟨?c0, fun _ h => absurd h List.not_mem_nil⟩⟩⟩⟩⟩⟩⟩⟩⟩⟩⟩⟩⟩⟩⟩⟩
    case c15 =>
      dsimp only
      refine colPiece_ok 15 (by decide) inb_S256x16_S256x1_0_15 _ _ fun r => ?_
      refine (col15_apply i x0 x1 _ r).trans ?_
      rw [ldCol arg5 harg5 xs0 15 (by decide)]
      rfl
    case c14 =>
      dsimp only
      refine colPiece_ok 14 (by decide) inb_S256x16_S256x1_0_14 _ _ fun r => ?_
      refine (col14_apply i x0 x1 _ r).trans ?_
      rw [ldCol arg5 harg5 xs0 14 (by decide)]
      rfl
    case c13 =>
      dsimp only
      refine colPiece_ok 13 (by decide) inb_S256x16_S256x1_0_13 _ _ fun r => ?_
      refine (col13_apply i x0 x1 _ r).trans ?_
      rw [ldCol arg5 harg5 xs0 13 (by decide)]
      rfl
    case c12 =>
      dsimp only
      refine colPiece_ok 12 (by decide) inb_S256x16_S256x1_0_12 _ _ fun r => ?_
      refine (col12_apply i x0 x1 _ r).trans ?_
      rw [ldCol arg5 harg5 xs0 12 (by decide)]
      rfl
    case c11 =>
      dsimp only
      refine colPiece_ok 11 (by decide) inb_S256x16_S256x1_0_11 _ _ fun r => ?_
      refine (col11_apply i x0 x1 _ r).trans ?_
      rw [ldCol arg5 harg5 xs0 11 (by decide)]
      rfl
    case c10 =>
      dsimp only
      refine colPiece_ok 10 (by decide) inb_S256x16_S256x1_0_10 _ _ fun r => ?_
      refine (col10_apply i x0 x1 _ r).trans ?_
      rw [ldCol arg5 harg5 xs0 10 (by decide)]
      rfl
    case c9 =>
      dsimp only
      refine colPiece_ok 9 (by decide) inb_S256x16_S256x1_0_9 _ _ fun r => ?_
      refine (col9_apply i x0 x1 _ r).trans ?_
      rw [ldCol arg5 harg5 xs0 9 (by decide)]
      rfl
    case c8 =>
      dsimp only
      refine colPiece_ok 8 (by decide) inb_S256x16_S256x1_0_8 _ _ fun r => ?_
      refine (col8_apply i x0 x1 _ r).trans ?_
      rw [ldCol arg5 harg5 xs0 8 (by decide)]
      rfl
    case c7 =>
      dsimp only
      refine colPiece_ok 7 (by decide) inb_S256x16_S256x1_0_7 _ _ fun r => ?_
      refine (col7_apply i x0 x1 _ r).trans ?_
      rw [ldCol arg5 harg5 xs0 7 (by decide)]
      rfl
    case c6 =>
      dsimp only
      refine colPiece_ok 6 (by decide) inb_S256x16_S256x1_0_6 _ _ fun r => ?_
      refine (col6_apply i x0 x1 _ r).trans ?_
      rw [ldCol arg5 harg5 xs0 6 (by decide)]
      rfl
    case c5 =>
      dsimp only
      refine colPiece_ok 5 (by decide) inb_S256x16_S256x1_0_5 _ _ fun r => ?_
      refine (col5_apply i x0 x1 _ r).trans ?_
      rw [ldCol arg5 harg5 xs0 5 (by decide)]
      rfl
    case c4 =>
      dsimp only
      refine colPiece_ok 4 (by decide) inb_S256x16_S256x1_0_4 _ _ fun r => ?_
      refine (col4_apply i x0 x1 _ r).trans ?_
      rw [ldCol arg5 harg5 xs0 4 (by decide)]
      rfl
    case c3 =>
      dsimp only
      refine colPiece_ok 3 (by decide) inb_S256x16_S256x1_0_3 _ _ fun r => ?_
      refine (col3_apply i x0 x1 _ r).trans ?_
      rw [ldCol arg5 harg5 xs0 3 (by decide)]
      rfl
    case c2 =>
      dsimp only
      refine colPiece_ok 2 (by decide) inb_S256x16_S256x1_0_2 _ _ fun r => ?_
      refine (col2_apply i x0 x1 _ r).trans ?_
      rw [ldCol arg5 harg5 xs0 2 (by decide)]
      rfl
    case c1 =>
      dsimp only
      refine colPiece_ok 1 (by decide) inb_S256x16_S256x1_0_1 _ _ fun r => ?_
      refine (col1_apply i x0 x1 _ r).trans ?_
      rw [ldCol arg5 harg5 xs0 1 (by decide)]
      rfl
    case c0 =>
      dsimp only
      refine colPiece_ok 0 (by decide) inb_S256x16_S256x1_0_0 _ _ fun r => ?_
      refine (col0_apply i x0 x1 _ r).trans ?_
      rw [ldCol arg5 harg5 xs0 0 (by decide)]
      rfl
  · rw [accG_ix2, colJ_pairCol, colL_pairCol]

end Cert.KernelIdeal.HandI

end
-- ==== Proof.KReadA.lean ====
/-
  What the kernel body leaves in its two accumulators at the FIRST step of the reduction axis, read at an index over
  the exact extended reals: both accumulators are filled with zeros before they are added to, so each column of the
  pair accumulator holds just the point's masked row sums of one context pair, and the running sum just the point's
  clamped squares.
-/
import proofs.«150541_j83794811945494_1_alg».proof.Proof.KReadLib
import proofs.«150541_j83794811945494_1_alg».proof.Proof.PayCols

set_option maxRecDepth 16384

noncomputable section

open scoped BigOperators

namespace Cert.KernelIdeal.HandI

open Cert.KernelIdeal Cert.KernelIdeal.Gen Cert.KernelIdeal.Hand Cert.KernelIdeal.PayRead Cert.BlockSpec Cert.LossSpec
open Idealize.ShloMosaic Idealize.ShloMosaic.TcCoe Idealize.ShloMosaic.Tactic Idealize.ShloMosaic.ValueIdx
open Idealize.SL.Sem

/-! ## Writes whose newest pieces agree with one function -/

/-- An element one of the `n` NEWEST pieces covers, when those `n` all agree with one function `G` of the shape's
    index, reads `G` there — whatever the older pieces wrote and whatever the buffer held. -/
theorem read_writes_newest {sig' : RefSig} {κ : Kind} {sp : Space} {s : Shape} {e : EltTy} {Val : EltTy → Type}
    (v : View sig' κ sp s e) (f : v.ty.Contents Val) (G : s.Idx → Val e) (n : ℕ) (L : List (View.Piece Val s e))
    (hG : ∀ q ∈ L.take n, ∀ x : q.1.shape.Idx, q.2 x = G (q.1.emb x)) (y : s.Idx) (hy : ∃ q ∈ L.take n, y ∈ q.1.set) :
    v.read Val (v.writes Val f L) y = G y := by
  have e : v.writes Val f L = v.writes Val (v.writes Val f (L.drop n)) (L.take n) := by
    rw [← View.writes_append, List.take_append_drop]
  rw [e]
  exact View.read_writes_apply_of_pieces v _ G _ hG y hy

/-! ## The zero fills read back -/

/-- The running sum, filled with zeros and loaded whole, reads zero. -/
theorem zeroSqA (arg6 : Memref sig .tc .vmem S256x1 .f32)
    (inb : ∀ a, (![0, 0] : Fin 2 → ℕ) a + S256x1.size a ≤ S256x1.size a) (p : Fin 256) :
    arg6.view.readCov [(⟨Rect.unit (s := S256x1) ![0, 0] S256x1.size inb, k0_pay21 (F := Ideal)⟩ : View.Piece (Elt Ideal) S256x1 .f32)]
        (Rect.unit (s := S256x1) ![0, 0] S256x1.size inb).toLoadRect (ix2 p 0) = 0 := by
  rw [View.readCov_unit_zero arg6.view (funext fun a => by
    match a with
    | ⟨0, _⟩ => rfl
    | ⟨1, _⟩ => rfl) inb]
  exact pay21_ix_apply p

/-- A load that, of the stores before it, meets only a fill with the zero word — the `n` newer ones lie off it — reads
    zero. -/
theorem zeroColA (arg5 : Memref sig .tc .vmem S256x16 .f32) (L : List (View.Piece (Elt Ideal) S256x16 .f32)) (B : LoadRect S256x16)
    (n : ℕ) (r : Rect S256x16)
    (hn : View.Piece.nth L n = some ⟨r, fun _ => Scalar.ofBits (F := Ideal) .f32 0x00000000#32⟩)
    (hc : LoadRect.hitChk (L.map Sigma.fst) B n = true) (x : B.shape.Idx) :
    arg5.view.readCov L B x = 0 := by
  unfold View.readCov
  rw [View.readAt_writes_const_of_hit arg5.view _ L B n r _ hn hc]
  exact Ideal.ofBits_zero_f32

/-! ## The running sum of clamped squares -/

/-- At the first step of the reduction axis the running sum holds the point's clamped squares. -/
theorem readA1 (c : Dev nD) (i : grid0.Coords) (arg2 : Memref sig .tc .vmem S256x4x256 .f32) (harg2 : arg2.IsWhole) (arg3 : Memref sig .tc .vmem S256x4x256 .f32) (harg3 : arg3.IsWhole) (arg4 : Memref sig .tc .vmem S256 .f32) (harg4 : arg4.IsWhole) (arg5 : Memref sig .tc .vmem S256x16 .f32) (harg5 : arg5.IsWhole) (arg6 : Memref sig .tc .vmem S256x1 .f32) (harg6 : arg6.IsWhole) (hc0 : cond0_0 i) (hc1 : ¬cond0_1 i)
    (x0 x1 : Vec Ideal S256x4x256 .f32) (p : Fin 256) :
    sout0_A_1 (F := Ideal) c i arg2 harg2 arg3 harg3 arg4 harg4 arg5 harg5 arg6 harg6 hc0 hc1 x0 x1 (ix2 p 0) = sqAdd x0 x1 p := by
  unfold sout0_A_1
  refine (read_writes_newest VS0_1 VS0_1.junk (sqG fun r => sqAdd x0 x1 r) 1 _ ?_ (ix2 p 0) ?_).trans (sqG_ix2 _ p 0)
  · unfold kernelRun0_A
    dsimp only
    sl_unfold_words
    simp only [ldBlock]
    refine List.forall_mem_cons.2 ⟨?_, fun _ h => absurd h List.not_mem_nil⟩
    dsimp only
    refine sqPiece_ok inb_S256x1_S256x1_0_0 _ _ fun r => ?_
    refine (sqNew_apply x0 x1 _ r).trans ?_
    rw [zeroSqA arg6 _ r, zero_add]
  · unfold kernelRun0_A
    dsimp only
    refine ⟨_, List.mem_cons_self, ?_⟩
    dsimp only
    exact View.mem_set_unit_zero (S := S256x1) (funext fun a => by
      match a with
      | ⟨0, _⟩ => rfl
      | ⟨1, _⟩ => rfl) inb_S256x1_S256x1_0_0 _

/-! ## The sixteen columns of pair sums -/

/-- At the first step of the reduction axis column 4j + l of the pair accumulator holds the point's masked row sums of
    the pair (j, l). -/
theorem readA0 (c : Dev nD) (i : grid0.Coords) (arg2 : Memref sig .tc .vmem S256x4x256 .f32) (harg2 : arg2.IsWhole) (arg3 : Memref sig .tc .vmem S256x4x256 .f32) (harg3 : arg3.IsWhole) (arg4 : Memref sig .tc .vmem S256 .f32) (harg4 : arg4.IsWhole) (arg5 : Memref sig .tc .vmem S256x16 .f32) (harg5 : arg5.IsWhole) (arg6 : Memref sig .tc .vmem S256x1 .f32) (harg6 : arg6.IsWhole) (hc0 : cond0_0 i) (hc1 : ¬cond0_1 i)
    (x0 x1 : Vec Ideal S256x4x256 .f32) (p : Fin 256) (j l : Fin 4) :
    sout0_A_0 (F := Ideal) c i arg2 harg2 arg3 harg3 arg4 harg4 arg5 harg5 arg6 harg6 hc0 hc1 x0 x1 (ix2 p (pairCol j l)) = diagAdd x0 x1 (i 0).val (i 1).val p j l := by
  unfold sout0_A_0
  refine (read_writes_newest VS0_0 VS0_0.junk (accG fun r cc => diagAdd x0 x1 (i 0).val (i 1).val r (colJ cc) (colL cc)) 16 _ ?_
    (ix2 p (pairCol j l))
    (View.cover_of_tiledL (List.take 16 (kernelRun0_A (F := Ideal) c i arg2 harg2 arg3 harg3 arg4 harg4 arg5 harg5 arg6 harg6 hc0 hc1 x0 x1).2.1) ![256, 1] (by sl_kernel_rfl) _)).trans ?_
  · unfold kernelRun0_A
    dsimp only
    sl_unfold_words
    simp only [ldBlock]
    refine List.forall_mem_cons.2 ⟨?c15, List.forall_mem_cons.2 ⟨?c14, List.forall_mem_cons.2 ⟨?c13, List.forall_mem_cons.2 ⟨?c12, List.forall_mem_cons.2 ⟨?c11, List.forall_mem_cons.2 ⟨?c10, List.forall_mem_cons.2 ⟨?c9, List.forall_mem_cons.2 ⟨?c8, List.forall_mem_cons.2 ⟨?c7, List.forall_mem_cons.2 ⟨?c6, List.forall_mem_cons.2 ⟨?c5, List.forall_mem_cons.2 ⟨?c4, List.forall_mem_cons.2 ⟨?c3, List.forall_mem_cons.2 ⟨?c2, List.forall_mem_cons.2 ⟨?c1, List.forall_mem_cons.2 ⟨?c0, fun _ h => absurd h List.not_mem_nil⟩⟩⟩⟩⟩⟩⟩⟩⟩⟩⟩⟩⟩⟩⟩⟩
    case c15 =>
      dsimp only
      refine colPiece_ok 15 (by decide) inb_S256x16_S256x1_0_15 _ _ fun r => ?_
      refine (col15_apply i x0 x1 _ r).trans ?_
      refine (congrArg (· + _) (zeroColA arg5 _ _ 15 (Rect.unit (s := S256x16) ![0, 0] S256x16.size inb_S256x16_S256x16_0_0) ?_ ?_ _)).trans ?_
      · rfl
      · rfl
      exact zero_add _
    case c14 =>
      dsimp only
      refine colPiece_ok 14 (by decide) inb_S256x16_S256x1_0_14 _ _ fun r => ?_
      refine (col14_apply i x0 x1 _ r).trans ?_
      refine (congrArg (· + _) (zeroColA arg5 _ _ 14 (Rect.unit (s := S256x16) ![0, 0] S256x16.size inb_S256x16_S256x16_0_0) ?_ ?_ _)).trans ?_
      · rfl
      · rfl
      exact zero_add _
    case c13 =>
      dsimp only
      refine colPiece_ok 13 (by decide) inb_S256x16_S256x1_0_13 _ _ fun r => ?_
      refine (col13_apply i x0 x1 _ r).trans ?_
      refine (congrArg (· + _) (zeroColA arg5 _ _ 13 (Rect.unit (s := S256x16) ![0, 0] S256x16.size inb_S256x16_S256x16_0_0) ?_ ?_ _)).trans ?_
      · rfl
      · rfl
      exact zero_add _
    case c12 =>
      dsimp only
      refine colPiece_ok 12 (by decide) inb_S256x16_S256x1_0_12 _ _ fun r => ?_
      refine (col12_apply i x0 x1 _ r).trans ?_
      refine (congrArg (· + _) (zeroColA arg5 _ _ 12 (Rect.unit (s := S256x16) ![0, 0] S256x16.size inb_S256x16_S256x16_0_0) ?_ ?_ _)).trans ?_
      · rfl
      · rfl
      exact zero_add _
    case c11 =>
      dsimp only
      refine colPiece_ok 11 (by decide) inb_S256x16_S256x1_0_11 _ _ fun r => ?_
      refine (col11_apply i x0 x1 _ r).trans ?_
      refine (congrArg (· + _) (zeroColA arg5 _ _ 11 (Rect.unit (s := S256x16) ![0, 0] S256x16.size inb_S256x16_S256x16_0_0) ?_ ?_ _)).trans ?_
      · rfl
      · rfl
      exact zero_add _
    case c10 =>
      dsimp only
      refine colPiece_ok 10 (by decide) inb_S256x16_S256x1_0_10 _ _ fun r => ?_
      refine (col10_apply i x0 x1 _ r).trans ?_
      refine (congrArg (· + _) (zeroColA arg5 _ _ 10 (Rect.unit (s := S256x16) ![0, 0] S256x16.size inb_S256x16_S256x16_0_0) ?_ ?_ _)).trans ?_
      · rfl
      · rfl
      exact zero_add _
    case c9 =>
      dsimp only
      refine colPiece_ok 9 (by decide) inb_S256x16_S256x1_0_9 _ _ fun r => ?_
      refine (col9_apply i x0 x1 _ r).trans ?_
      refine (congrArg (· + _) (zeroColA arg5 _ _ 9 (Rect.unit (s := S256x16) ![0, 0] S256x16.size inb_S256x16_S256x16_0_0) ?_ ?_ _)).trans ?_
      · rfl
      · rfl
      exact zero_add _
    case c8 =>
      dsimp only
      refine colPiece_ok 8 (by decide) inb_S256x16_S256x1_0_8 _ _ fun r => ?_
      refine (col8_apply i x0 x1 _ r).trans ?_
      refine (congrArg (· + _) (zeroColA arg5 _ _ 8 (Rect.unit (s := S256x16) ![0, 0] S256x16.size inb_S256x16_S256x16_0_0) ?_ ?_ _)).trans ?_
      · rfl
      · rfl
      exact zero_add _
    case c7 =>
      dsimp only
      refine colPiece_ok 7 (by decide) inb_S256x16_S256x1_0_7 _ _ fun r => ?_
      refine (col7_apply i x0 x1 _ r).trans ?_
      refine (congrArg (· + _) (zeroColA arg5 _ _ 7 (Rect.unit (s := S256x16) ![0, 0] S256x16.size inb_S256x16_S256x16_0_0) ?_ ?_ _)).trans ?_
      · rfl
      · rfl
      exact zero_add _
    case c6 =>
      dsimp only
      refine colPiece_ok 6 (by decide) inb_S256x16_S256x1_0_6 _ _ fun r => ?_
      refine (col6_apply i x0 x1 _ r).trans ?_
      refine (congrArg (· + _) (zeroColA arg5 _ _ 6 (Rect.unit (s := S256x16) ![0, 0] S256x16.size inb_S256x16_S256x16_0_0) ?_ ?_ _)).trans ?_
      · rfl
      · rfl
      exact zero_add _
    case c5 =>
      dsimp only
      refine colPiece_ok 5 (by decide) inb_S256x16_S256x1_0_5 _ _ fun r => ?_
      refine (col5_apply i x0 x1 _ r).trans ?_
      refine (congrArg (· + _) (zeroColA arg5 _ _ 5 (Rect.unit (s := S256x16) ![0, 0] S256x16.size inb_S256x16_S256x16_0_0) ?_ ?_ _)).trans ?_
      · rfl
      · rfl
      exact zero_add _
    case c4 =>
      dsimp only
      refine colPiece_ok 4 (by decide) inb_S256x16_S256x1_0_4 _ _ fun r => ?_
      refine (col4_apply i x0 x1 _ r).trans ?_
      refine (congrArg (· + _) (zeroColA arg5 _ _ 4 (Rect.unit (s := S256x16) ![0, 0] S256x16.size inb_S256x16_S256x16_0_0) ?_ ?_ _)).trans ?_
      · rfl
      · rfl
      exact zero_add _
    case c3 =>
      dsimp only
      refine colPiece_ok 3 (by decide) inb_S256x16_S256x1_0_3 _ _ fun r => ?_
      refine (col3_apply i x0 x1 _ r).trans ?_
      refine (congrArg (· + _) (zeroColA arg5 _ _ 3 (Rect.unit (s := S256x16) ![0, 0] S256x16.size inb_S256x16_S256x16_0_0) ?_ ?_ _)).trans ?_
      · rfl
      · rfl
      exact zero_add _
    case c2 =>
      dsimp only
      refine colPiece_ok 2 (by decide) inb_S256x16_S256x1_0_2 _ _ fun r => ?_
      refine (col2_apply i x0 x1 _ r).trans ?_
      refine (congrArg (· + _) (zeroColA arg5 _ _ 2 (Rect.unit (s := S256x16) ![0, 0] S256x16.size inb_S256x16_S256x16_0_0) ?_ ?_ _)).trans ?_
      · rfl
      · rfl
      exact zero_add _
    case c1 =>
      dsimp only
      refine colPiece_ok 1 (by decide) inb_S256x16_S256x1_0_1 _ _ fun r => ?_
      refine (col1_apply i x0 x1 _ r).trans ?_
      refine (congrArg (· + _) (zeroColA arg5 _ _ 1 (Rect.unit (s := S256x16) ![0, 0] S256x16.size inb_S256x16_S256x16_0_0) ?_ ?_ _)).trans ?_
      · rfl
      · rfl
      exact zero_add _
    case c0 =>
      dsimp only
      refine colPiece_ok 0 (by decide) inb_S256x16_S256x1_0_0 _ _ fun r => ?_
      refine (col0_apply i x0 x1 _ r).trans ?_
      refine (congrArg (· + _) (zeroColA arg5 _ _ 0 (Rect.unit (s := S256x16) ![0, 0] S256x16.size inb_S256x16_S256x16_0_0) ?_ ?_ _)).trans ?_
      · rfl
      · rfl
      exact zero_add _
  · rw [accG_ix2, colJ_pairCol, colL_pairCol]

end Cert.KernelIdeal.HandI

end
-- ==== Proof.KReadC.lean ====
/-
  What the kernel body leaves at the last step of the reduction axis, read at an index over the extended reals and
  written on the point's two input blocks. Each column 4j + l of the pair accumulator gains the point's masked row sums
  of the pair (j, l); the running sum gains the clamped squares of all sixteen pairs; and the output block holds, row by
  row, the loss formed from the two accumulators as this very step leaves them: the accumulators are read back whole
  after the step's stores, and a whole read-back of a buffer is what its stores left.
-/
import proofs.«150541_j83794811945494_1_alg».proof.Proof.KReadLib
import proofs.«150541_j83794811945494_1_alg».proof.Proof.PayCols

set_option maxRecDepth 16384

noncomputable section

open scoped BigOperators

namespace Cert.KernelIdeal.HandI

open Cert.KernelIdeal Cert.KernelIdeal.Gen Cert.KernelIdeal.Hand Cert.KernelIdeal.PayRead Cert.BlockSpec Cert.LossSpec
open Idealize.ShloMosaic Idealize.ShloMosaic.TcCoe Idealize.ShloMosaic.Tactic Idealize.ShloMosaic.ValueIdx
open Idealize.SL.Sem

/-! ## The two accumulators -/

/-- Column 4j + l of the pair accumulator after the last step: what it held plus the point's masked row sum. -/
theorem readC0 (c : Dev nD) (i : grid0.Coords) (arg2 : Memref sig .tc .vmem S256x4x256 .f32) (harg2 : arg2.IsWhole) (arg3 : Memref sig .tc .vmem S256x4x256 .f32) (harg3 : arg3.IsWhole) (arg4 : Memref sig .tc .vmem S256 .f32) (harg4 : arg4.IsWhole) (arg5 : Memref sig .tc .vmem S256x16 .f32) (harg5 : arg5.IsWhole) (arg6 : Memref sig .tc .vmem S256x1 .f32) (harg6 : arg6.IsWhole) (hc0 : ¬cond0_0 i) (hc1 : cond0_1 i)
    (x0 x1 : Vec Ideal S256x4x256 .f32) (xs0 : Vec Ideal S256x16 .f32) (xs1 : Vec Ideal S256x1 .f32) (p : Fin 256) (j l : Fin 4) :
    sout0_C_0 (F := Ideal) c i arg2 harg2 arg3 harg3 arg4 harg4 arg5 harg5 arg6 harg6 hc0 hc1 x0 x1 xs0 xs1 (ix2 p (pairCol j l))
      = xs0 (ix2 p (pairCol j l)) + diagAdd x0 x1 (i 0).val (i 1).val p j l := by
  unfold sout0_C_0
  refine (View.read_writes_apply_of_pieces VS0_0 VS0_0.junk
    (accG fun r cc => xs0 (ix2 r cc) + diagAdd x0 x1 (i 0).val (i 1).val r (colJ cc) (colL cc)) _ ?_
    (ix2 p (pairCol j l)) (scover0_C_0 (F := Ideal) c i arg2 harg2 arg3 harg3 arg4 harg4 arg5 harg5 arg6 harg6 hc0 hc1 x0 x1 xs0 xs1 (ix2 p (pairCol j l)))).trans ?_
  · unfold kernelRun0_C
    dsimp only
    sl_unfold_words
    simp only [ldBlock]
    refine List.forall_mem_cons.2 ⟨?c15, List.forall_mem_cons.2 ⟨?c14, List.forall_mem_cons.2 ⟨?c13, List.forall_mem_cons.2 ⟨?c12, List.forall_mem_cons.2 ⟨?c11, List.forall_mem_cons.2 ⟨?c10, List.forall_mem_cons.2 ⟨?c9, List.forall_mem_cons.2 ⟨?c8, List.forall_mem_cons.2 ⟨?c7, List.forall_mem_cons.2 ⟨?c6, List.forall_mem_cons.2 ⟨?c5, List.forall_mem_cons.2 ⟨?c4, List.forall_mem_cons.2 ⟨?c3, List.forall_mem_cons.2 ⟨?c2, List.forall_mem_cons.2 ⟨?c1, List.forall_mem_cons.2 ⟨?c0, fun _ h => absurd h List.not_mem_nil⟩⟩⟩⟩⟩⟩⟩⟩⟩⟩⟩⟩⟩⟩⟩⟩
    case c15 =>
      dsimp only
      refine colPiece_ok 15 (by decide) inb_S256x16_S256x1_0_15 _ _ fun r => ?_
      refine (col15_apply i x0 x1 _ r).trans ?_
      rw [ldCol arg5 harg5 xs0 15 (by decide)]
      rfl
    case c14 =>
      dsimp only
      refine colPiece_ok 14 (by decide) inb_S256x16_S256x1_0_14 _ _ fun r => ?_
      refine (col14_apply i x0 x1 _ r).trans ?_
      rw [ldCol arg5 harg5 xs0 14 (by decide)]
      rfl
    case c13 =>
      dsimp only
      refine colPiece_ok 13 (by decide) inb_S256x16_S256x1_0_13 _ _ fun r => ?_
      refine (col13_apply i x0 x1 _ r).trans ?_
      rw [ldCol arg5 harg5 xs0 13 (by decide)]
      rfl
    case c12 =>
      dsimp only
      refine colPiece_ok 12 (by decide) inb_S256x16_S256x1_0_12 _ _ fun r => ?_
      refine (col12_apply i x0 x1 _ r).trans ?_
      rw [ldCol arg5 harg5 xs0 12 (by decide)]
      rfl
    case c11 =>
      dsimp only
      refine colPiece_ok 11 (by decide) inb_S256x16_S256x1_0_11 _ _ fun r => ?_
      refine (col11_apply i x0 x1 _ r).trans ?_
      rw [ldCol arg5 harg5 xs0 11 (by decide)]
      rfl
    case c10 =>
      dsimp only
      refine colPiece_ok 10 (by decide) inb_S256x16_S256x1_0_10 _ _ fun r => ?_
      refine (col10_apply i x0 x1 _ r).trans ?_
      rw [ldCol arg5 harg5 xs0 10 (by decide)]
      rfl
    case c9 =>
      dsimp only
      refine colPiece_ok 9 (by decide) inb_S256x16_S256x1_0_9 _ _ fun r => ?_
      refine (col9_apply i x0 x1 _ r).trans ?_
      rw [ldCol arg5 harg5 xs0 9 (by decide)]
      rfl
    case c8 =>
      dsimp only
      refine colPiece_ok 8 (by decide) inb_S256x16_S256x1_0_8 _ _ fun r => ?_
      refine (col8_apply i x0 x1 _ r).trans ?_
      rw [ldCol arg5 harg5 xs0 8 (by decide)]
      rfl
    case c7 =>
      dsimp only
      refine colPiece_ok 7 (by decide) inb_S256x16_S256x1_0_7 _ _ fun r => ?_
      refine (col7_apply i x0 x1 _ r).trans ?_
      rw [ldCol arg5 harg5 xs0 7 (by decide)]
      rfl
    case c6 =>
      dsimp only
      refine colPiece_ok 6 (by decide) inb_S256x16_S256x1_0_6 _ _ fun r => ?_
      refine (col6_apply i x0 x1 _ r).trans ?_
      rw [ldCol arg5 harg5 xs0 6 (by decide)]
      rfl
    case c5 =>
      dsimp only
      refine colPiece_ok 5 (by decide) inb_S256x16_S256x1_0_5 _ _ fun r => ?_
      refine (col5_apply i x0 x1 _ r).trans ?_
      rw [ldCol arg5 harg5 xs0 5 (by decide)]
      rfl
    case c4 =>
      dsimp only
      refine colPiece_ok 4 (by decide) inb_S256x16_S256x1_0_4 _ _ fun r => ?_
      refine (col4_apply i x0 x1 _ r).trans ?_
      rw [ldCol arg5 harg5 xs0 4 (by decide)]
      rfl
    case c3 =>
      dsimp only
      refine colPiece_ok 3 (by decide) inb_S256x16_S256x1_0_3 _ _ fun r => ?_
      refine (col3_apply i x0 x1 _ r).trans ?_
      rw [ldCol arg5 harg5 xs0 3 (by decide)]
      rfl
    case c2 =>
      dsimp only
      refine colPiece_ok 2 (by decide) inb_S256x16_S256x1_0_2 _ _ fun r => ?_
      refine (col2_apply i x0 x1 _ r).trans ?_
      rw [ldCol arg5 harg5 xs0 2 (by decide)]
      rfl
    case c1 =>
      dsimp only
      refine colPiece_ok 1 (by decide) inb_S256x16_S256x1_0_1 _ _ fun r => ?_
      refine (col1_apply i x0 x1 _ r).trans ?_
      rw [ldCol arg5 harg5 xs0 1 (by decide)]
      rfl
    case c0 =>
      dsimp only
      refine colPiece_ok 0 (by decide) inb_S256x16_S256x1_0_0 _ _ fun r => ?_
      refine (col0_apply i x0 x1 _ r).trans ?_
      rw [ldCol arg5 harg5 xs0 0 (by decide)]
      rfl
  · rw [accG_ix2, colJ_pairCol, colL_pairCol]

/-- The running sum after the last step: what it held plus the point's clamped squares. -/
theorem readC1 (c : Dev nD) (i : grid0.Coords) (arg2 : Memref sig .tc .vmem S256x4x256 .f32) (harg2 : arg2.IsWhole) (arg3 : Memref sig .tc .vmem S256x4x256 .f32) (harg3 : arg3.IsWhole) (arg4 : Memref sig .tc .vmem S256 .f32) (harg4 : arg4.IsWhole) (arg5 : Memref sig .tc .vmem S256x16 .f32) (harg5 : arg5.IsWhole) (arg6 : Memref sig .tc .vmem S256x1 .f32) (harg6 : arg6.IsWhole) (hc0 : ¬cond0_0 i) (hc1 : cond0_1 i)
    (x0 x1 : Vec Ideal S256x4x256 .f32) (xs0 : Vec Ideal S256x16 .f32) (xs1 : Vec Ideal S256x1 .f32) (p : Fin 256) :
    sout0_C_1 (F := Ideal) c i arg2 harg2 arg3 harg3 arg4 harg4 arg5 harg5 arg6 harg6 hc0 hc1 x0 x1 xs0 xs1 (ix2 p 0) = xs1 (ix2 p 0) + sqAdd x0 x1 p := by
  unfold sout0_C_1
  refine (View.read_writes_apply_of_pieces VS0_1 VS0_1.junk
    (sqG fun r => xs1 (ix2 r 0) + sqAdd x0 x1 r) _ ?_
    (ix2 p 0) (scover0_C_1 (F := Ideal) c i arg2 harg2 arg3 harg3 arg4 harg4 arg5 harg5 arg6 harg6 hc0 hc1 x0 x1 xs0 xs1 (ix2 p 0))).trans ?_
  · unfold kernelRun0_C
    dsimp only
    sl_unfold_words
    simp only [ldBlock, ldSq]
    refine List.forall_mem_cons.2 ⟨?_, fun _ h => absurd h List.not_mem_nil⟩
    dsimp only
    exact sqPiece_ok inb_S256x1_S256x1_0_0 _ _ fun r => sqNew_apply x0 x1 xs1 r
  · rfl

/-! ## The output block -/

private theorem hz1 : (![0] : Fin 1 → ℕ) = fun _ => 0 := funext fun a => by
  match a with
  | ⟨0, _⟩ => rfl
private theorem hz2 : (![0, 0] : Fin 2 → ℕ) = fun _ => 0 := funext fun a => by
  match a with
  | ⟨0, _⟩ => rfl
  | ⟨1, _⟩ => rfl

/-- The pair accumulator read back whole after a list of stores is what the stores leave. -/
private theorem readBack16 {sg : RefSig} {κ : Kind} {sp : Space} (v : View sg κ sp S256x16 .f32)
    (L : List (View.Piece (Elt Ideal) S256x16 .f32))
    (inb : ∀ a, (![0, 0] : Fin 2 → ℕ) a + S256x16.size a ≤ S256x16.size a) :
    v.readCov L (Rect.unit (s := S256x16) ![0, 0] S256x16.size inb).toLoadRect = View.canon L := by
  rw [View.readCov_eq_canon']
  exact View.ld_unit_zero (S := S256x16) hz2 inb (View.canon L)

/-- The running sum read back whole after a list of stores is what the stores leave. -/
private theorem readBack1 {sg : RefSig} {κ : Kind} {sp : Space} (v : View sg κ sp S256x1 .f32)
    (L : List (View.Piece (Elt Ideal) S256x1 .f32))
    (inb : ∀ a, (![0, 0] : Fin 2 → ℕ) a + S256x1.size a ≤ S256x1.size a) :
    v.readCov L (Rect.unit (s := S256x1) ![0, 0] S256x1.size inb).toLoadRect = View.canon L := by
  rw [View.readCov_eq_canon']
  exact View.ld_unit_zero (S := S256x1) hz2 inb (View.canon L)

/-- The stored row loss as a function of the two accumulators it is formed from, the clamp's floor as its word. -/
private theorem out_of (V366 : Vec Ideal S256x16 .f32) (V479 : Vec Ideal S256x1 .f32) (p : Fin 256) :
    k0_pay2 (F := Ideal) V366 (k0_pay16 V366 (k0_pay9 V366)) (k0_pay17 V366 (k0_pay7 V366) (k0_pay8 V366))
        (k0_pay18 V366) (k0_pay19 V366) (FloatOps.ofBits (F := Ideal) .f32 841731191#32) V479 (ix1 p)
      = lossOf (fun r c => V366 (ix2 r c)) (fun r => V479 (ix2 r 0)) p :=
  final_apply_lossOf V366 V479 p

/-- The output block after the last step: row p holds the loss formed from the two accumulators as the step leaves
    them. Both accumulators and the output block are what their stores leave; the final store's payload reads the
    accumulators back whole, which is again what their stores leave. -/
theorem readC2 (c : Dev nD) (i : grid0.Coords) (arg2 : Memref sig .tc .vmem S256x4x256 .f32) (harg2 : arg2.IsWhole) (arg3 : Memref sig .tc .vmem S256x4x256 .f32) (harg3 : arg3.IsWhole) (arg4 : Memref sig .tc .vmem S256 .f32) (harg4 : arg4.IsWhole) (arg5 : Memref sig .tc .vmem S256x16 .f32) (harg5 : arg5.IsWhole) (arg6 : Memref sig .tc .vmem S256x1 .f32) (harg6 : arg6.IsWhole) (hc0 : ¬cond0_0 i) (hc1 : cond0_1 i)
    (x0 x1 : Vec Ideal S256x4x256 .f32) (xs0 : Vec Ideal S256x16 .f32) (xs1 : Vec Ideal S256x1 .f32) (p : Fin 256) :
    out0_C_2 (F := Ideal) c i arg2 harg2 arg3 harg3 arg4 harg4 arg5 harg5 arg6 harg6 hc0 hc1 x0 x1 xs0 xs1 (ix1 p)
      = lossOf (fun p cc => sout0_C_0 (F := Ideal) c i arg2 harg2 arg3 harg3 arg4 harg4 arg5 harg5 arg6 harg6 hc0 hc1 x0 x1 xs0 xs1 (ix2 p cc))
          (fun p => sout0_C_1 (F := Ideal) c i arg2 harg2 arg3 harg3 arg4 harg4 arg5 harg5 arg6 harg6 hc0 hc1 x0 x1 xs0 xs1 (ix2 p 0)) p := by
  unfold out0_C_2 sout0_C_0 sout0_C_1
  simp only [View.read_writes_junk_eq_canon]
  unfold kernelRun0_C
  dsimp only
  sl_unfold_words
  rw [View.canon_unit_zero hz1]
  rw [readBack16, readBack1]
  generalize (View.canon (Val := Elt Ideal) (s := S256x16) (e := .f32) _) = A
  generalize (View.canon (Val := Elt Ideal) (s := S256x1) (e := .f32) _) = B
  exact out_of A B p

end Cert.KernelIdeal.HandI

end
-- ==== Proof.KValue.lean ====
/-
  The kernel's output array is the array of per-row losses. Point t of the 8 × 8 grid has row-block coordinate t / 8 and
  reduction coordinate t % 8; its two input blocks are blocks t / 8 and t % 8 of the argument's rows. Along the
  reduction axis the two accumulators hold, after point t, the sums over the reduction coordinates up to t % 8 of what
  each point adds (the first step starts afresh); at the last step they hold the full sums over the eight blocks, which
  are the row's diagonal entries and its total of clamped squares, and the closing formula gives the row's loss. The
  points at the last step write their blocks back, and those blocks cover the 2048 rows.
-/
import proofs.«150541_j83794811945494_1_alg».proof.Proof.KFrame
import proofs.«150541_j83794811945494_1_alg».proof.Proof.KBlocks
import proofs.«150541_j83794811945494_1_alg».proof.Proof.BlockMath
import proofs.«150541_j83794811945494_1_alg».proof.Proof.KRead
import proofs.«150541_j83794811945494_1_alg».proof.Proof.KReadA
import proofs.«150541_j83794811945494_1_alg».proof.Proof.KReadC
import Idealize.ShloMosaic.Lib.Pipeline.Value

set_option maxRecDepth 16384

noncomputable section

open scoped BigOperators

namespace Cert.KernelIdeal.HandI

open Cert.KernelIdeal Cert.KernelIdeal.Gen Cert.KernelIdeal.Hand Cert.BlockSpec Cert.LossSpec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ)

/-! ## The grid's coordinates -/

/-- The row-block coordinate of point t is t / 8 … -/
theorem coords0 : ∀ t : Fin cfg0.N, ((grid0.coords t) 0).val = t.val / 8 :=
  (by decide +kernel : ∀ t : Fin grid0.N, ((grid0.coords t) 0).val = t.val / 8)
/-- … and its reduction coordinate t % 8. -/
theorem coords1 : ∀ t : Fin cfg0.N, ((grid0.coords t) 1).val = t.val % 8 :=
  (by decide +kernel : ∀ t : Fin grid0.N, ((grid0.coords t) 1).val = t.val % 8)

/-! ## The input blocks are blocks of the argument -/

/-- The argument array on core c. -/
abbrev arg (c : Dev nD) : A3.Idx → EReal := (V m c main_arg0 : S2048x4x256.Idx → Elt Ideal .f32)

/-- The first input block at point t is block t / 8 of the argument. -/
theorem iblk0_eq (c : Dev nD) (t : Fin cfg0.N) (I : Fin 8) (hI : I.val = t.val / 8) :
    (iblk m c 0 t : B3.Idx → EReal) = blk (arg m c) I := by
  funext y
  obtain ⟨p, j, d, rfl⟩ : ∃ p j d, y = ix3 p j d := ⟨y 0, y 1, y 2, eq_ix3 y⟩
  refine (iblk0_apply m c t p j d).trans ?_
  rw [blk_ix3]
  exact congrArg (fun r => arg m c (ix3 r j d)) (Fin.ext (by rw [blockRow_val, hI]))

/-- The second input block at point t is block t % 8 of the argument. -/
theorem iblk1_eq (c : Dev nD) (t : Fin cfg0.N) (K : Fin 8) (hK : K.val = t.val % 8) :
    (iblk m c 1 t : B3.Idx → EReal) = blk (arg m c) K := by
  funext y
  obtain ⟨p, j, d, rfl⟩ : ∃ p j d, y = ix3 p j d := ⟨y 0, y 1, y 2, eq_ix3 y⟩
  refine (iblk1_apply m c t p j d).trans ?_
  rw [blk_ix3]
  exact congrArg (fun r => arg m c (ix3 r j d)) (Fin.ext (by rw [blockRow_val, hK]))

/-! ## One point's step on the two accumulators

Which case of the body a point is in is decided by its position along the reduction axis; each case's contents, read
at an index, are the point's additions to what the point before left (to nothing, at the first step). -/

theorem stepA0 (c : Dev nD) (n : ℕ) (hn : n < cfg0.N) (h0 : n % 8 = 0) (p : Fin 256) (j l : Fin 4) :
    (outsAt0 m c n hn).2.1 (ix2 p (pairCol j l))
      = diagAdd (iblk m c 0 ⟨n, hn⟩) (iblk m c 1 ⟨n, hn⟩) ((grid0.coords ⟨n, hn⟩) 0).val ((grid0.coords ⟨n, hn⟩) 1).val p j l := by
  have h7 : ¬n % 8 = 7 := by omega
  have e : outsAt0 m c n hn = _ := outsAt0_A m c ⟨n, hn⟩ h0 h7
  rw [e]
  exact readA0 c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _) scM0_1 (Memref.isWhole_whole _) ((hcond0_0 ⟨n, hn⟩).mpr h0) (fun h => h7 ((hcond0_1 ⟨n, hn⟩).mp h)) (iblk m c 0 ⟨n, hn⟩) (iblk m c 1 ⟨n, hn⟩) p j l

theorem stepA1 (c : Dev nD) (n : ℕ) (hn : n < cfg0.N) (h0 : n % 8 = 0) (p : Fin 256) :
    (outsAt0 m c n hn).2.2 (ix2 p 0) = sqAdd (iblk m c 0 ⟨n, hn⟩) (iblk m c 1 ⟨n, hn⟩) p := by
  have h7 : ¬n % 8 = 7 := by omega
  have e : outsAt0 m c n hn = _ := outsAt0_A m c ⟨n, hn⟩ h0 h7
  rw [e]
  exact readA1 c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _) scM0_1 (Memref.isWhole_whole _) ((hcond0_0 ⟨n, hn⟩).mpr h0) (fun h => h7 ((hcond0_1 ⟨n, hn⟩).mp h)) (iblk m c 0 ⟨n, hn⟩) (iblk m c 1 ⟨n, hn⟩) p

theorem stepBC0 (c : Dev nD) (n : ℕ) (hn : n < cfg0.N) (h0 : ¬n % 8 = 0) (hn' : n - 1 < cfg0.N) (p : Fin 256) (j l : Fin 4) :
    (outsAt0 m c n hn).2.1 (ix2 p (pairCol j l))
      = (outsAt0 m c (n - 1) hn').2.1 (ix2 p (pairCol j l))
        + diagAdd (iblk m c 0 ⟨n, hn⟩) (iblk m c 1 ⟨n, hn⟩) ((grid0.coords ⟨n, hn⟩) 0).val ((grid0.coords ⟨n, hn⟩) 1).val p j l := by
  by_cases h7 : n % 8 = 7
  · have e : outsAt0 m c n hn = _ := outsAt0_C m c ⟨n, hn⟩ h0 h7
    rw [e]
    exact readC0 c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _) scM0_1 (Memref.isWhole_whole _) (fun h => h0 ((hcond0_0 ⟨n, hn⟩).mp h)) ((hcond0_1 ⟨n, hn⟩).mpr h7) (iblk m c 0 ⟨n, hn⟩) (iblk m c 1 ⟨n, hn⟩) (outsAt0 m c (n - 1) hn').2.1 (outsAt0 m c (n - 1) hn').2.2 p j l
  · have e : outsAt0 m c n hn = _ := outsAt0_B m c ⟨n, hn⟩ h0 h7
    rw [e]
    exact readB0 c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _) scM0_1 (Memref.isWhole_whole _) (fun h => h0 ((hcond0_0 ⟨n, hn⟩).mp h)) (fun h => h7 ((hcond0_1 ⟨n, hn⟩).mp h)) (iblk m c 0 ⟨n, hn⟩) (iblk m c 1 ⟨n, hn⟩) (outsAt0 m c (n - 1) hn').2.1 (outsAt0 m c (n - 1) hn').2.2 p j l

theorem stepBC1 (c : Dev nD) (n : ℕ) (hn : n < cfg0.N) (h0 : ¬n % 8 = 0) (hn' : n - 1 < cfg0.N) (p : Fin 256) :
    (outsAt0 m c n hn).2.2 (ix2 p 0)
      = (outsAt0 m c (n - 1) hn').2.2 (ix2 p 0) + sqAdd (iblk m c 0 ⟨n, hn⟩) (iblk m c 1 ⟨n, hn⟩) p := by
  by_cases h7 : n % 8 = 7
  · have e : outsAt0 m c n hn = _ := outsAt0_C m c ⟨n, hn⟩ h0 h7
    rw [e]
    exact readC1 c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _) scM0_1 (Memref.isWhole_whole _) (fun h => h0 ((hcond0_0 ⟨n, hn⟩).mp h)) ((hcond0_1 ⟨n, hn⟩).mpr h7) (iblk m c 0 ⟨n, hn⟩) (iblk m c 1 ⟨n, hn⟩) (outsAt0 m c (n - 1) hn').2.1 (outsAt0 m c (n - 1) hn').2.2 p
  · have e : outsAt0 m c n hn = _ := outsAt0_B m c ⟨n, hn⟩ h0 h7
    rw [e]
    exact readB1 c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _) scM0_1 (Memref.isWhole_whole _) (fun h => h0 ((hcond0_0 ⟨n, hn⟩).mp h)) (fun h => h7 ((hcond0_1 ⟨n, hn⟩).mp h)) (iblk m c 0 ⟨n, hn⟩) (iblk m c 1 ⟨n, hn⟩) (outsAt0 m c (n - 1) hn').2.1 (outsAt0 m c (n - 1) hn').2.2 p

theorem stepC2 (c : Dev nD) (n : ℕ) (hn : n < cfg0.N) (h7 : n % 8 = 7) (p : Fin 256) :
    (outsAt0 m c n hn).1 (ix1 p)
      = lossOf (fun p cc => (outsAt0 m c n hn).2.1 (ix2 p cc)) (fun p => (outsAt0 m c n hn).2.2 (ix2 p 0)) p := by
  have h0 : ¬n % 8 = 0 := by omega
  have e : outsAt0 m c n hn = _ := outsAt0_C m c ⟨n, hn⟩ h0 h7
  have hn' : n - 1 < cfg0.N := Nat.lt_of_le_of_lt (Nat.sub_le _ _) hn
  rw [e]
  exact readC2 c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _) scM0_1 (Memref.isWhole_whole _) (fun h => h0 ((hcond0_0 ⟨n, hn⟩).mp h)) ((hcond0_1 ⟨n, hn⟩).mpr h7) (iblk m c 0 ⟨n, hn⟩) (iblk m c 1 ⟨n, hn⟩) (outsAt0 m c (n - 1) hn').2.1 (outsAt0 m c (n - 1) hn').2.2 p

/-! ## The invariant along the reduction axis -/

theorem diagAdd_congr (x y : B3.Idx → EReal) {I I' K K' : ℕ} (hI : I = I') (hK : K = K') (p : Fin 256) (j l : Fin 4) :
    diagAdd x y I K p j l = diagAdd x y I' K' p j l := by subst hI hK; rfl

/-- What one point adds, on blocks of the argument: I the point's row block, K its reduction coordinate. -/
theorem add0_eq (c : Dev nD) (n : ℕ) (hn : n < cfg0.N) (I K : Fin 8) (hI : I.val = n / 8) (hK : K.val = n % 8)
    (p : Fin 256) (j l : Fin 4) :
    diagAdd (iblk m c 0 ⟨n, hn⟩) (iblk m c 1 ⟨n, hn⟩) ((grid0.coords ⟨n, hn⟩) 0).val ((grid0.coords ⟨n, hn⟩) 1).val p j l
      = diagAdd (blk (arg m c) I) (blk (arg m c) K) I.val K.val p j l := by
  rw [iblk0_eq m c ⟨n, hn⟩ I hI, iblk1_eq m c ⟨n, hn⟩ K hK]
  exact diagAdd_congr _ _ ((coords0 ⟨n, hn⟩).trans hI.symm) ((coords1 ⟨n, hn⟩).trans hK.symm) p j l

theorem add1_eq (c : Dev nD) (n : ℕ) (hn : n < cfg0.N) (I K : Fin 8) (hI : I.val = n / 8) (hK : K.val = n % 8) (p : Fin 256) :
    sqAdd (iblk m c 0 ⟨n, hn⟩) (iblk m c 1 ⟨n, hn⟩) p = sqAdd (blk (arg m c) I) (blk (arg m c) K) p := by
  rw [iblk0_eq m c ⟨n, hn⟩ I hI, iblk1_eq m c ⟨n, hn⟩ K hK]

/-- After point n, in row block I = n / 8: the pair accumulator holds the sum of the points' additions over the
    reduction coordinates up to n % 8, and so does the running sum of clamped squares. -/
theorem inv (c : Dev nD) : ∀ (n : ℕ) (hn : n < cfg0.N) (I : Fin 8), I.val = n / 8 →
    (∀ (p : Fin 256) (j l : Fin 4), (outsAt0 m c n hn).2.1 (ix2 p (pairCol j l))
        = upTo (fun K : Fin 8 => diagAdd (blk (arg m c) I) (blk (arg m c) K) I.val K.val p j l) (n % 8))
    ∧ (∀ p : Fin 256, (outsAt0 m c n hn).2.2 (ix2 p 0)
        = upTo (fun K : Fin 8 => sqAdd (blk (arg m c) I) (blk (arg m c) K) p) (n % 8)) := by
  intro n
  induction n using Nat.strong_induction_on with
  | _ n ih =>
    intro hn I hI
    have h64 : n < 64 := hn
    by_cases h0 : n % 8 = 0
    · -- the first step of the axis: the accumulators start afresh
      have hK : (0 : Fin 8).val = n % 8 := by rw [h0]; rfl
      constructor
      · intro p j l
        rw [h0, upTo_zero]
        exact (stepA0 m c n hn h0 p j l).trans (add0_eq m c n hn I 0 hI hK p j l)
      · intro p
        rw [h0, upTo_zero]
        exact (stepA1 m c n hn h0 p).trans (add1_eq m c n hn I 0 hI hK p)
    · -- a later step: the point before is in the same row block
      obtain ⟨k, hk⟩ : ∃ k, n % 8 = k + 1 := ⟨n % 8 - 1, by omega⟩
      have hk8 : k + 1 < 8 := by omega
      have hn' : n - 1 < cfg0.N := Nat.lt_of_le_of_lt (Nat.sub_le _ _) hn
      have hI' : I.val = (n - 1) / 8 := by omega
      have hprev : (n - 1) % 8 = k := by omega
      obtain ⟨ih0, ih1⟩ := ih (n - 1) (by omega) hn' I hI'
      have hK : (⟨k + 1, hk8⟩ : Fin 8).val = n % 8 := hk.symm
      constructor
      · intro p j l
        have ihp := ih0 p j l
        rw [hprev] at ihp
        rw [hk, upTo_succ _ k hk8, ← ihp]
        exact (stepBC0 m c n hn h0 hn' p j l).trans (congrArg _ (add0_eq m c n hn I ⟨k + 1, hk8⟩ hI hK p j l))
      · intro p
        have ihp := ih1 p
        rw [hprev] at ihp
        rw [hk, upTo_succ _ k hk8, ← ihp]
        exact (stepBC1 m c n hn h0 hn' p).trans (congrArg _ (add1_eq m c n hn I ⟨k + 1, hk8⟩ hI hK p))

/-! ## The row losses at the last step of the axis -/

/-- At a point at the last step of the reduction axis, the output block holds the losses of the rows of block t / 8. -/
theorem rowLoss (c : Dev nD) (n : ℕ) (hn : n < cfg0.N) (h7 : n % 8 = 7) (I : Fin 8) (hI : I.val = n / 8) (p : Fin 256) :
    (outsAt0 m c n hn).1 (ix1 p) = loss (arg m c) (blockRow I p) := by
  obtain ⟨i0, i1⟩ := inv m c n hn I hI
  rw [stepC2 m c n hn h7 p]
  refine lossOf_eq (arg m c) I _ _ (fun p j l => ?_) (fun p => ?_) p
  · exact (i0 p j l).trans (by rw [h7, upTo_seven]; exact sum_diagAdd (arg m c) I p j l)
  · exact (i1 p).trans (by rw [h7, upTo_seven]; exact sum_sqAdd (arg m c) I p)

/-! ## The output array -/

/-- What a point at the last step of the axis writes back is its block of the array of per-row losses. -/
theorem flushed2_eq (c : Dev nD) (t : Fin cfg0.N) (hf : (cfg0.win 2).flush t = true) :
    (dats m 0 c).flushed 2 t
      = ((cfg0.win 2).blk t).view.read (Elt Ideal) (lossArr (arg m c) : S2048.Idx → Elt Ideal .f32) := by
  show (cfg0.win 2).cut (grid0.coords t) ((dats m 0 c).after 2 t) = _
  rw [after0_2]
  have h7 : t.val % 8 = 7 := (flush0_2 t).mp hf
  have h64 : t.val < 64 := point_lt t
  funext x
  rw [View.read_apply]
  have hx0 : (x 0).val < 256 := Nat.lt_of_lt_of_le (x 0).isLt ((cfg0.win 2).xsize_le (grid0.coords t) 0)
  have e : (outsAt0 m c t.val t.isLt).1 ((cfg0.win 2).xinj (grid0.coords t) x)
      = (outsAt0 m c t.val t.isLt).1 (ix1 (⟨(x 0).val, hx0⟩ : Fin 256)) :=
    congrArg _ (funext fun a => by
      match a with
      | ⟨0, _⟩ => rfl)
  show (outsAt0 m c t.val t.isLt).1 ((cfg0.win 2).xinj (grid0.coords t) x) = loss (arg m c) ((((cfg0.win 2).blk t).view.emb x) 0)
  rw [e, rowLoss m c t.val t.isLt h7 ⟨t.val / 8, by omega⟩ rfl]
  congr 1
  apply Fin.ext
  show 256 * (t.val / 8) + (x 0).val = win0_2.index t (0 : Fin 1) * 256 + 1 * (x 0).val
  rw [idx2 t]; omega

/-- Every row of the result is in the block of a point that writes back. -/
theorem cover2 (r : S2048.Idx) :
    ∃ t : Fin cfg0.N, (cfg0.win 2).flush t = true ∧ r ∈ ((cfg0.win 2).blk t).view.set := by
  obtain ⟨q, rfl⟩ : ∃ q : Fin 2048, r = ix1 q := ⟨r 0, eq_ix1 r⟩
  have hq : q.val < 2048 := q.isLt
  have hlt : 8 * (q.val / 256) + 7 < cfg0.N := by show _ < 64; omega
  refine ⟨⟨8 * (q.val / 256) + 7, hlt⟩, (flush0_2 _).mpr (by show (8 * (q.val / 256) + 7) % 8 = 7; omega), ?_⟩
  exact (mem_blk2 _ q).mpr (by show q.val / 256 = (8 * (q.val / 256) + 7) / 8; omega)

/-- The kernel's output array after the run is the array of per-row losses of its argument. -/
theorem final (c : Dev nD) :
    (dats m 0 c).arrAt 2 cfg0.N = (lossArr (arg m c) : S2048.Idx → Elt Ideal .f32) :=
  (dats m 0 c).arrAt_eq_of_cover 2 _ (fun t hf => flushed2_eq m c t hf) (cover2)

end Cert.KernelIdeal.HandI

end
-- ==== Proof.lean ====
/-
  The kernel forms, for each of the 2048 rows i of the argument, the loss
      −2 · (Σ_{j ≠ l} dp i j i l) / 12 + (Σ_{k,j,l} max (dp i j k l)² c − Σ_{j,l} max (dp i j i l)² c) / 32752,
  dp i j k l = exp (s i j k l − max_l s i j k l), s the Gram tensor of the rows' contexts, and the mean of the losses.
  The kernel walks an 8 × 8 grid of blocks of 256 rows: along the second axis it adds, into one accumulator per context
  pair, the exponentials on the diagonal i = k (picked by a 0/1 indicator), and into another the clamped squares of all of
  them; at the last step of the axis it forms the row losses. The reference builds the whole tensor at once. On the
  extended reals the two are one function: a sum may be cut into blocks and regrouped, a product with the indicator
  keeps exactly the diagonal term (x · 0 = 0 and x · 1 = x for every extended real), the largest of four numbers is
  their fold from −∞. No law used needs a finite operand, so the precondition is never opened.

  The three frames. The reference is host operations only: its run, the result dropped. The kernel's two input windows
  read ONE array; each holds it at one half of the full share, so that the launch can hand the array to both. The body
  is run once per case of its two conditions (first step of the axis: the accumulators are reset; last step: the output
  block is stored; else neither), the same text at the word-level and at the ideal instance.
-/
import proofs.«150541_j83794811945494_1_alg».proof.Defs
import proofs.«150541_j83794811945494_1_alg».proof.Proof.Gen.Kernel
import proofs.«150541_j83794811945494_1_alg».proof.Proof.Gen.KernelIdeal
import proofs.«150541_j83794811945494_1_alg».proof.Proof.Gen.ReferenceIdeal
import proofs.«150541_j83794811945494_1_alg».proof.Proof.Gen.Pre_finite_inputs
import proofs.«150541_j83794811945494_1_alg».proof.Proof.WBody
import proofs.«150541_j83794811945494_1_alg».proof.Proof.WLaunch
import proofs.«150541_j83794811945494_1_alg».proof.Proof.KBody
import proofs.«150541_j83794811945494_1_alg».proof.Proof.KLaunch
import proofs.«150541_j83794811945494_1_alg».proof.Proof.RefLoss
import proofs.«150541_j83794811945494_1_alg».proof.Proof.KValue
import Idealize.ShloMosaic.Adequacy
import Idealize.ShloMosaic.Init

noncomputable section

namespace Cert.Proof

open Idealize.ShloMosaic Idealize.ShloMosaic.TcCoe Idealize.SL.Sem

/-- The word-level kernel runs to the end, faults nowhere and leaves its argument as it found it. -/
theorem frame_k : Cert.frame_Kernel := fun m ρ _ =>
  (θ_run Cert.Kernel.defs _ _).mono (fun _ h c => (h c).1)
    (Cert.Kernel.Hand.run_of (F := Bits) m ρ (Cert.Kernel.Hand.dats m) (Cert.Kernel.Hand.q0_eq m) (Cert.Kernel.Hand.q1_eq m)
      (fun c => (Cert.Kernel.Hand.body_obligation m c).loose) (fun _ _ => rfl) (Cert.Kernel.Hand.A_eq m)
      (Cert.Kernel.Hand.hin m) (Cert.Kernel.Hand.hout m))

section
open Cert.KernelIdeal Cert.KernelIdeal.Gen Cert.KernelIdeal.Hand

/-- The idealized kernel's run, with what its result buffer ends holding: the mean, as the two host operations take
    it, of the output array the region leaves. -/
theorem run_ki (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_v2) = Host.divf (F := Ideal) (Host.reduceAdd (F := Ideal) ((dats m 0 c).arrAt 2 cfg0.N) (constant (F := Ideal) S_ .f32 0x00000000#32) reducesTo_S2048_S_d0 h_S_) (constant (F := Ideal) S_ .f32 0x45000000#32)) :=
  run_of (F := Ideal) m ρ (dats m) (q0_eq m) (q1_eq m)
    (fun c => (body_obligation m c).loose) (fun _ _ => rfl) (A_eq m) (hin m) (hout m)

end

theorem frame_ki : Cert.frame_KernelIdeal := fun m ρ _ =>
  (θ_run Cert.KernelIdeal.defs _ _).mono (fun _ h c => (h c).1) (run_ki m ρ)

theorem frame_ri : Cert.frame_ReferenceIdeal := Cert.RefLoss.frame

/-- Both programs end at the mean of the row losses of the argument. -/
theorem algebraic : Cert.algebraic_KernelIdeal_ReferenceIdeal := by
  intro m ρ m' ρ' _ hagree
  refine ⟨fun c => Host.divf (F := Ideal) (Host.reduceAdd (F := Ideal)
      (Cert.LossSpec.lossArr (m ((c.tc : Thread Cert.KernelIdeal.nD Cert.KernelIdeal.τ).loc Cert.KernelIdeal.main_arg0)))
      (constant (F := Ideal) Cert.KernelIdeal.S_ .f32 0x00000000#32) Cert.KernelIdeal.Gen.reducesTo_S2048_S_d0 Cert.KernelIdeal.Gen.h_S_)
      (constant (F := Ideal) Cert.KernelIdeal.S_ .f32 0x45000000#32), ?_, ?_⟩
  · refine (θ_run Cert.KernelIdeal.defs _ _).mono (fun _ h c => ⟨(h c).2.trans ?_, (h c).1⟩) (run_ki m ρ)
    rw [Cert.KernelIdeal.HandI.final m c]
    rfl
  · refine (θ_run Cert.ReferenceIdeal.defs _ _).mono (fun _ h c => ⟨((h c).1.trans (Cert.RefLoss.result_eq m' c)).trans ?_, (h c).2⟩)
      (Cert.ReferenceIdeal.Value.run (F := Ideal) m' ρ')
    rw [hagree c]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
